-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v470)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v470) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v469) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x3 : Shape := ⟨3, ![4096, 128, 3]⟩
abbrev S512x512x64 : Shape := ⟨3, ![512, 512, 64]⟩
abbrev S512x512x16 : Shape := ⟨3, ![512, 512, 16]⟩
abbrev S512x64 : Shape := ⟨2, ![512, 64]⟩
abbrev S512x16 : Shape := ⟨2, ![512, 16]⟩
abbrev S32x96 : Shape := ⟨2, ![32, 96]⟩
abbrev S_ : Shape := ⟨0, ![]⟩

class Facts : Prop where
  bcast_S_S4096x128x3 : S_.BroadcastsInDim S4096x128x3 (![] : Fin 0 → Fin S4096x128x3.rank)
  reducesTo_S4096x128x3_S_d0_1_2 : S4096x128x3.ReducesTo [0, 1, 2] S_
  h_S_ : 0 < S_.numel
  bcast_S_S512x512x64 : S_.BroadcastsInDim S512x512x64 (![] : Fin 0 → Fin S512x512x64.rank)
  reducesTo_S512x512x64_S_d0_1_2 : S512x512x64.ReducesTo [0, 1, 2] S_
  bcast_S_S512x512x16 : S_.BroadcastsInDim S512x512x16 (![] : Fin 0 → Fin S512x512x16.rank)
  reducesTo_S512x512x16_S_d0_1_2 : S512x512x16.ReducesTo [0, 1, 2] S_
  bcast_S_S512x64 : S_.BroadcastsInDim S512x64 (![] : Fin 0 → Fin S512x64.rank)
  reducesTo_S512x64_S_d0_1 : S512x64.ReducesTo [0, 1] S_
  bcast_S_S512x16 : S_.BroadcastsInDim S512x16 (![] : Fin 0 → Fin S512x16.rank)
  reducesTo_S512x16_S_d0_1 : S512x16.ReducesTo [0, 1] S_
  bcast_S_S32x96 : S_.BroadcastsInDim S32x96 (![] : Fin 0 → Fin S32x96.rank)
  reducesTo_S32x96_S_d0_1 : S32x96.ReducesTo [0, 1] S_

variable [Facts]

def fn_part2 {F : FTy → Type} [FloatOps F] (main_arg7 : FVec F S32x96 .f32) (main_v33 : IVec S_ 1) : IVec S_ 1 :=
  let main_v34 : FVec F S32x96 .f32 := Host.absf main_arg7
  let main_cst_12 : FVec F S_ .f32 := constant S_ .f32 0x7F800000#32
  let main_v35 : FVec F S32x96 .f32 := broadcastInDim S32x96 ![] bcast_S_S32x96 main_cst_12
  let main_v36 : IVec S32x96 1 := cmpf .olt main_v34 main_v35
  let main_c_13 : IVec S_ 1 := constantI S_ 1 1#1
  let main_v37 : IVec S_ 1 := (fun x v => Host.reduce IntOp.andi x v reducesTo_S32x96_S_d0_1 h_S_) main_v36 main_c_13
  let main_v38 : IVec S_ 1 := andi main_v33 main_v37
  main_v38

def fn_part1 {F : FTy → Type} [FloatOps F] (main_arg4 : FVec F S512x64 .f32) (main_arg5 : FVec F S512x16 .f32) (main_arg6 : FVec F S512x16 .f32) (main_arg7 : FVec F S32x96 .f32) (main_v13 : IVec S_ 1) (main_v16 : IVec S512x512x16 1) : IVec S_ 1 :=
  let main_c_5 : IVec S_ 1 := constantI S_ 1 1#1
  let main_v17 : IVec S_ 1 := (fun x v => Host.reduce IntOp.andi x v reducesTo_S512x512x16_S_d0_1_2 h_S_) main_v16 main_c_5
  let main_v18 : IVec S_ 1 := andi main_v13 main_v17
  let main_v19 : FVec F S512x64 .f32 := Host.absf main_arg4
  let main_cst_6 : FVec F S_ .f32 := constant S_ .f32 0x7F800000#32
  let main_v20 : FVec F S512x64 .f32 := broadcastInDim S512x64 ![] bcast_S_S512x64 main_cst_6
  let main_v21 : IVec S512x64 1 := cmpf .olt main_v19 main_v20
  let main_c_7 : IVec S_ 1 := constantI S_ 1 1#1
  let main_v22 : IVec S_ 1 := (fun x v => Host.reduce IntOp.andi x v reducesTo_S512x64_S_d0_1 h_S_) main_v21 main_c_7
  let main_v23 : IVec S_ 1 := andi main_v18 main_v22
  let main_v24 : FVec F S512x16 .f32 := Host.absf main_arg5
  let main_cst_8 : FVec F S_ .f32 := constant S_ .f32 0x7F800000#32
  let main_v25 : FVec F S512x16 .f32 := broadcastInDim S512x16 ![] bcast_S_S512x16 main_cst_8
  let main_v26 : IVec S512x16 1 := cmpf .olt main_v24 main_v25
  let main_c_9 : IVec S_ 1 := constantI S_ 1 1#1
  let main_v27 : IVec S_ 1 := (fun x v => Host.reduce IntOp.andi x v reducesTo_S512x16_S_d0_1 h_S_) main_v26 main_c_9
  let main_v28 : IVec S_ 1 := andi main_v23 main_v27
  let main_v29 : FVec F S512x16 .f32 := Host.absf main_arg6
  let main_cst_10 : FVec F S_ .f32 := constant S_ .f32 0x7F800000#32
  let main_v30 : FVec F S512x16 .f32 := broadcastInDim S512x16 ![] bcast_S_S512x16 main_cst_10
  let main_v31 : IVec S512x16 1 := cmpf .olt main_v29 main_v30
  let main_c_11 : IVec S_ 1 := constantI S_ 1 1#1
  let main_v32 : IVec S_ 1 := (fun x v => Host.reduce IntOp.andi x v reducesTo_S512x16_S_d0_1 h_S_) main_v31 main_c_11
  let main_v33 : IVec S_ 1 := andi main_v28 main_v32
  fn_part2 (F := F) main_arg7 main_v33

def fn {F : FTy → Type} [FloatOps F] (main_arg0 : FVec F S4096x128x3 .f32) (main_arg1 : FVec F S512x512x64 .f32) (main_arg2 : FVec F S512x512x16 .f32) (main_arg3 : FVec F S512x512x16 .f32) (main_arg4 : FVec F S512x64 .f32) (main_arg5 : FVec F S512x16 .f32) (main_arg6 : FVec F S512x16 .f32) (main_arg7 : FVec F S32x96 .f32) : IVec S_ 1 :=
  let main_v0 : FVec F S4096x128x3 .f32 := Host.absf main_arg0
  let main_cst : FVec F S_ .f32 := constant S_ .f32 0x7F800000#32
  let main_v1 : FVec F S4096x128x3 .f32 := broadcastInDim S4096x128x3 ![] bcast_S_S4096x128x3 main_cst
  let main_v2 : IVec S4096x128x3 1 := cmpf .olt main_v0 main_v1
  let main_c : IVec S_ 1 := constantI S_ 1 1#1
  let main_v3 : IVec S_ 1 := (fun x v => Host.reduce IntOp.andi x v reducesTo_S4096x128x3_S_d0_1_2 h_S_) main_v2 main_c
  let main_v4 : FVec F S512x512x64 .f32 := Host.absf main_arg1
  let main_cst_0 : FVec F S_ .f32 := constant S_ .f32 0x7F800000#32
  let main_v5 : FVec F S512x512x64 .f32 := broadcastInDim S512x512x64 ![] bcast_S_S512x512x64 main_cst_0
  let main_v6 : IVec S512x512x64 1 := cmpf .olt main_v4 main_v5
  let main_c_1 : IVec S_ 1 := constantI S_ 1 1#1
  let main_v7 : IVec S_ 1 := (fun x v => Host.reduce IntOp.andi x v reducesTo_S512x512x64_S_d0_1_2 h_S_) main_v6 main_c_1
  let main_v8 : IVec S_ 1 := andi main_v3 main_v7
  let main_v9 : FVec F S512x512x16 .f32 := Host.absf main_arg2
  let main_cst_2 : FVec F S_ .f32 := constant S_ .f32 0x7F800000#32
  let main_v10 : FVec F S512x512x16 .f32 := broadcastInDim S512x512x16 ![] bcast_S_S512x512x16 main_cst_2
  let main_v11 : IVec S512x512x16 1 := cmpf .olt main_v9 main_v10
  let main_c_3 : IVec S_ 1 := constantI S_ 1 1#1
  let main_v12 : IVec S_ 1 := (fun x v => Host.reduce IntOp.andi x v reducesTo_S512x512x16_S_d0_1_2 h_S_) main_v11 main_c_3
  let main_v13 : IVec S_ 1 := andi main_v8 main_v12
  let main_v14 : FVec F S512x512x16 .f32 := Host.absf main_arg3
  let main_cst_4 : FVec F S_ .f32 := constant S_ .f32 0x7F800000#32
  let main_v15 : FVec F S512x512x16 .f32 := broadcastInDim S512x512x16 ![] bcast_S_S512x512x16 main_cst_4
  let main_v16 : IVec S512x512x16 1 := cmpf .olt main_v14 main_v15
  fn_part1 (F := F) main_arg4 main_arg5 main_arg6 main_arg7 main_v13 main_v16
-- ==== Kernel.lean ====
abbrev S4096x128x3 : Shape := ⟨3, ![4096, 128, 3]⟩
abbrev S512x512x64 : Shape := ⟨3, ![512, 512, 64]⟩
abbrev S512x512x16 : Shape := ⟨3, ![512, 512, 16]⟩
abbrev S512x64 : Shape := ⟨2, ![512, 64]⟩
abbrev S512x16 : Shape := ⟨2, ![512, 16]⟩
abbrev S32x96 : Shape := ⟨2, ![32, 96]⟩
abbrev S524288x3 : Shape := ⟨2, ![524288, 3]⟩
abbrev S_ : Shape := ⟨0, ![]⟩
abbrev S524288x1 : Shape := ⟨2, ![524288, 1]⟩
abbrev S524288 : Shape := ⟨1, ![524288]⟩
abbrev S524288x2 : Shape := ⟨2, ![524288, 2]⟩
abbrev S524288x64 : Shape := ⟨2, ![524288, 64]⟩
abbrev S524288x16 : Shape := ⟨2, ![524288, 16]⟩
abbrev S524288x96 : Shape := ⟨2, ![524288, 96]⟩
abbrev S96x32 : Shape := ⟨2, ![96, 32]⟩
abbrev S524288x32 : Shape := ⟨2, ![524288, 32]⟩
abbrev S16384x96 : Shape := ⟨2, ![16384, 96]⟩
abbrev S16384x32 : Shape := ⟨2, ![16384, 32]⟩
abbrev S4096x128x32 : Shape := ⟨3, ![4096, 128, 32]⟩

abbrev nBuf : Space → Nat
  | .hbm => 662
  | .vmem => 5
  | .smem => 0
  | _ => 0

abbrev hbmTy0_0 (i : Nat) : BufTy := match i % 128 with
  | 0 => ⟨S4096x128x3, .f32⟩
  | 1 => ⟨S512x512x64, .f32⟩
  | 2 => ⟨S512x512x16, .f32⟩
  | 3 => ⟨S512x512x16, .f32⟩
  | 4 => ⟨S512x64, .f32⟩
  | 5 => ⟨S512x16, .f32⟩
  | 6 => ⟨S512x16, .f32⟩
  | 7 => ⟨S32x96, .f32⟩
  | 8 => ⟨S524288x3, .f32⟩
  | 9 => ⟨S_, .f32⟩
  | 10 => ⟨S524288x3, .f32⟩
  | 11 => ⟨S524288x3, .f32⟩
  | 12 => ⟨S_, .f32⟩
  | 13 => ⟨S524288x3, .f32⟩
  | 14 => ⟨S524288x3, .f32⟩
  | 15 => ⟨S_, .f32⟩
  | 16 => ⟨S524288x3, .f32⟩
  | 17 => ⟨S524288x3, .f32⟩
  | 18 => ⟨S524288x1, .f32⟩
  | 19 => ⟨S524288, .f32⟩
  | 20 => ⟨S524288x1, .f32⟩
  | 21 => ⟨S524288, .f32⟩
  | 22 => ⟨S_, .f32⟩
  | 23 => ⟨S524288, .f32⟩
  | 24 => ⟨S524288, .f32⟩
  | 25 => ⟨S_, .f32⟩
  | 26 => ⟨S524288, .f32⟩
  | 27 => ⟨S524288, .f32⟩
  | 28 => ⟨S_, .f32⟩
  | 29 => ⟨S524288, .f32⟩
  | 30 => ⟨S524288, .f32⟩
  | 31 => ⟨S_, .f32⟩
  | 32 => ⟨S524288, .f32⟩
  | 33 => ⟨S524288, .f32⟩
  | 34 => ⟨S_, .f32⟩
  | 35 => ⟨S524288, .f32⟩
  | 36 => ⟨S524288, .f32⟩
  | 37 => ⟨S_, .f32⟩
  | 38 => ⟨S524288, .f32⟩
  | 39 => ⟨S524288, .f32⟩
  | 40 => ⟨S524288, .f32⟩
  | 41 => ⟨S_, .i32⟩
  | 42 => ⟨S_, .i32⟩
  | 43 => ⟨S_, .f32⟩
  | 44 => ⟨S524288, .f32⟩
  | 45 => ⟨S524288, .f32⟩
  | 46 => ⟨S_, .f32⟩
  | 47 => ⟨S524288, .f32⟩
  | 48 => ⟨S524288, .f32⟩
  | 49 => ⟨S524288, .i32⟩
  | 50 => ⟨S524288, .f32⟩
  | 51 => ⟨S_, .i32⟩
  | 52 => ⟨S_, .i32⟩
  | 53 => ⟨S_, .f32⟩
  | 54 => ⟨S524288, .f32⟩
  | 55 => ⟨S524288, .f32⟩
  | 56 => ⟨S_, .f32⟩
  | 57 => ⟨S524288, .f32⟩
  | 58 => ⟨S524288, .f32⟩
  | 59 => ⟨S524288, .i32⟩
  | 60 => ⟨S_, .i32⟩
  | 61 => ⟨S524288, .i32⟩
  | 62 => ⟨S524288, .i32⟩
  | 63 => ⟨S_, .i32⟩
  | 64 => ⟨S524288, .i32⟩
  | 65 => ⟨S524288, .i32⟩
  | 66 => ⟨S_, .i32⟩
  | 67 => ⟨S524288, .i32⟩
  | 68 => ⟨S524288, .i32⟩
  | 69 => ⟨S_, .i32⟩
  | 70 => ⟨S524288, .i32⟩
  | 71 => ⟨S524288, .i32⟩
  | 72 => ⟨S524288, .f32⟩
  | 73 => ⟨S524288, .f32⟩
  | 74 => ⟨S524288x1, .f32⟩
  | 75 => ⟨S524288, .f32⟩
  | 76 => ⟨S524288, .f32⟩
  | 77 => ⟨S524288x1, .f32⟩
  | 78 => ⟨S_, .i32⟩
  | 79 => ⟨S524288, .i32⟩
  | 80 => ⟨S524288, .i1⟩
  | 81 => ⟨S_, .i32⟩
  | 82 => ⟨S524288, .i32⟩
  | 83 => ⟨S524288, .i32⟩
  | 84 => ⟨S524288, .i32⟩
  | 85 => ⟨S_, .i32⟩
  | 86 => ⟨S524288, .i32⟩
  | 87 => ⟨S524288, .i1⟩
  | 88 => ⟨S_, .i32⟩
  | 89 => ⟨S524288, .i32⟩
  | 90 => ⟨S524288, .i32⟩
  | 91 => ⟨S524288, .i32⟩
  | 92 => ⟨S524288x1, .i32⟩
  | 93 => ⟨S524288x1, .i32⟩
  | 94 => ⟨S524288x2, .i32⟩
  | 95 => ⟨S524288x64, .f32⟩
  | 96 => ⟨S_, .i32⟩
  | 97 => ⟨S524288, .i32⟩
  | 98 => ⟨S524288, .i1⟩
  | 99 => ⟨S_, .i32⟩
  | 100 => ⟨S524288, .i32⟩
  | 101 => ⟨S524288, .i32⟩
  | 102 => ⟨S524288, .i32⟩
  | 103 => ⟨S_, .i32⟩
  | 104 => ⟨S524288, .i32⟩
  | 105 => ⟨S524288, .i1⟩
  | 106 => ⟨S_, .i32⟩
  | 107 => ⟨S524288, .i32⟩
  | 108 => ⟨S524288, .i32⟩
  | 109 => ⟨S524288, .i32⟩
  | 110 => ⟨S524288x1, .i32⟩
  | 111 => ⟨S524288x1, .i32⟩
  | 112 => ⟨S524288x2, .i32⟩
  | 113 => ⟨S524288x64, .f32⟩
  | 114 => ⟨S_, .i32⟩
  | 115 => ⟨S524288, .i32⟩
  | 116 => ⟨S524288, .i1⟩
  | 117 => ⟨S_, .i32⟩
  | 118 => ⟨S524288, .i32⟩
  | 119 => ⟨S524288, .i32⟩
  | 120 => ⟨S524288, .i32⟩
  | 121 => ⟨S_, .i32⟩
  | 122 => ⟨S524288, .i32⟩
  | 123 => ⟨S524288, .i1⟩
  | 124 => ⟨S_, .i32⟩
  | 125 => ⟨S524288, .i32⟩
  | 126 => ⟨S524288, .i32⟩
  | 127 => ⟨S524288, .i32⟩
  | _ => ⟨S4096x128x3, .f32⟩

abbrev hbmTy0_1 (i : Nat) : BufTy := match i % 128 with
  | 0 => ⟨S524288x1, .i32⟩
  | 1 => ⟨S524288x1, .i32⟩
  | 2 => ⟨S524288x2, .i32⟩
  | 3 => ⟨S524288x64, .f32⟩
  | 4 => ⟨S_, .i32⟩
  | 5 => ⟨S524288, .i32⟩
  | 6 => ⟨S524288, .i1⟩
  | 7 => ⟨S_, .i32⟩
  | 8 => ⟨S524288, .i32⟩
  | 9 => ⟨S524288, .i32⟩
  | 10 => ⟨S524288, .i32⟩
  | 11 => ⟨S_, .i32⟩
  | 12 => ⟨S524288, .i32⟩
  | 13 => ⟨S524288, .i1⟩
  | 14 => ⟨S_, .i32⟩
  | 15 => ⟨S524288, .i32⟩
  | 16 => ⟨S524288, .i32⟩
  | 17 => ⟨S524288, .i32⟩
  | 18 => ⟨S524288x1, .i32⟩
  | 19 => ⟨S524288x1, .i32⟩
  | 20 => ⟨S524288x2, .i32⟩
  | 21 => ⟨S524288x64, .f32⟩
  | 22 => ⟨S_, .f32⟩
  | 23 => ⟨S524288x1, .f32⟩
  | 24 => ⟨S524288x1, .f32⟩
  | 25 => ⟨S524288x64, .f32⟩
  | 26 => ⟨S524288x64, .f32⟩
  | 27 => ⟨S524288x64, .f32⟩
  | 28 => ⟨S524288x64, .f32⟩
  | 29 => ⟨S524288x64, .f32⟩
  | 30 => ⟨S_, .f32⟩
  | 31 => ⟨S524288x1, .f32⟩
  | 32 => ⟨S524288x1, .f32⟩
  | 33 => ⟨S524288x64, .f32⟩
  | 34 => ⟨S524288x64, .f32⟩
  | 35 => ⟨S524288x64, .f32⟩
  | 36 => ⟨S524288x64, .f32⟩
  | 37 => ⟨S524288x64, .f32⟩
  | 38 => ⟨S_, .f32⟩
  | 39 => ⟨S524288x1, .f32⟩
  | 40 => ⟨S524288x1, .f32⟩
  | 41 => ⟨S524288x64, .f32⟩
  | 42 => ⟨S524288x64, .f32⟩
  | 43 => ⟨S524288x64, .f32⟩
  | 44 => ⟨S524288x64, .f32⟩
  | 45 => ⟨S524288x64, .f32⟩
  | 46 => ⟨S524288x1, .f32⟩
  | 47 => ⟨S524288, .f32⟩
  | 48 => ⟨S_, .f32⟩
  | 49 => ⟨S524288, .f32⟩
  | 50 => ⟨S524288, .f32⟩
  | 51 => ⟨S_, .f32⟩
  | 52 => ⟨S524288, .f32⟩
  | 53 => ⟨S524288, .f32⟩
  | 54 => ⟨S_, .f32⟩
  | 55 => ⟨S524288, .f32⟩
  | 56 => ⟨S524288, .f32⟩
  | 57 => ⟨S524288, .f32⟩
  | 58 => ⟨S_, .i32⟩
  | 59 => ⟨S_, .i32⟩
  | 60 => ⟨S_, .f32⟩
  | 61 => ⟨S524288, .f32⟩
  | 62 => ⟨S524288, .f32⟩
  | 63 => ⟨S_, .f32⟩
  | 64 => ⟨S524288, .f32⟩
  | 65 => ⟨S524288, .f32⟩
  | 66 => ⟨S524288, .i32⟩
  | 67 => ⟨S_, .i32⟩
  | 68 => ⟨S524288, .i32⟩
  | 69 => ⟨S524288, .i32⟩
  | 70 => ⟨S_, .i32⟩
  | 71 => ⟨S524288, .i32⟩
  | 72 => ⟨S524288, .i32⟩
  | 73 => ⟨S524288, .f32⟩
  | 74 => ⟨S524288, .f32⟩
  | 75 => ⟨S524288x1, .f32⟩
  | 76 => ⟨S_, .i32⟩
  | 77 => ⟨S524288, .i32⟩
  | 78 => ⟨S524288, .i1⟩
  | 79 => ⟨S_, .i32⟩
  | 80 => ⟨S524288, .i32⟩
  | 81 => ⟨S524288, .i32⟩
  | 82 => ⟨S524288, .i32⟩
  | 83 => ⟨S524288x1, .i32⟩
  | 84 => ⟨S524288x64, .f32⟩
  | 85 => ⟨S_, .f32⟩
  | 86 => ⟨S524288x1, .f32⟩
  | 87 => ⟨S524288x1, .f32⟩
  | 88 => ⟨S524288x64, .f32⟩
  | 89 => ⟨S524288x64, .f32⟩
  | 90 => ⟨S_, .i32⟩
  | 91 => ⟨S524288, .i32⟩
  | 92 => ⟨S524288, .i1⟩
  | 93 => ⟨S_, .i32⟩
  | 94 => ⟨S524288, .i32⟩
  | 95 => ⟨S524288, .i32⟩
  | 96 => ⟨S524288, .i32⟩
  | 97 => ⟨S524288x1, .i32⟩
  | 98 => ⟨S524288x64, .f32⟩
  | 99 => ⟨S524288x64, .f32⟩
  | 100 => ⟨S524288x64, .f32⟩
  | 101 => ⟨S524288x64, .f32⟩
  | 102 => ⟨S524288x64, .f32⟩
  | 103 => ⟨S524288x1, .f32⟩
  | 104 => ⟨S524288, .f32⟩
  | 105 => ⟨S524288x1, .f32⟩
  | 106 => ⟨S524288, .f32⟩
  | 107 => ⟨S_, .f32⟩
  | 108 => ⟨S524288, .f32⟩
  | 109 => ⟨S524288, .f32⟩
  | 110 => ⟨S_, .f32⟩
  | 111 => ⟨S524288, .f32⟩
  | 112 => ⟨S524288, .f32⟩
  | 113 => ⟨S_, .f32⟩
  | 114 => ⟨S524288, .f32⟩
  | 115 => ⟨S524288, .f32⟩
  | 116 => ⟨S_, .f32⟩
  | 117 => ⟨S524288, .f32⟩
  | 118 => ⟨S524288, .f32⟩
  | 119 => ⟨S_, .f32⟩
  | 120 => ⟨S524288, .f32⟩
  | 121 => ⟨S524288, .f32⟩
  | 122 => ⟨S_, .f32⟩
  | 123 => ⟨S524288, .f32⟩
  | 124 => ⟨S524288, .f32⟩
  | 125 => ⟨S524288, .f32⟩
  | 126 => ⟨S_, .i32⟩
  | 127 => ⟨S_, .i32⟩
  | _ => ⟨S4096x128x3, .f32⟩

abbrev hbmTy0_2 (i : Nat) : BufTy := match i % 128 with
  | 0 => ⟨S_, .f32⟩
  | 1 => ⟨S524288, .f32⟩
  | 2 => ⟨S524288, .f32⟩
  | 3 => ⟨S_, .f32⟩
  | 4 => ⟨S524288, .f32⟩
  | 5 => ⟨S524288, .f32⟩
  | 6 => ⟨S524288, .i32⟩
  | 7 => ⟨S524288, .f32⟩
  | 8 => ⟨S_, .i32⟩
  | 9 => ⟨S_, .i32⟩
  | 10 => ⟨S_, .f32⟩
  | 11 => ⟨S524288, .f32⟩
  | 12 => ⟨S524288, .f32⟩
  | 13 => ⟨S_, .f32⟩
  | 14 => ⟨S524288, .f32⟩
  | 15 => ⟨S524288, .f32⟩
  | 16 => ⟨S524288, .i32⟩
  | 17 => ⟨S_, .i32⟩
  | 18 => ⟨S524288, .i32⟩
  | 19 => ⟨S524288, .i32⟩
  | 20 => ⟨S_, .i32⟩
  | 21 => ⟨S524288, .i32⟩
  | 22 => ⟨S524288, .i32⟩
  | 23 => ⟨S_, .i32⟩
  | 24 => ⟨S524288, .i32⟩
  | 25 => ⟨S524288, .i32⟩
  | 26 => ⟨S_, .i32⟩
  | 27 => ⟨S524288, .i32⟩
  | 28 => ⟨S524288, .i32⟩
  | 29 => ⟨S524288, .f32⟩
  | 30 => ⟨S524288, .f32⟩
  | 31 => ⟨S524288x1, .f32⟩
  | 32 => ⟨S524288, .f32⟩
  | 33 => ⟨S524288, .f32⟩
  | 34 => ⟨S524288x1, .f32⟩
  | 35 => ⟨S_, .i32⟩
  | 36 => ⟨S524288, .i32⟩
  | 37 => ⟨S524288, .i1⟩
  | 38 => ⟨S_, .i32⟩
  | 39 => ⟨S524288, .i32⟩
  | 40 => ⟨S524288, .i32⟩
  | 41 => ⟨S524288, .i32⟩
  | 42 => ⟨S_, .i32⟩
  | 43 => ⟨S524288, .i32⟩
  | 44 => ⟨S524288, .i1⟩
  | 45 => ⟨S_, .i32⟩
  | 46 => ⟨S524288, .i32⟩
  | 47 => ⟨S524288, .i32⟩
  | 48 => ⟨S524288, .i32⟩
  | 49 => ⟨S524288x1, .i32⟩
  | 50 => ⟨S524288x1, .i32⟩
  | 51 => ⟨S524288x2, .i32⟩
  | 52 => ⟨S524288x16, .f32⟩
  | 53 => ⟨S_, .i32⟩
  | 54 => ⟨S524288, .i32⟩
  | 55 => ⟨S524288, .i1⟩
  | 56 => ⟨S_, .i32⟩
  | 57 => ⟨S524288, .i32⟩
  | 58 => ⟨S524288, .i32⟩
  | 59 => ⟨S524288, .i32⟩
  | 60 => ⟨S_, .i32⟩
  | 61 => ⟨S524288, .i32⟩
  | 62 => ⟨S524288, .i1⟩
  | 63 => ⟨S_, .i32⟩
  | 64 => ⟨S524288, .i32⟩
  | 65 => ⟨S524288, .i32⟩
  | 66 => ⟨S524288, .i32⟩
  | 67 => ⟨S524288x1, .i32⟩
  | 68 => ⟨S524288x1, .i32⟩
  | 69 => ⟨S524288x2, .i32⟩
  | 70 => ⟨S524288x16, .f32⟩
  | 71 => ⟨S_, .i32⟩
  | 72 => ⟨S524288, .i32⟩
  | 73 => ⟨S524288, .i1⟩
  | 74 => ⟨S_, .i32⟩
  | 75 => ⟨S524288, .i32⟩
  | 76 => ⟨S524288, .i32⟩
  | 77 => ⟨S524288, .i32⟩
  | 78 => ⟨S_, .i32⟩
  | 79 => ⟨S524288, .i32⟩
  | 80 => ⟨S524288, .i1⟩
  | 81 => ⟨S_, .i32⟩
  | 82 => ⟨S524288, .i32⟩
  | 83 => ⟨S524288, .i32⟩
  | 84 => ⟨S524288, .i32⟩
  | 85 => ⟨S524288x1, .i32⟩
  | 86 => ⟨S524288x1, .i32⟩
  | 87 => ⟨S524288x2, .i32⟩
  | 88 => ⟨S524288x16, .f32⟩
  | 89 => ⟨S_, .i32⟩
  | 90 => ⟨S524288, .i32⟩
  | 91 => ⟨S524288, .i1⟩
  | 92 => ⟨S_, .i32⟩
  | 93 => ⟨S524288, .i32⟩
  | 94 => ⟨S524288, .i32⟩
  | 95 => ⟨S524288, .i32⟩
  | 96 => ⟨S_, .i32⟩
  | 97 => ⟨S524288, .i32⟩
  | 98 => ⟨S524288, .i1⟩
  | 99 => ⟨S_, .i32⟩
  | 100 => ⟨S524288, .i32⟩
  | 101 => ⟨S524288, .i32⟩
  | 102 => ⟨S524288, .i32⟩
  | 103 => ⟨S524288x1, .i32⟩
  | 104 => ⟨S524288x1, .i32⟩
  | 105 => ⟨S524288x2, .i32⟩
  | 106 => ⟨S524288x16, .f32⟩
  | 107 => ⟨S_, .f32⟩
  | 108 => ⟨S524288x1, .f32⟩
  | 109 => ⟨S524288x1, .f32⟩
  | 110 => ⟨S524288x16, .f32⟩
  | 111 => ⟨S524288x16, .f32⟩
  | 112 => ⟨S524288x16, .f32⟩
  | 113 => ⟨S524288x16, .f32⟩
  | 114 => ⟨S524288x16, .f32⟩
  | 115 => ⟨S_, .f32⟩
  | 116 => ⟨S524288x1, .f32⟩
  | 117 => ⟨S524288x1, .f32⟩
  | 118 => ⟨S524288x16, .f32⟩
  | 119 => ⟨S524288x16, .f32⟩
  | 120 => ⟨S524288x16, .f32⟩
  | 121 => ⟨S524288x16, .f32⟩
  | 122 => ⟨S524288x16, .f32⟩
  | 123 => ⟨S_, .f32⟩
  | 124 => ⟨S524288x1, .f32⟩
  | 125 => ⟨S524288x1, .f32⟩
  | 126 => ⟨S524288x16, .f32⟩
  | 127 => ⟨S524288x16, .f32⟩
  | _ => ⟨S4096x128x3, .f32⟩

abbrev hbmTy0_3 (i : Nat) : BufTy := match i % 128 with
  | 0 => ⟨S524288x16, .f32⟩
  | 1 => ⟨S524288x16, .f32⟩
  | 2 => ⟨S524288x16, .f32⟩
  | 3 => ⟨S524288x1, .f32⟩
  | 4 => ⟨S524288, .f32⟩
  | 5 => ⟨S_, .f32⟩
  | 6 => ⟨S524288, .f32⟩
  | 7 => ⟨S524288, .f32⟩
  | 8 => ⟨S_, .f32⟩
  | 9 => ⟨S524288, .f32⟩
  | 10 => ⟨S524288, .f32⟩
  | 11 => ⟨S_, .f32⟩
  | 12 => ⟨S524288, .f32⟩
  | 13 => ⟨S524288, .f32⟩
  | 14 => ⟨S524288, .f32⟩
  | 15 => ⟨S_, .i32⟩
  | 16 => ⟨S_, .i32⟩
  | 17 => ⟨S_, .f32⟩
  | 18 => ⟨S524288, .f32⟩
  | 19 => ⟨S524288, .f32⟩
  | 20 => ⟨S_, .f32⟩
  | 21 => ⟨S524288, .f32⟩
  | 22 => ⟨S524288, .f32⟩
  | 23 => ⟨S524288, .i32⟩
  | 24 => ⟨S_, .i32⟩
  | 25 => ⟨S524288, .i32⟩
  | 26 => ⟨S524288, .i32⟩
  | 27 => ⟨S_, .i32⟩
  | 28 => ⟨S524288, .i32⟩
  | 29 => ⟨S524288, .i32⟩
  | 30 => ⟨S524288, .f32⟩
  | 31 => ⟨S524288, .f32⟩
  | 32 => ⟨S524288x1, .f32⟩
  | 33 => ⟨S_, .i32⟩
  | 34 => ⟨S524288, .i32⟩
  | 35 => ⟨S524288, .i1⟩
  | 36 => ⟨S_, .i32⟩
  | 37 => ⟨S524288, .i32⟩
  | 38 => ⟨S524288, .i32⟩
  | 39 => ⟨S524288, .i32⟩
  | 40 => ⟨S524288x1, .i32⟩
  | 41 => ⟨S524288x16, .f32⟩
  | 42 => ⟨S_, .f32⟩
  | 43 => ⟨S524288x1, .f32⟩
  | 44 => ⟨S524288x1, .f32⟩
  | 45 => ⟨S524288x16, .f32⟩
  | 46 => ⟨S524288x16, .f32⟩
  | 47 => ⟨S_, .i32⟩
  | 48 => ⟨S524288, .i32⟩
  | 49 => ⟨S524288, .i1⟩
  | 50 => ⟨S_, .i32⟩
  | 51 => ⟨S524288, .i32⟩
  | 52 => ⟨S524288, .i32⟩
  | 53 => ⟨S524288, .i32⟩
  | 54 => ⟨S524288x1, .i32⟩
  | 55 => ⟨S524288x16, .f32⟩
  | 56 => ⟨S524288x16, .f32⟩
  | 57 => ⟨S524288x16, .f32⟩
  | 58 => ⟨S524288x16, .f32⟩
  | 59 => ⟨S524288x16, .f32⟩
  | 60 => ⟨S524288x1, .f32⟩
  | 61 => ⟨S524288, .f32⟩
  | 62 => ⟨S524288x1, .f32⟩
  | 63 => ⟨S524288, .f32⟩
  | 64 => ⟨S_, .f32⟩
  | 65 => ⟨S524288, .f32⟩
  | 66 => ⟨S524288, .f32⟩
  | 67 => ⟨S_, .f32⟩
  | 68 => ⟨S524288, .f32⟩
  | 69 => ⟨S524288, .f32⟩
  | 70 => ⟨S_, .f32⟩
  | 71 => ⟨S524288, .f32⟩
  | 72 => ⟨S524288, .f32⟩
  | 73 => ⟨S_, .f32⟩
  | 74 => ⟨S524288, .f32⟩
  | 75 => ⟨S524288, .f32⟩
  | 76 => ⟨S_, .f32⟩
  | 77 => ⟨S524288, .f32⟩
  | 78 => ⟨S524288, .f32⟩
  | 79 => ⟨S_, .f32⟩
  | 80 => ⟨S524288, .f32⟩
  | 81 => ⟨S524288, .f32⟩
  | 82 => ⟨S524288, .f32⟩
  | 83 => ⟨S_, .i32⟩
  | 84 => ⟨S_, .i32⟩
  | 85 => ⟨S_, .f32⟩
  | 86 => ⟨S524288, .f32⟩
  | 87 => ⟨S524288, .f32⟩
  | 88 => ⟨S_, .f32⟩
  | 89 => ⟨S524288, .f32⟩
  | 90 => ⟨S524288, .f32⟩
  | 91 => ⟨S524288, .i32⟩
  | 92 => ⟨S524288, .f32⟩
  | 93 => ⟨S_, .i32⟩
  | 94 => ⟨S_, .i32⟩
  | 95 => ⟨S_, .f32⟩
  | 96 => ⟨S524288, .f32⟩
  | 97 => ⟨S524288, .f32⟩
  | 98 => ⟨S_, .f32⟩
  | 99 => ⟨S524288, .f32⟩
  | 100 => ⟨S524288, .f32⟩
  | 101 => ⟨S524288, .i32⟩
  | 102 => ⟨S_, .i32⟩
  | 103 => ⟨S524288, .i32⟩
  | 104 => ⟨S524288, .i32⟩
  | 105 => ⟨S_, .i32⟩
  | 106 => ⟨S524288, .i32⟩
  | 107 => ⟨S524288, .i32⟩
  | 108 => ⟨S_, .i32⟩
  | 109 => ⟨S524288, .i32⟩
  | 110 => ⟨S524288, .i32⟩
  | 111 => ⟨S_, .i32⟩
  | 112 => ⟨S524288, .i32⟩
  | 113 => ⟨S524288, .i32⟩
  | 114 => ⟨S524288, .f32⟩
  | 115 => ⟨S524288, .f32⟩
  | 116 => ⟨S524288x1, .f32⟩
  | 117 => ⟨S524288, .f32⟩
  | 118 => ⟨S524288, .f32⟩
  | 119 => ⟨S524288x1, .f32⟩
  | 120 => ⟨S_, .i32⟩
  | 121 => ⟨S524288, .i32⟩
  | 122 => ⟨S524288, .i1⟩
  | 123 => ⟨S_, .i32⟩
  | 124 => ⟨S524288, .i32⟩
  | 125 => ⟨S524288, .i32⟩
  | 126 => ⟨S524288, .i32⟩
  | 127 => ⟨S_, .i32⟩
  | _ => ⟨S4096x128x3, .f32⟩

abbrev hbmTy0_4 (i : Nat) : BufTy := match i % 128 with
  | 0 => ⟨S524288, .i32⟩
  | 1 => ⟨S524288, .i1⟩
  | 2 => ⟨S_, .i32⟩
  | 3 => ⟨S524288, .i32⟩
  | 4 => ⟨S524288, .i32⟩
  | 5 => ⟨S524288, .i32⟩
  | 6 => ⟨S524288x1, .i32⟩
  | 7 => ⟨S524288x1, .i32⟩
  | 8 => ⟨S524288x2, .i32⟩
  | 9 => ⟨S524288x16, .f32⟩
  | 10 => ⟨S_, .i32⟩
  | 11 => ⟨S524288, .i32⟩
  | 12 => ⟨S524288, .i1⟩
  | 13 => ⟨S_, .i32⟩
  | 14 => ⟨S524288, .i32⟩
  | 15 => ⟨S524288, .i32⟩
  | 16 => ⟨S524288, .i32⟩
  | 17 => ⟨S_, .i32⟩
  | 18 => ⟨S524288, .i32⟩
  | 19 => ⟨S524288, .i1⟩
  | 20 => ⟨S_, .i32⟩
  | 21 => ⟨S524288, .i32⟩
  | 22 => ⟨S524288, .i32⟩
  | 23 => ⟨S524288, .i32⟩
  | 24 => ⟨S524288x1, .i32⟩
  | 25 => ⟨S524288x1, .i32⟩
  | 26 => ⟨S524288x2, .i32⟩
  | 27 => ⟨S524288x16, .f32⟩
  | 28 => ⟨S_, .i32⟩
  | 29 => ⟨S524288, .i32⟩
  | 30 => ⟨S524288, .i1⟩
  | 31 => ⟨S_, .i32⟩
  | 32 => ⟨S524288, .i32⟩
  | 33 => ⟨S524288, .i32⟩
  | 34 => ⟨S524288, .i32⟩
  | 35 => ⟨S_, .i32⟩
  | 36 => ⟨S524288, .i32⟩
  | 37 => ⟨S524288, .i1⟩
  | 38 => ⟨S_, .i32⟩
  | 39 => ⟨S524288, .i32⟩
  | 40 => ⟨S524288, .i32⟩
  | 41 => ⟨S524288, .i32⟩
  | 42 => ⟨S524288x1, .i32⟩
  | 43 => ⟨S524288x1, .i32⟩
  | 44 => ⟨S524288x2, .i32⟩
  | 45 => ⟨S524288x16, .f32⟩
  | 46 => ⟨S_, .i32⟩
  | 47 => ⟨S524288, .i32⟩
  | 48 => ⟨S524288, .i1⟩
  | 49 => ⟨S_, .i32⟩
  | 50 => ⟨S524288, .i32⟩
  | 51 => ⟨S524288, .i32⟩
  | 52 => ⟨S524288, .i32⟩
  | 53 => ⟨S_, .i32⟩
  | 54 => ⟨S524288, .i32⟩
  | 55 => ⟨S524288, .i1⟩
  | 56 => ⟨S_, .i32⟩
  | 57 => ⟨S524288, .i32⟩
  | 58 => ⟨S524288, .i32⟩
  | 59 => ⟨S524288, .i32⟩
  | 60 => ⟨S524288x1, .i32⟩
  | 61 => ⟨S524288x1, .i32⟩
  | 62 => ⟨S524288x2, .i32⟩
  | 63 => ⟨S524288x16, .f32⟩
  | 64 => ⟨S_, .f32⟩
  | 65 => ⟨S524288x1, .f32⟩
  | 66 => ⟨S524288x1, .f32⟩
  | 67 => ⟨S524288x16, .f32⟩
  | 68 => ⟨S524288x16, .f32⟩
  | 69 => ⟨S524288x16, .f32⟩
  | 70 => ⟨S524288x16, .f32⟩
  | 71 => ⟨S524288x16, .f32⟩
  | 72 => ⟨S_, .f32⟩
  | 73 => ⟨S524288x1, .f32⟩
  | 74 => ⟨S524288x1, .f32⟩
  | 75 => ⟨S524288x16, .f32⟩
  | 76 => ⟨S524288x16, .f32⟩
  | 77 => ⟨S524288x16, .f32⟩
  | 78 => ⟨S524288x16, .f32⟩
  | 79 => ⟨S524288x16, .f32⟩
  | 80 => ⟨S_, .f32⟩
  | 81 => ⟨S524288x1, .f32⟩
  | 82 => ⟨S524288x1, .f32⟩
  | 83 => ⟨S524288x16, .f32⟩
  | 84 => ⟨S524288x16, .f32⟩
  | 85 => ⟨S524288x16, .f32⟩
  | 86 => ⟨S524288x16, .f32⟩
  | 87 => ⟨S524288x16, .f32⟩
  | 88 => ⟨S524288x1, .f32⟩
  | 89 => ⟨S524288, .f32⟩
  | 90 => ⟨S_, .f32⟩
  | 91 => ⟨S524288, .f32⟩
  | 92 => ⟨S524288, .f32⟩
  | 93 => ⟨S_, .f32⟩
  | 94 => ⟨S524288, .f32⟩
  | 95 => ⟨S524288, .f32⟩
  | 96 => ⟨S_, .f32⟩
  | 97 => ⟨S524288, .f32⟩
  | 98 => ⟨S524288, .f32⟩
  | 99 => ⟨S524288, .f32⟩
  | 100 => ⟨S_, .i32⟩
  | 101 => ⟨S_, .i32⟩
  | 102 => ⟨S_, .f32⟩
  | 103 => ⟨S524288, .f32⟩
  | 104 => ⟨S524288, .f32⟩
  | 105 => ⟨S_, .f32⟩
  | 106 => ⟨S524288, .f32⟩
  | 107 => ⟨S524288, .f32⟩
  | 108 => ⟨S524288, .i32⟩
  | 109 => ⟨S_, .i32⟩
  | 110 => ⟨S524288, .i32⟩
  | 111 => ⟨S524288, .i32⟩
  | 112 => ⟨S_, .i32⟩
  | 113 => ⟨S524288, .i32⟩
  | 114 => ⟨S524288, .i32⟩
  | 115 => ⟨S524288, .f32⟩
  | 116 => ⟨S524288, .f32⟩
  | 117 => ⟨S524288x1, .f32⟩
  | 118 => ⟨S_, .i32⟩
  | 119 => ⟨S524288, .i32⟩
  | 120 => ⟨S524288, .i1⟩
  | 121 => ⟨S_, .i32⟩
  | 122 => ⟨S524288, .i32⟩
  | 123 => ⟨S524288, .i32⟩
  | 124 => ⟨S524288, .i32⟩
  | 125 => ⟨S524288x1, .i32⟩
  | 126 => ⟨S524288x16, .f32⟩
  | 127 => ⟨S_, .f32⟩
  | _ => ⟨S4096x128x3, .f32⟩

abbrev hbmTy0_5 (i : Nat) : BufTy := match i % 128 with
  | 0 => ⟨S524288x1, .f32⟩
  | 1 => ⟨S524288x1, .f32⟩
  | 2 => ⟨S524288x16, .f32⟩
  | 3 => ⟨S524288x16, .f32⟩
  | 4 => ⟨S_, .i32⟩
  | 5 => ⟨S524288, .i32⟩
  | 6 => ⟨S524288, .i1⟩
  | 7 => ⟨S_, .i32⟩
  | 8 => ⟨S524288, .i32⟩
  | 9 => ⟨S524288, .i32⟩
  | 10 => ⟨S524288, .i32⟩
  | 11 => ⟨S524288x1, .i32⟩
  | 12 => ⟨S524288x16, .f32⟩
  | 13 => ⟨S524288x16, .f32⟩
  | 14 => ⟨S524288x16, .f32⟩
  | 15 => ⟨S524288x16, .f32⟩
  | 16 => ⟨S524288x16, .f32⟩
  | 17 => ⟨S524288x96, .f32⟩
  | 18 => ⟨S524288x96, .bf16⟩
  | 19 => ⟨S96x32, .f32⟩
  | 20 => ⟨S524288x32, .f32⟩
  | 21 => ⟨S4096x128x32, .f32⟩
  | _ => ⟨S4096x128x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096x128x3, .f32⟩

abbrev bufTy : (tb : Table) → Fin (tcTables nBuf tb) → BufTy
  | .hbm, ⟨i, _⟩ => hbmTy i
  | .local _ .vmem, ⟨0, _⟩ => ⟨S16384x96, .bf16⟩
  | .local _ .vmem, ⟨1, _⟩ => ⟨S16384x96, .bf16⟩
  | .local _ .vmem, ⟨2, _⟩ => ⟨S96x32, .f32⟩
  | .local _ .vmem, ⟨3, _⟩ => ⟨S16384x32, .f32⟩
  | .local _ .vmem, ⟨4, _⟩ => ⟨S16384x32, .f32⟩
  | _, _ => ⟨S4096x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c : Ref sig .tc := ⟨.hbm, 41, rfl⟩
abbrev main_c_8 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_9 : Ref sig .tc := ⟨.hbm, 51, rfl⟩
abbrev main_c_10 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v27 : Ref sig .tc := ⟨.hbm, 58, rfl⟩
abbrev main_v28 : Ref sig .tc := ⟨.hbm, 59, rfl⟩
abbrev main_c_11 : Ref sig .tc := ⟨.hbm, 60, rfl⟩
abbrev main_v29 : Ref sig .tc := ⟨.hbm, 61, rfl⟩
abbrev main_v30 : Ref sig .tc := ⟨.hbm, 62, rfl⟩
abbrev main_c_12 : Ref sig .tc := ⟨.hbm, 63, rfl⟩
abbrev main_v31 : Ref sig .tc := ⟨.hbm, 64, rfl⟩
abbrev main_v32 : Ref sig .tc := ⟨.hbm, 65, rfl⟩
abbrev main_c_13 : Ref sig .tc := ⟨.hbm, 66, rfl⟩
abbrev main_v33 : Ref sig .tc := ⟨.hbm, 67, rfl⟩
abbrev main_v34 : Ref sig .tc := ⟨.hbm, 68, rfl⟩
abbrev main_c_14 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_c_15 : Ref sig .tc := ⟨.hbm, 78, rfl⟩
abbrev main_v43 : Ref sig .tc := ⟨.hbm, 79, rfl⟩
abbrev main_v44 : Ref sig .tc := ⟨.hbm, 80, rfl⟩
abbrev main_c_16 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_c_17 : Ref sig .tc := ⟨.hbm, 85, rfl⟩
abbrev main_v48 : Ref sig .tc := ⟨.hbm, 86, rfl⟩
abbrev main_v49 : Ref sig .tc := ⟨.hbm, 87, rfl⟩
abbrev main_c_18 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_c_19 : Ref sig .tc := ⟨.hbm, 96, rfl⟩
abbrev main_v57 : Ref sig .tc := ⟨.hbm, 97, rfl⟩
abbrev main_v58 : Ref sig .tc := ⟨.hbm, 98, rfl⟩
abbrev main_c_20 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_c_21 : Ref sig .tc := ⟨.hbm, 103, rfl⟩
abbrev main_v62 : Ref sig .tc := ⟨.hbm, 104, rfl⟩
abbrev main_v63 : Ref sig .tc := ⟨.hbm, 105, rfl⟩
abbrev main_c_22 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_c_23 : Ref sig .tc := ⟨.hbm, 114, rfl⟩
abbrev main_v71 : Ref sig .tc := ⟨.hbm, 115, rfl⟩
abbrev main_v72 : Ref sig .tc := ⟨.hbm, 116, rfl⟩
abbrev main_c_24 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_c_25 : Ref sig .tc := ⟨.hbm, 121, rfl⟩
abbrev main_v76 : Ref sig .tc := ⟨.hbm, 122, rfl⟩
abbrev main_v77 : Ref sig .tc := ⟨.hbm, 123, rfl⟩
abbrev main_c_26 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_c_27 : Ref sig .tc := ⟨.hbm, 132, rfl⟩
abbrev main_v85 : Ref sig .tc := ⟨.hbm, 133, rfl⟩
abbrev main_v86 : Ref sig .tc := ⟨.hbm, 134, rfl⟩
abbrev main_c_28 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_c_29 : Ref sig .tc := ⟨.hbm, 139, rfl⟩
abbrev main_v90 : Ref sig .tc := ⟨.hbm, 140, rfl⟩
abbrev main_v91 : Ref sig .tc := ⟨.hbm, 141, rfl⟩
abbrev main_c_30 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_cst_31 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_cst_32 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_33 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_34 : Ref sig .tc := ⟨.hbm, 176, rfl⟩
abbrev main_v122 : Ref sig .tc := ⟨.hbm, 177, rfl⟩
abbrev main_v123 : Ref sig .tc := ⟨.hbm, 178, rfl⟩
abbrev main_cst_35 : Ref sig .tc := ⟨.hbm, 179, rfl⟩
abbrev main_v124 : Ref sig .tc := ⟨.hbm, 180, rfl⟩
abbrev main_v125 : Ref sig .tc := ⟨.hbm, 181, rfl⟩
abbrev main_cst_36 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_c_37 : Ref sig .tc := ⟨.hbm, 186, rfl⟩
abbrev main_c_38 : Ref sig .tc := ⟨.hbm, 187, rfl⟩
abbrev main_call2_v0 : Ref sig .tc := ⟨.hbm, 188, rfl⟩
abbrev main_call2_v1 : Ref sig .tc := ⟨.hbm, 189, rfl⟩
abbrev main_call2_v2 : Ref sig .tc := ⟨.hbm, 190, rfl⟩
abbrev main_call2_v3 : Ref sig .tc := ⟨.hbm, 191, rfl⟩
abbrev main_call2_v4 : Ref sig .tc := ⟨.hbm, 192, rfl⟩
abbrev main_v129 : Ref sig .tc := ⟨.hbm, 193, rfl⟩
abbrev main_v130 : Ref sig .tc := ⟨.hbm, 194, rfl⟩
abbrev main_c_39 : Ref sig .tc := ⟨.hbm, 195, rfl⟩
abbrev main_v131 : Ref sig .tc := ⟨.hbm, 196, rfl⟩
abbrev main_v132 : Ref sig .tc := ⟨.hbm, 197, rfl⟩
abbrev main_c_40 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_c_41 : Ref sig .tc := ⟨.hbm, 204, rfl⟩
abbrev main_v138 : Ref sig .tc := ⟨.hbm, 205, rfl⟩
abbrev main_v139 : Ref sig .tc := ⟨.hbm, 206, rfl⟩
abbrev main_c_42 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_cst_43 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_c_44 : Ref sig .tc := ⟨.hbm, 218, rfl⟩
abbrev main_v149 : Ref sig .tc := ⟨.hbm, 219, rfl⟩
abbrev main_v150 : Ref sig .tc := ⟨.hbm, 220, rfl⟩
abbrev main_c_45 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_cst_46 : Ref sig .tc := ⟨.hbm, 235, rfl⟩
abbrev main_v164 : Ref sig .tc := ⟨.hbm, 236, rfl⟩
abbrev main_v165 : Ref sig .tc := ⟨.hbm, 237, rfl⟩
abbrev main_cst_47 : Ref sig .tc := ⟨.hbm, 238, rfl⟩
abbrev main_v166 : Ref sig .tc := ⟨.hbm, 239, rfl⟩
abbrev main_v167 : Ref sig .tc := ⟨.hbm, 240, rfl⟩
abbrev main_cst_48 : Ref sig .tc := ⟨.hbm, 241, rfl⟩
abbrev main_v168 : Ref sig .tc := ⟨.hbm, 242, rfl⟩
abbrev main_v169 : Ref sig .tc := ⟨.hbm, 243, rfl⟩
abbrev main_cst_49 : Ref sig .tc := ⟨.hbm, 244, rfl⟩
abbrev main_v170 : Ref sig .tc := ⟨.hbm, 245, rfl⟩
abbrev main_v171 : Ref sig .tc := ⟨.hbm, 246, rfl⟩
abbrev main_cst_50 : Ref sig .tc := ⟨.hbm, 247, rfl⟩
abbrev main_v172 : Ref sig .tc := ⟨.hbm, 248, rfl⟩
abbrev main_v173 : Ref sig .tc := ⟨.hbm, 249, rfl⟩
abbrev main_cst_51 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_c_52 : Ref sig .tc := ⟨.hbm, 254, rfl⟩
abbrev main_c_53 : Ref sig .tc := ⟨.hbm, 255, rfl⟩
abbrev main_call3_v0 : Ref sig .tc := ⟨.hbm, 256, rfl⟩
abbrev main_call3_v1 : Ref sig .tc := ⟨.hbm, 257, rfl⟩
abbrev main_call3_v2 : Ref sig .tc := ⟨.hbm, 258, rfl⟩
abbrev main_call3_v3 : Ref sig .tc := ⟨.hbm, 259, rfl⟩
abbrev main_call3_v4 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_c_54 : Ref sig .tc := ⟨.hbm, 264, rfl⟩
abbrev main_c_55 : Ref sig .tc := ⟨.hbm, 265, rfl⟩
abbrev main_call4_v0 : Ref sig .tc := ⟨.hbm, 266, rfl⟩
abbrev main_call4_v1 : Ref sig .tc := ⟨.hbm, 267, rfl⟩
abbrev main_call4_v2 : Ref sig .tc := ⟨.hbm, 268, rfl⟩
abbrev main_call4_v3 : Ref sig .tc := ⟨.hbm, 269, rfl⟩
abbrev main_call4_v4 : Ref sig .tc := ⟨.hbm, 270, rfl⟩
abbrev main_v180 : Ref sig .tc := ⟨.hbm, 271, rfl⟩
abbrev main_v181 : Ref sig .tc := ⟨.hbm, 272, rfl⟩
abbrev main_c_56 : Ref sig .tc := ⟨.hbm, 273, rfl⟩
abbrev main_v182 : Ref sig .tc := ⟨.hbm, 274, rfl⟩
abbrev main_v183 : Ref sig .tc := ⟨.hbm, 275, rfl⟩
abbrev main_c_57 : Ref sig .tc := ⟨.hbm, 276, rfl⟩
abbrev main_v184 : Ref sig .tc := ⟨.hbm, 277, rfl⟩
abbrev main_v185 : Ref sig .tc := ⟨.hbm, 278, rfl⟩
abbrev main_c_58 : Ref sig .tc := ⟨.hbm, 279, rfl⟩
abbrev main_v186 : Ref sig .tc := ⟨.hbm, 280, rfl⟩
abbrev main_v187 : Ref sig .tc := ⟨.hbm, 281, rfl⟩
abbrev main_c_59 : Ref sig .tc := ⟨.hbm, 282, rfl⟩
abbrev main_v188 : Ref sig .tc := ⟨.hbm, 283, rfl⟩
abbrev main_v189 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_c_60 : Ref sig .tc := ⟨.hbm, 291, rfl⟩
abbrev main_v196 : Ref sig .tc := ⟨.hbm, 292, rfl⟩
abbrev main_v197 : Ref sig .tc := ⟨.hbm, 293, rfl⟩
abbrev main_c_61 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩
abbrev main_c_62 : Ref sig .tc := ⟨.hbm, 298, rfl⟩
abbrev main_v201 : Ref sig .tc := ⟨.hbm, 299, rfl⟩
abbrev main_v202 : Ref sig .tc := ⟨.hbm, 300, rfl⟩
abbrev main_c_63 : Ref sig .tc := ⟨.hbm, 301, rfl⟩
abbrev main_v203 : Ref sig .tc := ⟨.hbm, 302, rfl⟩
abbrev main_v204 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_v209 : Ref sig .tc := ⟨.hbm, 308, rfl⟩
abbrev main_c_64 : Ref sig .tc := ⟨.hbm, 309, rfl⟩
abbrev main_v210 : Ref sig .tc := ⟨.hbm, 310, rfl⟩
abbrev main_v211 : Ref sig .tc := ⟨.hbm, 311, rfl⟩
abbrev main_c_65 : Ref sig .tc := ⟨.hbm, 312, rfl⟩
abbrev main_v212 : Ref sig .tc := ⟨.hbm, 313, rfl⟩
abbrev main_v213 : Ref sig .tc := ⟨.hbm, 314, rfl⟩
abbrev main_v214 : Ref sig .tc := ⟨.hbm, 315, rfl⟩
abbrev main_c_66 : Ref sig .tc := ⟨.hbm, 316, rfl⟩
abbrev main_v215 : Ref sig .tc := ⟨.hbm, 317, rfl⟩
abbrev main_v216 : Ref sig .tc := ⟨.hbm, 318, rfl⟩
abbrev main_c_67 : Ref sig .tc := ⟨.hbm, 319, rfl⟩
abbrev main_v217 : Ref sig .tc := ⟨.hbm, 320, rfl⟩
abbrev main_v218 : Ref sig .tc := ⟨.hbm, 321, rfl⟩
abbrev main_v219 : Ref sig .tc := ⟨.hbm, 322, rfl⟩
abbrev main_v220 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_c_68 : Ref sig .tc := ⟨.hbm, 327, rfl⟩
abbrev main_v224 : Ref sig .tc := ⟨.hbm, 328, rfl⟩
abbrev main_v225 : Ref sig .tc := ⟨.hbm, 329, rfl⟩
abbrev main_c_69 : Ref sig .tc := ⟨.hbm, 330, rfl⟩
abbrev main_v226 : Ref sig .tc := ⟨.hbm, 331, rfl⟩
abbrev main_v227 : Ref sig .tc := ⟨.hbm, 332, rfl⟩
abbrev main_v228 : Ref sig .tc := ⟨.hbm, 333, rfl⟩
abbrev main_c_70 : Ref sig .tc := ⟨.hbm, 334, rfl⟩
abbrev main_v229 : Ref sig .tc := ⟨.hbm, 335, rfl⟩
abbrev main_v230 : Ref sig .tc := ⟨.hbm, 336, rfl⟩
abbrev main_c_71 : Ref sig .tc := ⟨.hbm, 337, rfl⟩
abbrev main_v231 : Ref sig .tc := ⟨.hbm, 338, rfl⟩
abbrev main_v232 : Ref sig .tc := ⟨.hbm, 339, rfl⟩
abbrev main_v233 : Ref sig .tc := ⟨.hbm, 340, rfl⟩
abbrev main_v234 : Ref sig .tc := ⟨.hbm, 341, rfl⟩
abbrev main_v235 : Ref sig .tc := ⟨.hbm, 342, rfl⟩
abbrev main_v236 : Ref sig .tc := ⟨.hbm, 343, rfl⟩
abbrev main_v237 : Ref sig .tc := ⟨.hbm, 344, rfl⟩
abbrev main_c_72 : Ref sig .tc := ⟨.hbm, 345, rfl⟩
abbrev main_v238 : Ref sig .tc := ⟨.hbm, 346, rfl⟩
abbrev main_v239 : Ref sig .tc := ⟨.hbm, 347, rfl⟩
abbrev main_c_73 : Ref sig .tc := ⟨.hbm, 348, rfl⟩
abbrev main_v240 : Ref sig .tc := ⟨.hbm, 349, rfl⟩
abbrev main_v241 : Ref sig .tc := ⟨.hbm, 350, rfl⟩
abbrev main_v242 : Ref sig .tc := ⟨.hbm, 351, rfl⟩
abbrev main_c_74 : Ref sig .tc := ⟨.hbm, 352, rfl⟩
abbrev main_v243 : Ref sig .tc := ⟨.hbm, 353, rfl⟩
abbrev main_v244 : Ref sig .tc := ⟨.hbm, 354, rfl⟩
abbrev main_c_75 : Ref sig .tc := ⟨.hbm, 355, rfl⟩
abbrev main_v245 : Ref sig .tc := ⟨.hbm, 356, rfl⟩
abbrev main_v246 : Ref sig .tc := ⟨.hbm, 357, rfl⟩
abbrev main_v247 : Ref sig .tc := ⟨.hbm, 358, rfl⟩
abbrev main_v248 : Ref sig .tc := ⟨.hbm, 359, rfl⟩
abbrev main_v249 : Ref sig .tc := ⟨.hbm, 360, rfl⟩
abbrev main_v250 : Ref sig .tc := ⟨.hbm, 361, rfl⟩
abbrev main_v251 : Ref sig .tc := ⟨.hbm, 362, rfl⟩
abbrev main_cst_76 : Ref sig .tc := ⟨.hbm, 363, rfl⟩
abbrev main_v252 : Ref sig .tc := ⟨.hbm, 364, rfl⟩
abbrev main_v253 : Ref sig .tc := ⟨.hbm, 365, rfl⟩
abbrev main_v254 : Ref sig .tc := ⟨.hbm, 366, rfl⟩
abbrev main_v255 : Ref sig .tc := ⟨.hbm, 367, rfl⟩
abbrev main_v256 : Ref sig .tc := ⟨.hbm, 368, rfl⟩
abbrev main_v257 : Ref sig .tc := ⟨.hbm, 369, rfl⟩
abbrev main_v258 : Ref sig .tc := ⟨.hbm, 370, rfl⟩
abbrev main_cst_77 : Ref sig .tc := ⟨.hbm, 371, rfl⟩
abbrev main_v259 : Ref sig .tc := ⟨.hbm, 372, rfl⟩
abbrev main_v260 : Ref sig .tc := ⟨.hbm, 373, rfl⟩
abbrev main_v261 : Ref sig .tc := ⟨.hbm, 374, rfl⟩
abbrev main_v262 : Ref sig .tc := ⟨.hbm, 375, rfl⟩
abbrev main_v263 : Ref sig .tc := ⟨.hbm, 376, rfl⟩
abbrev main_v264 : Ref sig .tc := ⟨.hbm, 377, rfl⟩
abbrev main_v265 : Ref sig .tc := ⟨.hbm, 378, rfl⟩
abbrev main_cst_78 : Ref sig .tc := ⟨.hbm, 379, rfl⟩
abbrev main_v266 : Ref sig .tc := ⟨.hbm, 380, rfl⟩
abbrev main_v267 : Ref sig .tc := ⟨.hbm, 381, rfl⟩
abbrev main_v268 : Ref sig .tc := ⟨.hbm, 382, rfl⟩
abbrev main_v269 : Ref sig .tc := ⟨.hbm, 383, rfl⟩
abbrev main_v270 : Ref sig .tc := ⟨.hbm, 384, rfl⟩
abbrev main_v271 : Ref sig .tc := ⟨.hbm, 385, rfl⟩
abbrev main_v272 : Ref sig .tc := ⟨.hbm, 386, rfl⟩
abbrev main_v273 : Ref sig .tc := ⟨.hbm, 387, rfl⟩
abbrev main_v274 : Ref sig .tc := ⟨.hbm, 388, rfl⟩
abbrev main_cst_79 : Ref sig .tc := ⟨.hbm, 389, rfl⟩
abbrev main_v275 : Ref sig .tc := ⟨.hbm, 390, rfl⟩
abbrev main_v276 : Ref sig .tc := ⟨.hbm, 391, rfl⟩
abbrev main_cst_80 : Ref sig .tc := ⟨.hbm, 392, rfl⟩
abbrev main_v277 : Ref sig .tc := ⟨.hbm, 393, rfl⟩
abbrev main_v278 : Ref sig .tc := ⟨.hbm, 394, rfl⟩
abbrev main_cst_81 : Ref sig .tc := ⟨.hbm, 395, rfl⟩
abbrev main_v279 : Ref sig .tc := ⟨.hbm, 396, rfl⟩
abbrev main_v280 : Ref sig .tc := ⟨.hbm, 397, rfl⟩
abbrev main_v281 : Ref sig .tc := ⟨.hbm, 398, rfl⟩
abbrev main_c_82 : Ref sig .tc := ⟨.hbm, 399, rfl⟩
abbrev main_c_83 : Ref sig .tc := ⟨.hbm, 400, rfl⟩
abbrev main_call5_v0 : Ref sig .tc := ⟨.hbm, 401, rfl⟩
abbrev main_call5_v1 : Ref sig .tc := ⟨.hbm, 402, rfl⟩
abbrev main_call5_v2 : Ref sig .tc := ⟨.hbm, 403, rfl⟩
abbrev main_call5_v3 : Ref sig .tc := ⟨.hbm, 404, rfl⟩
abbrev main_call5_v4 : Ref sig .tc := ⟨.hbm, 405, rfl⟩
abbrev main_v282 : Ref sig .tc := ⟨.hbm, 406, rfl⟩
abbrev main_v283 : Ref sig .tc := ⟨.hbm, 407, rfl⟩
abbrev main_c_84 : Ref sig .tc := ⟨.hbm, 408, rfl⟩
abbrev main_v284 : Ref sig .tc := ⟨.hbm, 409, rfl⟩
abbrev main_v285 : Ref sig .tc := ⟨.hbm, 410, rfl⟩
abbrev main_c_85 : Ref sig .tc := ⟨.hbm, 411, rfl⟩
abbrev main_v286 : Ref sig .tc := ⟨.hbm, 412, rfl⟩
abbrev main_v287 : Ref sig .tc := ⟨.hbm, 413, rfl⟩
abbrev main_v288 : Ref sig .tc := ⟨.hbm, 414, rfl⟩
abbrev main_v289 : Ref sig .tc := ⟨.hbm, 415, rfl⟩
abbrev main_v290 : Ref sig .tc := ⟨.hbm, 416, rfl⟩
abbrev main_c_86 : Ref sig .tc := ⟨.hbm, 417, rfl⟩
abbrev main_v291 : Ref sig .tc := ⟨.hbm, 418, rfl⟩
abbrev main_v292 : Ref sig .tc := ⟨.hbm, 419, rfl⟩
abbrev main_c_87 : Ref sig .tc := ⟨.hbm, 420, rfl⟩
abbrev main_v293 : Ref sig .tc := ⟨.hbm, 421, rfl⟩
abbrev main_v294 : Ref sig .tc := ⟨.hbm, 422, rfl⟩
abbrev main_v295 : Ref sig .tc := ⟨.hbm, 423, rfl⟩
abbrev main_v296 : Ref sig .tc := ⟨.hbm, 424, rfl⟩
abbrev main_v297 : Ref sig .tc := ⟨.hbm, 425, rfl⟩
abbrev main_cst_88 : Ref sig .tc := ⟨.hbm, 426, rfl⟩
abbrev main_v298 : Ref sig .tc := ⟨.hbm, 427, rfl⟩
abbrev main_v299 : Ref sig .tc := ⟨.hbm, 428, rfl⟩
abbrev main_v300 : Ref sig .tc := ⟨.hbm, 429, rfl⟩
abbrev main_v301 : Ref sig .tc := ⟨.hbm, 430, rfl⟩
abbrev main_c_89 : Ref sig .tc := ⟨.hbm, 431, rfl⟩
abbrev main_v302 : Ref sig .tc := ⟨.hbm, 432, rfl⟩
abbrev main_v303 : Ref sig .tc := ⟨.hbm, 433, rfl⟩
abbrev main_c_90 : Ref sig .tc := ⟨.hbm, 434, rfl⟩
abbrev main_v304 : Ref sig .tc := ⟨.hbm, 435, rfl⟩
abbrev main_v305 : Ref sig .tc := ⟨.hbm, 436, rfl⟩
abbrev main_v306 : Ref sig .tc := ⟨.hbm, 437, rfl⟩
abbrev main_v307 : Ref sig .tc := ⟨.hbm, 438, rfl⟩
abbrev main_v308 : Ref sig .tc := ⟨.hbm, 439, rfl⟩
abbrev main_v309 : Ref sig .tc := ⟨.hbm, 440, rfl⟩
abbrev main_v310 : Ref sig .tc := ⟨.hbm, 441, rfl⟩
abbrev main_v311 : Ref sig .tc := ⟨.hbm, 442, rfl⟩
abbrev main_v312 : Ref sig .tc := ⟨.hbm, 443, rfl⟩
abbrev main_v313 : Ref sig .tc := ⟨.hbm, 444, rfl⟩
abbrev main_v314 : Ref sig .tc := ⟨.hbm, 445, rfl⟩
abbrev main_v315 : Ref sig .tc := ⟨.hbm, 446, rfl⟩
abbrev main_v316 : Ref sig .tc := ⟨.hbm, 447, rfl⟩
abbrev main_cst_91 : Ref sig .tc := ⟨.hbm, 448, rfl⟩
abbrev main_v317 : Ref sig .tc := ⟨.hbm, 449, rfl⟩
abbrev main_v318 : Ref sig .tc := ⟨.hbm, 450, rfl⟩
abbrev main_cst_92 : Ref sig .tc := ⟨.hbm, 451, rfl⟩
abbrev main_v319 : Ref sig .tc := ⟨.hbm, 452, rfl⟩
abbrev main_v320 : Ref sig .tc := ⟨.hbm, 453, rfl⟩
abbrev main_cst_93 : Ref sig .tc := ⟨.hbm, 454, rfl⟩
abbrev main_v321 : Ref sig .tc := ⟨.hbm, 455, rfl⟩
abbrev main_v322 : Ref sig .tc := ⟨.hbm, 456, rfl⟩
abbrev main_cst_94 : Ref sig .tc := ⟨.hbm, 457, rfl⟩
abbrev main_v323 : Ref sig .tc := ⟨.hbm, 458, rfl⟩
abbrev main_v324 : Ref sig .tc := ⟨.hbm, 459, rfl⟩
abbrev main_cst_95 : Ref sig .tc := ⟨.hbm, 460, rfl⟩
abbrev main_v325 : Ref sig .tc := ⟨.hbm, 461, rfl⟩
abbrev main_v326 : Ref sig .tc := ⟨.hbm, 462, rfl⟩
abbrev main_cst_96 : Ref sig .tc := ⟨.hbm, 463, rfl⟩
abbrev main_v327 : Ref sig .tc := ⟨.hbm, 464, rfl⟩
abbrev main_v328 : Ref sig .tc := ⟨.hbm, 465, rfl⟩
abbrev main_v329 : Ref sig .tc := ⟨.hbm, 466, rfl⟩
abbrev main_c_97 : Ref sig .tc := ⟨.hbm, 467, rfl⟩
abbrev main_c_98 : Ref sig .tc := ⟨.hbm, 468, rfl⟩
abbrev main_call6_v0 : Ref sig .tc := ⟨.hbm, 469, rfl⟩
abbrev main_call6_v1 : Ref sig .tc := ⟨.hbm, 470, rfl⟩
abbrev main_call6_v2 : Ref sig .tc := ⟨.hbm, 471, rfl⟩
abbrev main_call6_v3 : Ref sig .tc := ⟨.hbm, 472, rfl⟩
abbrev main_call6_v4 : Ref sig .tc := ⟨.hbm, 473, rfl⟩
abbrev main_v330 : Ref sig .tc := ⟨.hbm, 474, rfl⟩
abbrev main_v331 : Ref sig .tc := ⟨.hbm, 475, rfl⟩
abbrev main_v332 : Ref sig .tc := ⟨.hbm, 476, rfl⟩
abbrev main_c_99 : Ref sig .tc := ⟨.hbm, 477, rfl⟩
abbrev main_c_100 : Ref sig .tc := ⟨.hbm, 478, rfl⟩
abbrev main_call7_v0 : Ref sig .tc := ⟨.hbm, 479, rfl⟩
abbrev main_call7_v1 : Ref sig .tc := ⟨.hbm, 480, rfl⟩
abbrev main_call7_v2 : Ref sig .tc := ⟨.hbm, 481, rfl⟩
abbrev main_call7_v3 : Ref sig .tc := ⟨.hbm, 482, rfl⟩
abbrev main_call7_v4 : Ref sig .tc := ⟨.hbm, 483, rfl⟩
abbrev main_v333 : Ref sig .tc := ⟨.hbm, 484, rfl⟩
abbrev main_v334 : Ref sig .tc := ⟨.hbm, 485, rfl⟩
abbrev main_c_101 : Ref sig .tc := ⟨.hbm, 486, rfl⟩
abbrev main_v335 : Ref sig .tc := ⟨.hbm, 487, rfl⟩
abbrev main_v336 : Ref sig .tc := ⟨.hbm, 488, rfl⟩
abbrev main_c_102 : Ref sig .tc := ⟨.hbm, 489, rfl⟩
abbrev main_v337 : Ref sig .tc := ⟨.hbm, 490, rfl⟩
abbrev main_v338 : Ref sig .tc := ⟨.hbm, 491, rfl⟩
abbrev main_c_103 : Ref sig .tc := ⟨.hbm, 492, rfl⟩
abbrev main_v339 : Ref sig .tc := ⟨.hbm, 493, rfl⟩
abbrev main_v340 : Ref sig .tc := ⟨.hbm, 494, rfl⟩
abbrev main_c_104 : Ref sig .tc := ⟨.hbm, 495, rfl⟩
abbrev main_v341 : Ref sig .tc := ⟨.hbm, 496, rfl⟩
abbrev main_v342 : Ref sig .tc := ⟨.hbm, 497, rfl⟩
abbrev main_v343 : Ref sig .tc := ⟨.hbm, 498, rfl⟩
abbrev main_v344 : Ref sig .tc := ⟨.hbm, 499, rfl⟩
abbrev main_v345 : Ref sig .tc := ⟨.hbm, 500, rfl⟩
abbrev main_v346 : Ref sig .tc := ⟨.hbm, 501, rfl⟩
abbrev main_v347 : Ref sig .tc := ⟨.hbm, 502, rfl⟩
abbrev main_v348 : Ref sig .tc := ⟨.hbm, 503, rfl⟩
abbrev main_c_105 : Ref sig .tc := ⟨.hbm, 504, rfl⟩
abbrev main_v349 : Ref sig .tc := ⟨.hbm, 505, rfl⟩
abbrev main_v350 : Ref sig .tc := ⟨.hbm, 506, rfl⟩
abbrev main_c_106 : Ref sig .tc := ⟨.hbm, 507, rfl⟩
abbrev main_v351 : Ref sig .tc := ⟨.hbm, 508, rfl⟩
abbrev main_v352 : Ref sig .tc := ⟨.hbm, 509, rfl⟩
abbrev main_v353 : Ref sig .tc := ⟨.hbm, 510, rfl⟩
abbrev main_c_107 : Ref sig .tc := ⟨.hbm, 511, rfl⟩
abbrev main_v354 : Ref sig .tc := ⟨.hbm, 512, rfl⟩
abbrev main_v355 : Ref sig .tc := ⟨.hbm, 513, rfl⟩
abbrev main_c_108 : Ref sig .tc := ⟨.hbm, 514, rfl⟩
abbrev main_v356 : Ref sig .tc := ⟨.hbm, 515, rfl⟩
abbrev main_v357 : Ref sig .tc := ⟨.hbm, 516, rfl⟩
abbrev main_v358 : Ref sig .tc := ⟨.hbm, 517, rfl⟩
abbrev main_v359 : Ref sig .tc := ⟨.hbm, 518, rfl⟩
abbrev main_v360 : Ref sig .tc := ⟨.hbm, 519, rfl⟩
abbrev main_v361 : Ref sig .tc := ⟨.hbm, 520, rfl⟩
abbrev main_v362 : Ref sig .tc := ⟨.hbm, 521, rfl⟩
abbrev main_c_109 : Ref sig .tc := ⟨.hbm, 522, rfl⟩
abbrev main_v363 : Ref sig .tc := ⟨.hbm, 523, rfl⟩
abbrev main_v364 : Ref sig .tc := ⟨.hbm, 524, rfl⟩
abbrev main_c_110 : Ref sig .tc := ⟨.hbm, 525, rfl⟩
abbrev main_v365 : Ref sig .tc := ⟨.hbm, 526, rfl⟩
abbrev main_v366 : Ref sig .tc := ⟨.hbm, 527, rfl⟩
abbrev main_v367 : Ref sig .tc := ⟨.hbm, 528, rfl⟩
abbrev main_c_111 : Ref sig .tc := ⟨.hbm, 529, rfl⟩
abbrev main_v368 : Ref sig .tc := ⟨.hbm, 530, rfl⟩
abbrev main_v369 : Ref sig .tc := ⟨.hbm, 531, rfl⟩
abbrev main_c_112 : Ref sig .tc := ⟨.hbm, 532, rfl⟩
abbrev main_v370 : Ref sig .tc := ⟨.hbm, 533, rfl⟩
abbrev main_v371 : Ref sig .tc := ⟨.hbm, 534, rfl⟩
abbrev main_v372 : Ref sig .tc := ⟨.hbm, 535, rfl⟩
abbrev main_v373 : Ref sig .tc := ⟨.hbm, 536, rfl⟩
abbrev main_v374 : Ref sig .tc := ⟨.hbm, 537, rfl⟩
abbrev main_v375 : Ref sig .tc := ⟨.hbm, 538, rfl⟩
abbrev main_v376 : Ref sig .tc := ⟨.hbm, 539, rfl⟩
abbrev main_c_113 : Ref sig .tc := ⟨.hbm, 540, rfl⟩
abbrev main_v377 : Ref sig .tc := ⟨.hbm, 541, rfl⟩
abbrev main_v378 : Ref sig .tc := ⟨.hbm, 542, rfl⟩
abbrev main_c_114 : Ref sig .tc := ⟨.hbm, 543, rfl⟩
abbrev main_v379 : Ref sig .tc := ⟨.hbm, 544, rfl⟩
abbrev main_v380 : Ref sig .tc := ⟨.hbm, 545, rfl⟩
abbrev main_v381 : Ref sig .tc := ⟨.hbm, 546, rfl⟩
abbrev main_c_115 : Ref sig .tc := ⟨.hbm, 547, rfl⟩
abbrev main_v382 : Ref sig .tc := ⟨.hbm, 548, rfl⟩
abbrev main_v383 : Ref sig .tc := ⟨.hbm, 549, rfl⟩
abbrev main_c_116 : Ref sig .tc := ⟨.hbm, 550, rfl⟩
abbrev main_v384 : Ref sig .tc := ⟨.hbm, 551, rfl⟩
abbrev main_v385 : Ref sig .tc := ⟨.hbm, 552, rfl⟩
abbrev main_v386 : Ref sig .tc := ⟨.hbm, 553, rfl⟩
abbrev main_v387 : Ref sig .tc := ⟨.hbm, 554, rfl⟩
abbrev main_v388 : Ref sig .tc := ⟨.hbm, 555, rfl⟩
abbrev main_v389 : Ref sig .tc := ⟨.hbm, 556, rfl⟩
abbrev main_v390 : Ref sig .tc := ⟨.hbm, 557, rfl⟩
abbrev main_c_117 : Ref sig .tc := ⟨.hbm, 558, rfl⟩
abbrev main_v391 : Ref sig .tc := ⟨.hbm, 559, rfl⟩
abbrev main_v392 : Ref sig .tc := ⟨.hbm, 560, rfl⟩
abbrev main_c_118 : Ref sig .tc := ⟨.hbm, 561, rfl⟩
abbrev main_v393 : Ref sig .tc := ⟨.hbm, 562, rfl⟩
abbrev main_v394 : Ref sig .tc := ⟨.hbm, 563, rfl⟩
abbrev main_v395 : Ref sig .tc := ⟨.hbm, 564, rfl⟩
abbrev main_c_119 : Ref sig .tc := ⟨.hbm, 565, rfl⟩
abbrev main_v396 : Ref sig .tc := ⟨.hbm, 566, rfl⟩
abbrev main_v397 : Ref sig .tc := ⟨.hbm, 567, rfl⟩
abbrev main_c_120 : Ref sig .tc := ⟨.hbm, 568, rfl⟩
abbrev main_v398 : Ref sig .tc := ⟨.hbm, 569, rfl⟩
abbrev main_v399 : Ref sig .tc := ⟨.hbm, 570, rfl⟩
abbrev main_v400 : Ref sig .tc := ⟨.hbm, 571, rfl⟩
abbrev main_v401 : Ref sig .tc := ⟨.hbm, 572, rfl⟩
abbrev main_v402 : Ref sig .tc := ⟨.hbm, 573, rfl⟩
abbrev main_v403 : Ref sig .tc := ⟨.hbm, 574, rfl⟩
abbrev main_v404 : Ref sig .tc := ⟨.hbm, 575, rfl⟩
abbrev main_cst_121 : Ref sig .tc := ⟨.hbm, 576, rfl⟩
abbrev main_v405 : Ref sig .tc := ⟨.hbm, 577, rfl⟩
abbrev main_v406 : Ref sig .tc := ⟨.hbm, 578, rfl⟩
abbrev main_v407 : Ref sig .tc := ⟨.hbm, 579, rfl⟩
abbrev main_v408 : Ref sig .tc := ⟨.hbm, 580, rfl⟩
abbrev main_v409 : Ref sig .tc := ⟨.hbm, 581, rfl⟩
abbrev main_v410 : Ref sig .tc := ⟨.hbm, 582, rfl⟩
abbrev main_v411 : Ref sig .tc := ⟨.hbm, 583, rfl⟩
abbrev main_cst_122 : Ref sig .tc := ⟨.hbm, 584, rfl⟩
abbrev main_v412 : Ref sig .tc := ⟨.hbm, 585, rfl⟩
abbrev main_v413 : Ref sig .tc := ⟨.hbm, 586, rfl⟩
abbrev main_v414 : Ref sig .tc := ⟨.hbm, 587, rfl⟩
abbrev main_v415 : Ref sig .tc := ⟨.hbm, 588, rfl⟩
abbrev main_v416 : Ref sig .tc := ⟨.hbm, 589, rfl⟩
abbrev main_v417 : Ref sig .tc := ⟨.hbm, 590, rfl⟩
abbrev main_v418 : Ref sig .tc := ⟨.hbm, 591, rfl⟩
abbrev main_cst_123 : Ref sig .tc := ⟨.hbm, 592, rfl⟩
abbrev main_v419 : Ref sig .tc := ⟨.hbm, 593, rfl⟩
abbrev main_v420 : Ref sig .tc := ⟨.hbm, 594, rfl⟩
abbrev main_v421 : Ref sig .tc := ⟨.hbm, 595, rfl⟩
abbrev main_v422 : Ref sig .tc := ⟨.hbm, 596, rfl⟩
abbrev main_v423 : Ref sig .tc := ⟨.hbm, 597, rfl⟩
abbrev main_v424 : Ref sig .tc := ⟨.hbm, 598, rfl⟩
abbrev main_v425 : Ref sig .tc := ⟨.hbm, 599, rfl⟩
abbrev main_v426 : Ref sig .tc := ⟨.hbm, 600, rfl⟩
abbrev main_v427 : Ref sig .tc := ⟨.hbm, 601, rfl⟩
abbrev main_cst_124 : Ref sig .tc := ⟨.hbm, 602, rfl⟩
abbrev main_v428 : Ref sig .tc := ⟨.hbm, 603, rfl⟩
abbrev main_v429 : Ref sig .tc := ⟨.hbm, 604, rfl⟩
abbrev main_cst_125 : Ref sig .tc := ⟨.hbm, 605, rfl⟩
abbrev main_v430 : Ref sig .tc := ⟨.hbm, 606, rfl⟩
abbrev main_v431 : Ref sig .tc := ⟨.hbm, 607, rfl⟩
abbrev main_cst_126 : Ref sig .tc := ⟨.hbm, 608, rfl⟩
abbrev main_v432 : Ref sig .tc := ⟨.hbm, 609, rfl⟩
abbrev main_v433 : Ref sig .tc := ⟨.hbm, 610, rfl⟩
abbrev main_v434 : Ref sig .tc := ⟨.hbm, 611, rfl⟩
abbrev main_c_127 : Ref sig .tc := ⟨.hbm, 612, rfl⟩
abbrev main_c_128 : Ref sig .tc := ⟨.hbm, 613, rfl⟩
abbrev main_call8_v0 : Ref sig .tc := ⟨.hbm, 614, rfl⟩
abbrev main_call8_v1 : Ref sig .tc := ⟨.hbm, 615, rfl⟩
abbrev main_call8_v2 : Ref sig .tc := ⟨.hbm, 616, rfl⟩
abbrev main_call8_v3 : Ref sig .tc := ⟨.hbm, 617, rfl⟩
abbrev main_call8_v4 : Ref sig .tc := ⟨.hbm, 618, rfl⟩
abbrev main_v435 : Ref sig .tc := ⟨.hbm, 619, rfl⟩
abbrev main_v436 : Ref sig .tc := ⟨.hbm, 620, rfl⟩
abbrev main_c_129 : Ref sig .tc := ⟨.hbm, 621, rfl⟩
abbrev main_v437 : Ref sig .tc := ⟨.hbm, 622, rfl⟩
abbrev main_v438 : Ref sig .tc := ⟨.hbm, 623, rfl⟩
abbrev main_c_130 : Ref sig .tc := ⟨.hbm, 624, rfl⟩
abbrev main_v439 : Ref sig .tc := ⟨.hbm, 625, rfl⟩
abbrev main_v440 : Ref sig .tc := ⟨.hbm, 626, rfl⟩
abbrev main_v441 : Ref sig .tc := ⟨.hbm, 627, rfl⟩
abbrev main_v442 : Ref sig .tc := ⟨.hbm, 628, rfl⟩
abbrev main_v443 : Ref sig .tc := ⟨.hbm, 629, rfl⟩
abbrev main_c_131 : Ref sig .tc := ⟨.hbm, 630, rfl⟩
abbrev main_v444 : Ref sig .tc := ⟨.hbm, 631, rfl⟩
abbrev main_v445 : Ref sig .tc := ⟨.hbm, 632, rfl⟩
abbrev main_c_132 : Ref sig .tc := ⟨.hbm, 633, rfl⟩
abbrev main_v446 : Ref sig .tc := ⟨.hbm, 634, rfl⟩
abbrev main_v447 : Ref sig .tc := ⟨.hbm, 635, rfl⟩
abbrev main_v448 : Ref sig .tc := ⟨.hbm, 636, rfl⟩
abbrev main_v449 : Ref sig .tc := ⟨.hbm, 637, rfl⟩
abbrev main_v450 : Ref sig .tc := ⟨.hbm, 638, rfl⟩
abbrev main_cst_133 : Ref sig .tc := ⟨.hbm, 639, rfl⟩
abbrev main_v451 : Ref sig .tc := ⟨.hbm, 640, rfl⟩
abbrev main_v452 : Ref sig .tc := ⟨.hbm, 641, rfl⟩
abbrev main_v453 : Ref sig .tc := ⟨.hbm, 642, rfl⟩
abbrev main_v454 : Ref sig .tc := ⟨.hbm, 643, rfl⟩
abbrev main_c_134 : Ref sig .tc := ⟨.hbm, 644, rfl⟩
abbrev main_v455 : Ref sig .tc := ⟨.hbm, 645, rfl⟩
abbrev main_v456 : Ref sig .tc := ⟨.hbm, 646, rfl⟩
abbrev main_c_135 : Ref sig .tc := ⟨.hbm, 647, rfl⟩
abbrev main_v457 : Ref sig .tc := ⟨.hbm, 648, rfl⟩
abbrev main_v458 : Ref sig .tc := ⟨.hbm, 649, rfl⟩
abbrev main_v459 : Ref sig .tc := ⟨.hbm, 650, rfl⟩
abbrev main_v460 : Ref sig .tc := ⟨.hbm, 651, rfl⟩
abbrev main_v461 : Ref sig .tc := ⟨.hbm, 652, rfl⟩
abbrev main_v462 : Ref sig .tc := ⟨.hbm, 653, rfl⟩
abbrev main_v463 : Ref sig .tc := ⟨.hbm, 654, rfl⟩
abbrev main_v464 : Ref sig .tc := ⟨.hbm, 655, rfl⟩
abbrev main_v465 : Ref sig .tc := ⟨.hbm, 656, rfl⟩
abbrev main_v466 : Ref sig .tc := ⟨.hbm, 657, rfl⟩
abbrev main_v467 : Ref sig .tc := ⟨.hbm, 658, rfl⟩
abbrev main_v468 : Ref sig .tc := ⟨.hbm, 659, rfl⟩
abbrev main_v469 : Ref sig .tc := ⟨.hbm, 660, rfl⟩
abbrev main_v470 : Ref sig .tc := ⟨.hbm, 661, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096x128x3_S524288x3 : S4096x128x3.ShapeCasts S524288x3
  bcast_S_S524288x3 : S_.BroadcastsInDim S524288x3 (![] : Fin 0 → Fin S524288x3.rank)
  slices_S524288x3_S524288x1_0_0 : S524288x3.Slices ![0, 0] S524288x1
  shapeCasts_S524288x1_S524288 : S524288x1.ShapeCasts S524288
  slices_S524288x3_S524288x1_0_1 : S524288x3.Slices ![0, 1] S524288x1
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  bcast_S_S524288x1 : S_.BroadcastsInDim S524288x1 (![] : Fin 0 → Fin S524288x1.rank)
  bcast_S524288x1_S524288x64_0_1 : S524288x1.BroadcastsInDim S524288x64 (![0, 1] : Fin 2 → Fin S524288x64.rank)
  slices_S524288x3_S524288x1_0_2 : S524288x3.Slices ![0, 2] S524288x1
  bcast_S524288x1_S524288x16_0_1 : S524288x1.BroadcastsInDim S524288x16 (![0, 1] : Fin 2 → Fin S524288x16.rank)
  concatenates_S524288x64_S524288x16_S524288x16_S524288x96_d1 : Shape.Concatenates [S524288x64, S524288x16, S524288x16] S524288x96 1
  bitsLt_bf16_f32 : FTy.bits .bf16 < FTy.bits .f32
  transposes_S32x96_S96x32_1_0 : S32x96.Transposes [1, 0] S96x32
  inb_S16384x96_S16384x96_0_0 : ∀ a, (![0, 0] : Fin 2 → Nat) a + S16384x96.size a ≤ S16384x96.size a
  h_S16384x96 : 0 < S16384x96.numel
  shapeCasts_S16384x96_S16384x96 : S16384x96.ShapeCasts S16384x96
  inb_S96x32_S96x32_0_0 : ∀ a, (![0, 0] : Fin 2 → Nat) a + S96x32.size a ≤ S96x32.size a
  h_S96x32 : 0 < S96x32.numel
  shapeCasts_S96x32_S96x32 : S96x32.ShapeCasts S96x32
  inb_S16384x32_S16384x32_0_0 : ∀ a, (![0, 0] : Fin 2 → Nat) a + S16384x32.size a ≤ S16384x32.size a
  h_S16384x32 : 0 < S16384x32.numel
  shapeCasts_S524288x32_S4096x128x32 : S524288x32.ShapeCasts S4096x128x32
  gather_S512x512x64_S524288x2_S524288x64_1_01_n_n_01_1_1164_wf : GatherDims.WF S512x512x64 S524288x2 S524288x64 [1] [0, 1] [] [0, 1] [] 1 ![1, 1, 64]
  gather_S512x64_S524288x1_S524288x64_1_0_n_n_0_1_164_wf : GatherDims.WF S512x64 S524288x1 S524288x64 [1] [0] [] [0] [] 1 ![1, 64]
  gather_S512x512x16_S524288x2_S524288x16_1_01_n_n_01_1_1116_wf : GatherDims.WF S512x512x16 S524288x2 S524288x16 [1] [0, 1] [] [0, 1] [] 1 ![1, 1, 16]
  gather_S512x16_S524288x1_S524288x16_1_0_n_n_0_1_116_wf : GatherDims.WF S512x16 S524288x1 S524288x16 [1] [0] [] [0] [] 1 ![1, 16]
  dot_S16384x96_S96x32_S16384x32_1_0_0_1_n_n_wf : DotDims.WF S16384x96 S96x32 S16384x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x96.size a ≤ S524288x96.size a
  hwx0_0 : ∀ i : grid0.Coords, EltTy.bits .bf16 = 32 ∨ (Rect.block (s := S524288x96) S16384x96.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x32.size a ≤ S96x32.size a
  hwx0_1 : ∀ i : grid0.Coords, EltTy.bits .f32 = 32 ∨ (Rect.block (s := S96x32) S96x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x32.size a ≤ S524288x32.size a
  hwx0_2 : ∀ i : grid0.Coords, EltTy.bits .f32 = 32 ∨ (Rect.block (s := S524288x32) S16384x32.size (cc0_transform_2 i) (hinb0_2 i)).WholeWords (EltTy.packing .f32)

variable [Facts₀]

def gather_S512x512x64_S524288x2_S524288x64_1_01_n_n_01_1_1164 : GatherDims S512x512x64 S524288x2 S524288x64 where
  offsetDims := [1]
  collapsedSliceDims := [0, 1]
  operandBatchingDims := []
  startIndicesBatchingDims := []
  startIndexMap := [0, 1]
  indexVectorDim := 1
  sliceSizes := ![1, 1, 64]
  wf := gather_S512x512x64_S524288x2_S524288x64_1_01_n_n_01_1_1164_wf
def gather_S512x64_S524288x1_S524288x64_1_0_n_n_0_1_164 : GatherDims S512x64 S524288x1 S524288x64 where
  offsetDims := [1]
  collapsedSliceDims := [0]
  operandBatchingDims := []
  startIndicesBatchingDims := []
  startIndexMap := [0]
  indexVectorDim := 1
  sliceSizes := ![1, 64]
  wf := gather_S512x64_S524288x1_S524288x64_1_0_n_n_0_1_164_wf
def gather_S512x512x16_S524288x2_S524288x16_1_01_n_n_01_1_1116 : GatherDims S512x512x16 S524288x2 S524288x16 where
  offsetDims := [1]
  collapsedSliceDims := [0, 1]
  operandBatchingDims := []
  startIndicesBatchingDims := []
  startIndexMap := [0, 1]
  indexVectorDim := 1
  sliceSizes := ![1, 1, 16]
  wf := gather_S512x512x16_S524288x2_S524288x16_1_01_n_n_01_1_1116_wf
def gather_S512x16_S524288x1_S524288x16_1_0_n_n_0_1_116 : GatherDims S512x16 S524288x1 S524288x16 where
  offsetDims := [1]
  collapsedSliceDims := [0]
  operandBatchingDims := []
  startIndicesBatchingDims := []
  startIndexMap := [0]
  indexVectorDim := 1
  sliceSizes := ![1, 16]
  wf := gather_S512x16_S524288x1_S524288x16_1_0_n_n_0_1_116_wf
def dot_S16384x96_S96x32_S16384x32_1_0_0_1_n_n : DotDims S16384x96 S96x32 S16384x32 where
  lhsContracting := [1]
  rhsContracting := [0]
  lhsNonContracting := [0]
  rhsNonContracting := [1]
  lhsBatch := []
  rhsBatch := []
  wf := dot_S16384x96_S96x32_S16384x32_1_0_0_1_n_n_wf

abbrev win0_0 : Pipeline.Window sig grid0 :=
  Pipeline.Window.ofSpec (Memref.whole main_v467) S16384x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v468) S96x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v469) S16384x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x128x3 : Shape := ⟨3, ![4096, 128, 3]⟩
abbrev S512x512x64 : Shape := ⟨3, ![512, 512, 64]⟩
abbrev S512x512x16 : Shape := ⟨3, ![512, 512, 16]⟩
abbrev S512x64 : Shape := ⟨2, ![512, 64]⟩
abbrev S512x16 : Shape := ⟨2, ![512, 16]⟩
abbrev S32x96 : Shape := ⟨2, ![32, 96]⟩
abbrev S524288x3 : Shape := ⟨2, ![524288, 3]⟩
abbrev S_ : Shape := ⟨0, ![]⟩
abbrev S524288x1 : Shape := ⟨2, ![524288, 1]⟩
abbrev S524288 : Shape := ⟨1, ![524288]⟩
abbrev S524288x2 : Shape := ⟨2, ![524288, 2]⟩
abbrev S524288x64 : Shape := ⟨2, ![524288, 64]⟩
abbrev S524288x16 : Shape := ⟨2, ![524288, 16]⟩
abbrev S524288x96 : Shape := ⟨2, ![524288, 96]⟩
abbrev S96x32 : Shape := ⟨2, ![96, 32]⟩
abbrev S524288x32 : Shape := ⟨2, ![524288, 32]⟩
abbrev S4096x128x32 : Shape := ⟨3, ![4096, 128, 32]⟩

abbrev nBuf : Space → Nat
  | .hbm => 661
  | .vmem => 0
  | .smem => 0
  | _ => 0

abbrev hbmTy0_0 (i : Nat) : BufTy := match i % 128 with
  | 0 => ⟨S4096x128x3, .f32⟩
  | 1 => ⟨S512x512x64, .f32⟩
  | 2 => ⟨S512x512x16, .f32⟩
  | 3 => ⟨S512x512x16, .f32⟩
  | 4 => ⟨S512x64, .f32⟩
  | 5 => ⟨S512x16, .f32⟩
  | 6 => ⟨S512x16, .f32⟩
  | 7 => ⟨S32x96, .f32⟩
  | 8 => ⟨S524288x3, .f32⟩
  | 9 => ⟨S_, .f32⟩
  | 10 => ⟨S524288x3, .f32⟩
  | 11 => ⟨S524288x3, .f32⟩
  | 12 => ⟨S_, .f32⟩
  | 13 => ⟨S524288x3, .f32⟩
  | 14 => ⟨S524288x3, .f32⟩
  | 15 => ⟨S_, .f32⟩
  | 16 => ⟨S524288x3, .f32⟩
  | 17 => ⟨S524288x3, .f32⟩
  | 18 => ⟨S524288x1, .f32⟩
  | 19 => ⟨S524288, .f32⟩
  | 20 => ⟨S524288x1, .f32⟩
  | 21 => ⟨S524288, .f32⟩
  | 22 => ⟨S_, .f32⟩
  | 23 => ⟨S524288, .f32⟩
  | 24 => ⟨S524288, .f32⟩
  | 25 => ⟨S_, .f32⟩
  | 26 => ⟨S524288, .f32⟩
  | 27 => ⟨S524288, .f32⟩
  | 28 => ⟨S_, .f32⟩
  | 29 => ⟨S524288, .f32⟩
  | 30 => ⟨S524288, .f32⟩
  | 31 => ⟨S_, .f32⟩
  | 32 => ⟨S524288, .f32⟩
  | 33 => ⟨S524288, .f32⟩
  | 34 => ⟨S_, .f32⟩
  | 35 => ⟨S524288, .f32⟩
  | 36 => ⟨S524288, .f32⟩
  | 37 => ⟨S_, .f32⟩
  | 38 => ⟨S524288, .f32⟩
  | 39 => ⟨S524288, .f32⟩
  | 40 => ⟨S524288, .f32⟩
  | 41 => ⟨S_, .i32⟩
  | 42 => ⟨S_, .i32⟩
  | 43 => ⟨S_, .f32⟩
  | 44 => ⟨S524288, .f32⟩
  | 45 => ⟨S524288, .f32⟩
  | 46 => ⟨S_, .f32⟩
  | 47 => ⟨S524288, .f32⟩
  | 48 => ⟨S524288, .f32⟩
  | 49 => ⟨S524288, .i32⟩
  | 50 => ⟨S524288, .f32⟩
  | 51 => ⟨S_, .i32⟩
  | 52 => ⟨S_, .i32⟩
  | 53 => ⟨S_, .f32⟩
  | 54 => ⟨S524288, .f32⟩
  | 55 => ⟨S524288, .f32⟩
  | 56 => ⟨S_, .f32⟩
  | 57 => ⟨S524288, .f32⟩
  | 58 => ⟨S524288, .f32⟩
  | 59 => ⟨S524288, .i32⟩
  | 60 => ⟨S_, .i32⟩
  | 61 => ⟨S524288, .i32⟩
  | 62 => ⟨S524288, .i32⟩
  | 63 => ⟨S_, .i32⟩
  | 64 => ⟨S524288, .i32⟩
  | 65 => ⟨S524288, .i32⟩
  | 66 => ⟨S_, .i32⟩
  | 67 => ⟨S524288, .i32⟩
  | 68 => ⟨S524288, .i32⟩
  | 69 => ⟨S_, .i32⟩
  | 70 => ⟨S524288, .i32⟩
  | 71 => ⟨S524288, .i32⟩
  | 72 => ⟨S524288, .f32⟩
  | 73 => ⟨S524288, .f32⟩
  | 74 => ⟨S524288x1, .f32⟩
  | 75 => ⟨S524288, .f32⟩
  | 76 => ⟨S524288, .f32⟩
  | 77 => ⟨S524288x1, .f32⟩
  | 78 => ⟨S_, .i32⟩
  | 79 => ⟨S524288, .i32⟩
  | 80 => ⟨S524288, .i1⟩
  | 81 => ⟨S_, .i32⟩
  | 82 => ⟨S524288, .i32⟩
  | 83 => ⟨S524288, .i32⟩
  | 84 => ⟨S524288, .i32⟩
  | 85 => ⟨S_, .i32⟩
  | 86 => ⟨S524288, .i32⟩
  | 87 => ⟨S524288, .i1⟩
  | 88 => ⟨S_, .i32⟩
  | 89 => ⟨S524288, .i32⟩
  | 90 => ⟨S524288, .i32⟩
  | 91 => ⟨S524288, .i32⟩
  | 92 => ⟨S524288x1, .i32⟩
  | 93 => ⟨S524288x1, .i32⟩
  | 94 => ⟨S524288x2, .i32⟩
  | 95 => ⟨S524288x64, .f32⟩
  | 96 => ⟨S_, .i32⟩
  | 97 => ⟨S524288, .i32⟩
  | 98 => ⟨S524288, .i1⟩
  | 99 => ⟨S_, .i32⟩
  | 100 => ⟨S524288, .i32⟩
  | 101 => ⟨S524288, .i32⟩
  | 102 => ⟨S524288, .i32⟩
  | 103 => ⟨S_, .i32⟩
  | 104 => ⟨S524288, .i32⟩
  | 105 => ⟨S524288, .i1⟩
  | 106 => ⟨S_, .i32⟩
  | 107 => ⟨S524288, .i32⟩
  | 108 => ⟨S524288, .i32⟩
  | 109 => ⟨S524288, .i32⟩
  | 110 => ⟨S524288x1, .i32⟩
  | 111 => ⟨S524288x1, .i32⟩
  | 112 => ⟨S524288x2, .i32⟩
  | 113 => ⟨S524288x64, .f32⟩
  | 114 => ⟨S_, .i32⟩
  | 115 => ⟨S524288, .i32⟩
  | 116 => ⟨S524288, .i1⟩
  | 117 => ⟨S_, .i32⟩
  | 118 => ⟨S524288, .i32⟩
  | 119 => ⟨S524288, .i32⟩
  | 120 => ⟨S524288, .i32⟩
  | 121 => ⟨S_, .i32⟩
  | 122 => ⟨S524288, .i32⟩
  | 123 => ⟨S524288, .i1⟩
  | 124 => ⟨S_, .i32⟩
  | 125 => ⟨S524288, .i32⟩
  | 126 => ⟨S524288, .i32⟩
  | 127 => ⟨S524288, .i32⟩
  | _ => ⟨S4096x128x3, .f32⟩

abbrev hbmTy0_1 (i : Nat) : BufTy := match i % 128 with
  | 0 => ⟨S524288x1, .i32⟩
  | 1 => ⟨S524288x1, .i32⟩
  | 2 => ⟨S524288x2, .i32⟩
  | 3 => ⟨S524288x64, .f32⟩
  | 4 => ⟨S_, .i32⟩
  | 5 => ⟨S524288, .i32⟩
  | 6 => ⟨S524288, .i1⟩
  | 7 => ⟨S_, .i32⟩
  | 8 => ⟨S524288, .i32⟩
  | 9 => ⟨S524288, .i32⟩
  | 10 => ⟨S524288, .i32⟩
  | 11 => ⟨S_, .i32⟩
  | 12 => ⟨S524288, .i32⟩
  | 13 => ⟨S524288, .i1⟩
  | 14 => ⟨S_, .i32⟩
  | 15 => ⟨S524288, .i32⟩
  | 16 => ⟨S524288, .i32⟩
  | 17 => ⟨S524288, .i32⟩
  | 18 => ⟨S524288x1, .i32⟩
  | 19 => ⟨S524288x1, .i32⟩
  | 20 => ⟨S524288x2, .i32⟩
  | 21 => ⟨S524288x64, .f32⟩
  | 22 => ⟨S_, .f32⟩
  | 23 => ⟨S524288x1, .f32⟩
  | 24 => ⟨S524288x1, .f32⟩
  | 25 => ⟨S524288x64, .f32⟩
  | 26 => ⟨S524288x64, .f32⟩
  | 27 => ⟨S524288x64, .f32⟩
  | 28 => ⟨S524288x64, .f32⟩
  | 29 => ⟨S524288x64, .f32⟩
  | 30 => ⟨S_, .f32⟩
  | 31 => ⟨S524288x1, .f32⟩
  | 32 => ⟨S524288x1, .f32⟩
  | 33 => ⟨S524288x64, .f32⟩
  | 34 => ⟨S524288x64, .f32⟩
  | 35 => ⟨S524288x64, .f32⟩
  | 36 => ⟨S524288x64, .f32⟩
  | 37 => ⟨S524288x64, .f32⟩
  | 38 => ⟨S_, .f32⟩
  | 39 => ⟨S524288x1, .f32⟩
  | 40 => ⟨S524288x1, .f32⟩
  | 41 => ⟨S524288x64, .f32⟩
  | 42 => ⟨S524288x64, .f32⟩
  | 43 => ⟨S524288x64, .f32⟩
  | 44 => ⟨S524288x64, .f32⟩
  | 45 => ⟨S524288x64, .f32⟩
  | 46 => ⟨S524288x1, .f32⟩
  | 47 => ⟨S524288, .f32⟩
  | 48 => ⟨S_, .f32⟩
  | 49 => ⟨S524288, .f32⟩
  | 50 => ⟨S524288, .f32⟩
  | 51 => ⟨S_, .f32⟩
  | 52 => ⟨S524288, .f32⟩
  | 53 => ⟨S524288, .f32⟩
  | 54 => ⟨S_, .f32⟩
  | 55 => ⟨S524288, .f32⟩
  | 56 => ⟨S524288, .f32⟩
  | 57 => ⟨S524288, .f32⟩
  | 58 => ⟨S_, .i32⟩
  | 59 => ⟨S_, .i32⟩
  | 60 => ⟨S_, .f32⟩
  | 61 => ⟨S524288, .f32⟩
  | 62 => ⟨S524288, .f32⟩
  | 63 => ⟨S_, .f32⟩
  | 64 => ⟨S524288, .f32⟩
  | 65 => ⟨S524288, .f32⟩
  | 66 => ⟨S524288, .i32⟩
  | 67 => ⟨S_, .i32⟩
  | 68 => ⟨S524288, .i32⟩
  | 69 => ⟨S524288, .i32⟩
  | 70 => ⟨S_, .i32⟩
  | 71 => ⟨S524288, .i32⟩
  | 72 => ⟨S524288, .i32⟩
  | 73 => ⟨S524288, .f32⟩
  | 74 => ⟨S524288, .f32⟩
  | 75 => ⟨S524288x1, .f32⟩
  | 76 => ⟨S_, .i32⟩
  | 77 => ⟨S524288, .i32⟩
  | 78 => ⟨S524288, .i1⟩
  | 79 => ⟨S_, .i32⟩
  | 80 => ⟨S524288, .i32⟩
  | 81 => ⟨S524288, .i32⟩
  | 82 => ⟨S524288, .i32⟩
  | 83 => ⟨S524288x1, .i32⟩
  | 84 => ⟨S524288x64, .f32⟩
  | 85 => ⟨S_, .f32⟩
  | 86 => ⟨S524288x1, .f32⟩
  | 87 => ⟨S524288x1, .f32⟩
  | 88 => ⟨S524288x64, .f32⟩
  | 89 => ⟨S524288x64, .f32⟩
  | 90 => ⟨S_, .i32⟩
  | 91 => ⟨S524288, .i32⟩
  | 92 => ⟨S524288, .i1⟩
  | 93 => ⟨S_, .i32⟩
  | 94 => ⟨S524288, .i32⟩
  | 95 => ⟨S524288, .i32⟩
  | 96 => ⟨S524288, .i32⟩
  | 97 => ⟨S524288x1, .i32⟩
  | 98 => ⟨S524288x64, .f32⟩
  | 99 => ⟨S524288x64, .f32⟩
  | 100 => ⟨S524288x64, .f32⟩
  | 101 => ⟨S524288x64, .f32⟩
  | 102 => ⟨S524288x64, .f32⟩
  | 103 => ⟨S524288x1, .f32⟩
  | 104 => ⟨S524288, .f32⟩
  | 105 => ⟨S524288x1, .f32⟩
  | 106 => ⟨S524288, .f32⟩
  | 107 => ⟨S_, .f32⟩
  | 108 => ⟨S524288, .f32⟩
  | 109 => ⟨S524288, .f32⟩
  | 110 => ⟨S_, .f32⟩
  | 111 => ⟨S524288, .f32⟩
  | 112 => ⟨S524288, .f32⟩
  | 113 => ⟨S_, .f32⟩
  | 114 => ⟨S524288, .f32⟩
  | 115 => ⟨S524288, .f32⟩
  | 116 => ⟨S_, .f32⟩
  | 117 => ⟨S524288, .f32⟩
  | 118 => ⟨S524288, .f32⟩
  | 119 => ⟨S_, .f32⟩
  | 120 => ⟨S524288, .f32⟩
  | 121 => ⟨S524288, .f32⟩
  | 122 => ⟨S_, .f32⟩
  | 123 => ⟨S524288, .f32⟩
  | 124 => ⟨S524288, .f32⟩
  | 125 => ⟨S524288, .f32⟩
  | 126 => ⟨S_, .i32⟩
  | 127 => ⟨S_, .i32⟩
  | _ => ⟨S4096x128x3, .f32⟩

abbrev hbmTy0_2 (i : Nat) : BufTy := match i % 128 with
  | 0 => ⟨S_, .f32⟩
  | 1 => ⟨S524288, .f32⟩
  | 2 => ⟨S524288, .f32⟩
  | 3 => ⟨S_, .f32⟩
  | 4 => ⟨S524288, .f32⟩
  | 5 => ⟨S524288, .f32⟩
  | 6 => ⟨S524288, .i32⟩
  | 7 => ⟨S524288, .f32⟩
  | 8 => ⟨S_, .i32⟩
  | 9 => ⟨S_, .i32⟩
  | 10 => ⟨S_, .f32⟩
  | 11 => ⟨S524288, .f32⟩
  | 12 => ⟨S524288, .f32⟩
  | 13 => ⟨S_, .f32⟩
  | 14 => ⟨S524288, .f32⟩
  | 15 => ⟨S524288, .f32⟩
  | 16 => ⟨S524288, .i32⟩
  | 17 => ⟨S_, .i32⟩
  | 18 => ⟨S524288, .i32⟩
  | 19 => ⟨S524288, .i32⟩
  | 20 => ⟨S_, .i32⟩
  | 21 => ⟨S524288, .i32⟩
  | 22 => ⟨S524288, .i32⟩
  | 23 => ⟨S_, .i32⟩
  | 24 => ⟨S524288, .i32⟩
  | 25 => ⟨S524288, .i32⟩
  | 26 => ⟨S_, .i32⟩
  | 27 => ⟨S524288, .i32⟩
  | 28 => ⟨S524288, .i32⟩
  | 29 => ⟨S524288, .f32⟩
  | 30 => ⟨S524288, .f32⟩
  | 31 => ⟨S524288x1, .f32⟩
  | 32 => ⟨S524288, .f32⟩
  | 33 => ⟨S524288, .f32⟩
  | 34 => ⟨S524288x1, .f32⟩
  | 35 => ⟨S_, .i32⟩
  | 36 => ⟨S524288, .i32⟩
  | 37 => ⟨S524288, .i1⟩
  | 38 => ⟨S_, .i32⟩
  | 39 => ⟨S524288, .i32⟩
  | 40 => ⟨S524288, .i32⟩
  | 41 => ⟨S524288, .i32⟩
  | 42 => ⟨S_, .i32⟩
  | 43 => ⟨S524288, .i32⟩
  | 44 => ⟨S524288, .i1⟩
  | 45 => ⟨S_, .i32⟩
  | 46 => ⟨S524288, .i32⟩
  | 47 => ⟨S524288, .i32⟩
  | 48 => ⟨S524288, .i32⟩
  | 49 => ⟨S524288x1, .i32⟩
  | 50 => ⟨S524288x1, .i32⟩
  | 51 => ⟨S524288x2, .i32⟩
  | 52 => ⟨S524288x16, .f32⟩
  | 53 => ⟨S_, .i32⟩
  | 54 => ⟨S524288, .i32⟩
  | 55 => ⟨S524288, .i1⟩
  | 56 => ⟨S_, .i32⟩
  | 57 => ⟨S524288, .i32⟩
  | 58 => ⟨S524288, .i32⟩
  | 59 => ⟨S524288, .i32⟩
  | 60 => ⟨S_, .i32⟩
  | 61 => ⟨S524288, .i32⟩
  | 62 => ⟨S524288, .i1⟩
  | 63 => ⟨S_, .i32⟩
  | 64 => ⟨S524288, .i32⟩
  | 65 => ⟨S524288, .i32⟩
  | 66 => ⟨S524288, .i32⟩
  | 67 => ⟨S524288x1, .i32⟩
  | 68 => ⟨S524288x1, .i32⟩
  | 69 => ⟨S524288x2, .i32⟩
  | 70 => ⟨S524288x16, .f32⟩
  | 71 => ⟨S_, .i32⟩
  | 72 => ⟨S524288, .i32⟩
  | 73 => ⟨S524288, .i1⟩
  | 74 => ⟨S_, .i32⟩
  | 75 => ⟨S524288, .i32⟩
  | 76 => ⟨S524288, .i32⟩
  | 77 => ⟨S524288, .i32⟩
  | 78 => ⟨S_, .i32⟩
  | 79 => ⟨S524288, .i32⟩
  | 80 => ⟨S524288, .i1⟩
  | 81 => ⟨S_, .i32⟩
  | 82 => ⟨S524288, .i32⟩
  | 83 => ⟨S524288, .i32⟩
  | 84 => ⟨S524288, .i32⟩
  | 85 => ⟨S524288x1, .i32⟩
  | 86 => ⟨S524288x1, .i32⟩
  | 87 => ⟨S524288x2, .i32⟩
  | 88 => ⟨S524288x16, .f32⟩
  | 89 => ⟨S_, .i32⟩
  | 90 => ⟨S524288, .i32⟩
  | 91 => ⟨S524288, .i1⟩
  | 92 => ⟨S_, .i32⟩
  | 93 => ⟨S524288, .i32⟩
  | 94 => ⟨S524288, .i32⟩
  | 95 => ⟨S524288, .i32⟩
  | 96 => ⟨S_, .i32⟩
  | 97 => ⟨S524288, .i32⟩
  | 98 => ⟨S524288, .i1⟩
  | 99 => ⟨S_, .i32⟩
  | 100 => ⟨S524288, .i32⟩
  | 101 => ⟨S524288, .i32⟩
  | 102 => ⟨S524288, .i32⟩
  | 103 => ⟨S524288x1, .i32⟩
  | 104 => ⟨S524288x1, .i32⟩
  | 105 => ⟨S524288x2, .i32⟩
  | 106 => ⟨S524288x16, .f32⟩
  | 107 => ⟨S_, .f32⟩
  | 108 => ⟨S524288x1, .f32⟩
  | 109 => ⟨S524288x1, .f32⟩
  | 110 => ⟨S524288x16, .f32⟩
  | 111 => ⟨S524288x16, .f32⟩
  | 112 => ⟨S524288x16, .f32⟩
  | 113 => ⟨S524288x16, .f32⟩
  | 114 => ⟨S524288x16, .f32⟩
  | 115 => ⟨S_, .f32⟩
  | 116 => ⟨S524288x1, .f32⟩
  | 117 => ⟨S524288x1, .f32⟩
  | 118 => ⟨S524288x16, .f32⟩
  | 119 => ⟨S524288x16, .f32⟩
  | 120 => ⟨S524288x16, .f32⟩
  | 121 => ⟨S524288x16, .f32⟩
  | 122 => ⟨S524288x16, .f32⟩
  | 123 => ⟨S_, .f32⟩
  | 124 => ⟨S524288x1, .f32⟩
  | 125 => ⟨S524288x1, .f32⟩
  | 126 => ⟨S524288x16, .f32⟩
  | 127 => ⟨S524288x16, .f32⟩
  | _ => ⟨S4096x128x3, .f32⟩

abbrev hbmTy0_3 (i : Nat) : BufTy := match i % 128 with
  | 0 => ⟨S524288x16, .f32⟩
  | 1 => ⟨S524288x16, .f32⟩
  | 2 => ⟨S524288x16, .f32⟩
  | 3 => ⟨S524288x1, .f32⟩
  | 4 => ⟨S524288, .f32⟩
  | 5 => ⟨S_, .f32⟩
  | 6 => ⟨S524288, .f32⟩
  | 7 => ⟨S524288, .f32⟩
  | 8 => ⟨S_, .f32⟩
  | 9 => ⟨S524288, .f32⟩
  | 10 => ⟨S524288, .f32⟩
  | 11 => ⟨S_, .f32⟩
  | 12 => ⟨S524288, .f32⟩
  | 13 => ⟨S524288, .f32⟩
  | 14 => ⟨S524288, .f32⟩
  | 15 => ⟨S_, .i32⟩
  | 16 => ⟨S_, .i32⟩
  | 17 => ⟨S_, .f32⟩
  | 18 => ⟨S524288, .f32⟩
  | 19 => ⟨S524288, .f32⟩
  | 20 => ⟨S_, .f32⟩
  | 21 => ⟨S524288, .f32⟩
  | 22 => ⟨S524288, .f32⟩
  | 23 => ⟨S524288, .i32⟩
  | 24 => ⟨S_, .i32⟩
  | 25 => ⟨S524288, .i32⟩
  | 26 => ⟨S524288, .i32⟩
  | 27 => ⟨S_, .i32⟩
  | 28 => ⟨S524288, .i32⟩
  | 29 => ⟨S524288, .i32⟩
  | 30 => ⟨S524288, .f32⟩
  | 31 => ⟨S524288, .f32⟩
  | 32 => ⟨S524288x1, .f32⟩
  | 33 => ⟨S_, .i32⟩
  | 34 => ⟨S524288, .i32⟩
  | 35 => ⟨S524288, .i1⟩
  | 36 => ⟨S_, .i32⟩
  | 37 => ⟨S524288, .i32⟩
  | 38 => ⟨S524288, .i32⟩
  | 39 => ⟨S524288, .i32⟩
  | 40 => ⟨S524288x1, .i32⟩
  | 41 => ⟨S524288x16, .f32⟩
  | 42 => ⟨S_, .f32⟩
  | 43 => ⟨S524288x1, .f32⟩
  | 44 => ⟨S524288x1, .f32⟩
  | 45 => ⟨S524288x16, .f32⟩
  | 46 => ⟨S524288x16, .f32⟩
  | 47 => ⟨S_, .i32⟩
  | 48 => ⟨S524288, .i32⟩
  | 49 => ⟨S524288, .i1⟩
  | 50 => ⟨S_, .i32⟩
  | 51 => ⟨S524288, .i32⟩
  | 52 => ⟨S524288, .i32⟩
  | 53 => ⟨S524288, .i32⟩
  | 54 => ⟨S524288x1, .i32⟩
  | 55 => ⟨S524288x16, .f32⟩
  | 56 => ⟨S524288x16, .f32⟩
  | 57 => ⟨S524288x16, .f32⟩
  | 58 => ⟨S524288x16, .f32⟩
  | 59 => ⟨S524288x16, .f32⟩
  | 60 => ⟨S524288x1, .f32⟩
  | 61 => ⟨S524288, .f32⟩
  | 62 => ⟨S524288x1, .f32⟩
  | 63 => ⟨S524288, .f32⟩
  | 64 => ⟨S_, .f32⟩
  | 65 => ⟨S524288, .f32⟩
  | 66 => ⟨S524288, .f32⟩
  | 67 => ⟨S_, .f32⟩
  | 68 => ⟨S524288, .f32⟩
  | 69 => ⟨S524288, .f32⟩
  | 70 => ⟨S_, .f32⟩
  | 71 => ⟨S524288, .f32⟩
  | 72 => ⟨S524288, .f32⟩
  | 73 => ⟨S_, .f32⟩
  | 74 => ⟨S524288, .f32⟩
  | 75 => ⟨S524288, .f32⟩
  | 76 => ⟨S_, .f32⟩
  | 77 => ⟨S524288, .f32⟩
  | 78 => ⟨S524288, .f32⟩
  | 79 => ⟨S_, .f32⟩
  | 80 => ⟨S524288, .f32⟩
  | 81 => ⟨S524288, .f32⟩
  | 82 => ⟨S524288, .f32⟩
  | 83 => ⟨S_, .i32⟩
  | 84 => ⟨S_, .i32⟩
  | 85 => ⟨S_, .f32⟩
  | 86 => ⟨S524288, .f32⟩
  | 87 => ⟨S524288, .f32⟩
  | 88 => ⟨S_, .f32⟩
  | 89 => ⟨S524288, .f32⟩
  | 90 => ⟨S524288, .f32⟩
  | 91 => ⟨S524288, .i32⟩
  | 92 => ⟨S524288, .f32⟩
  | 93 => ⟨S_, .i32⟩
  | 94 => ⟨S_, .i32⟩
  | 95 => ⟨S_, .f32⟩
  | 96 => ⟨S524288, .f32⟩
  | 97 => ⟨S524288, .f32⟩
  | 98 => ⟨S_, .f32⟩
  | 99 => ⟨S524288, .f32⟩
  | 100 => ⟨S524288, .f32⟩
  | 101 => ⟨S524288, .i32⟩
  | 102 => ⟨S_, .i32⟩
  | 103 => ⟨S524288, .i32⟩
  | 104 => ⟨S524288, .i32⟩
  | 105 => ⟨S_, .i32⟩
  | 106 => ⟨S524288, .i32⟩
  | 107 => ⟨S524288, .i32⟩
  | 108 => ⟨S_, .i32⟩
  | 109 => ⟨S524288, .i32⟩
  | 110 => ⟨S524288, .i32⟩
  | 111 => ⟨S_, .i32⟩
  | 112 => ⟨S524288, .i32⟩
  | 113 => ⟨S524288, .i32⟩
  | 114 => ⟨S524288, .f32⟩
  | 115 => ⟨S524288, .f32⟩
  | 116 => ⟨S524288x1, .f32⟩
  | 117 => ⟨S524288, .f32⟩
  | 118 => ⟨S524288, .f32⟩
  | 119 => ⟨S524288x1, .f32⟩
  | 120 => ⟨S_, .i32⟩
  | 121 => ⟨S524288, .i32⟩
  | 122 => ⟨S524288, .i1⟩
  | 123 => ⟨S_, .i32⟩
  | 124 => ⟨S524288, .i32⟩
  | 125 => ⟨S524288, .i32⟩
  | 126 => ⟨S524288, .i32⟩
  | 127 => ⟨S_, .i32⟩
  | _ => ⟨S4096x128x3, .f32⟩

abbrev hbmTy0_4 (i : Nat) : BufTy := match i % 128 with
  | 0 => ⟨S524288, .i32⟩
  | 1 => ⟨S524288, .i1⟩
  | 2 => ⟨S_, .i32⟩
  | 3 => ⟨S524288, .i32⟩
  | 4 => ⟨S524288, .i32⟩
  | 5 => ⟨S524288, .i32⟩
  | 6 => ⟨S524288x1, .i32⟩
  | 7 => ⟨S524288x1, .i32⟩
  | 8 => ⟨S524288x2, .i32⟩
  | 9 => ⟨S524288x16, .f32⟩
  | 10 => ⟨S_, .i32⟩
  | 11 => ⟨S524288, .i32⟩
  | 12 => ⟨S524288, .i1⟩
  | 13 => ⟨S_, .i32⟩
  | 14 => ⟨S524288, .i32⟩
  | 15 => ⟨S524288, .i32⟩
  | 16 => ⟨S524288, .i32⟩
  | 17 => ⟨S_, .i32⟩
  | 18 => ⟨S524288, .i32⟩
  | 19 => ⟨S524288, .i1⟩
  | 20 => ⟨S_, .i32⟩
  | 21 => ⟨S524288, .i32⟩
  | 22 => ⟨S524288, .i32⟩
  | 23 => ⟨S524288, .i32⟩
  | 24 => ⟨S524288x1, .i32⟩
  | 25 => ⟨S524288x1, .i32⟩
  | 26 => ⟨S524288x2, .i32⟩
  | 27 => ⟨S524288x16, .f32⟩
  | 28 => ⟨S_, .i32⟩
  | 29 => ⟨S524288, .i32⟩
  | 30 => ⟨S524288, .i1⟩
  | 31 => ⟨S_, .i32⟩
  | 32 => ⟨S524288, .i32⟩
  | 33 => ⟨S524288, .i32⟩
  | 34 => ⟨S524288, .i32⟩
  | 35 => ⟨S_, .i32⟩
  | 36 => ⟨S524288, .i32⟩
  | 37 => ⟨S524288, .i1⟩
  | 38 => ⟨S_, .i32⟩
  | 39 => ⟨S524288, .i32⟩
  | 40 => ⟨S524288, .i32⟩
  | 41 => ⟨S524288, .i32⟩
  | 42 => ⟨S524288x1, .i32⟩
  | 43 => ⟨S524288x1, .i32⟩
  | 44 => ⟨S524288x2, .i32⟩
  | 45 => ⟨S524288x16, .f32⟩
  | 46 => ⟨S_, .i32⟩
  | 47 => ⟨S524288, .i32⟩
  | 48 => ⟨S524288, .i1⟩
  | 49 => ⟨S_, .i32⟩
  | 50 => ⟨S524288, .i32⟩
  | 51 => ⟨S524288, .i32⟩
  | 52 => ⟨S524288, .i32⟩
  | 53 => ⟨S_, .i32⟩
  | 54 => ⟨S524288, .i32⟩
  | 55 => ⟨S524288, .i1⟩
  | 56 => ⟨S_, .i32⟩
  | 57 => ⟨S524288, .i32⟩
  | 58 => ⟨S524288, .i32⟩
  | 59 => ⟨S524288, .i32⟩
  | 60 => ⟨S524288x1, .i32⟩
  | 61 => ⟨S524288x1, .i32⟩
  | 62 => ⟨S524288x2, .i32⟩
  | 63 => ⟨S524288x16, .f32⟩
  | 64 => ⟨S_, .f32⟩
  | 65 => ⟨S524288x1, .f32⟩
  | 66 => ⟨S524288x1, .f32⟩
  | 67 => ⟨S524288x16, .f32⟩
  | 68 => ⟨S524288x16, .f32⟩
  | 69 => ⟨S524288x16, .f32⟩
  | 70 => ⟨S524288x16, .f32⟩
  | 71 => ⟨S524288x16, .f32⟩
  | 72 => ⟨S_, .f32⟩
  | 73 => ⟨S524288x1, .f32⟩
  | 74 => ⟨S524288x1, .f32⟩
  | 75 => ⟨S524288x16, .f32⟩
  | 76 => ⟨S524288x16, .f32⟩
  | 77 => ⟨S524288x16, .f32⟩
  | 78 => ⟨S524288x16, .f32⟩
  | 79 => ⟨S524288x16, .f32⟩
  | 80 => ⟨S_, .f32⟩
  | 81 => ⟨S524288x1, .f32⟩
  | 82 => ⟨S524288x1, .f32⟩
  | 83 => ⟨S524288x16, .f32⟩
  | 84 => ⟨S524288x16, .f32⟩
  | 85 => ⟨S524288x16, .f32⟩
  | 86 => ⟨S524288x16, .f32⟩
  | 87 => ⟨S524288x16, .f32⟩
  | 88 => ⟨S524288x1, .f32⟩
  | 89 => ⟨S524288, .f32⟩
  | 90 => ⟨S_, .f32⟩
  | 91 => ⟨S524288, .f32⟩
  | 92 => ⟨S524288, .f32⟩
  | 93 => ⟨S_, .f32⟩
  | 94 => ⟨S524288, .f32⟩
  | 95 => ⟨S524288, .f32⟩
  | 96 => ⟨S_, .f32⟩
  | 97 => ⟨S524288, .f32⟩
  | 98 => ⟨S524288, .f32⟩
  | 99 => ⟨S524288, .f32⟩
  | 100 => ⟨S_, .i32⟩
  | 101 => ⟨S_, .i32⟩
  | 102 => ⟨S_, .f32⟩
  | 103 => ⟨S524288, .f32⟩
  | 104 => ⟨S524288, .f32⟩
  | 105 => ⟨S_, .f32⟩
  | 106 => ⟨S524288, .f32⟩
  | 107 => ⟨S524288, .f32⟩
  | 108 => ⟨S524288, .i32⟩
  | 109 => ⟨S_, .i32⟩
  | 110 => ⟨S524288, .i32⟩
  | 111 => ⟨S524288, .i32⟩
  | 112 => ⟨S_, .i32⟩
  | 113 => ⟨S524288, .i32⟩
  | 114 => ⟨S524288, .i32⟩
  | 115 => ⟨S524288, .f32⟩
  | 116 => ⟨S524288, .f32⟩
  | 117 => ⟨S524288x1, .f32⟩
  | 118 => ⟨S_, .i32⟩
  | 119 => ⟨S524288, .i32⟩
  | 120 => ⟨S524288, .i1⟩
  | 121 => ⟨S_, .i32⟩
  | 122 => ⟨S524288, .i32⟩
  | 123 => ⟨S524288, .i32⟩
  | 124 => ⟨S524288, .i32⟩
  | 125 => ⟨S524288x1, .i32⟩
  | 126 => ⟨S524288x16, .f32⟩
  | 127 => ⟨S_, .f32⟩
  | _ => ⟨S4096x128x3, .f32⟩

abbrev hbmTy0_5 (i : Nat) : BufTy := match i % 128 with
  | 0 => ⟨S524288x1, .f32⟩
  | 1 => ⟨S524288x1, .f32⟩
  | 2 => ⟨S524288x16, .f32⟩
  | 3 => ⟨S524288x16, .f32⟩
  | 4 => ⟨S_, .i32⟩
  | 5 => ⟨S524288, .i32⟩
  | 6 => ⟨S524288, .i1⟩
  | 7 => ⟨S_, .i32⟩
  | 8 => ⟨S524288, .i32⟩
  | 9 => ⟨S524288, .i32⟩
  | 10 => ⟨S524288, .i32⟩
  | 11 => ⟨S524288x1, .i32⟩
  | 12 => ⟨S524288x16, .f32⟩
  | 13 => ⟨S524288x16, .f32⟩
  | 14 => ⟨S524288x16, .f32⟩
  | 15 => ⟨S524288x16, .f32⟩
  | 16 => ⟨S524288x16, .f32⟩
  | 17 => ⟨S524288x96, .f32⟩
  | 18 => ⟨S96x32, .f32⟩
  | 19 => ⟨S524288x32, .f32⟩
  | 20 => ⟨S4096x128x32, .f32⟩
  | _ => ⟨S4096x128x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096x128x3, .f32⟩

abbrev bufTy : (tb : Table) → Fin (tcTables nBuf tb) → BufTy
  | .hbm, ⟨i, _⟩ => hbmTy i
  | _, _ => ⟨S4096x128x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c : Ref sig .tc := ⟨.hbm, 41, rfl⟩
abbrev main_c_8 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_9 : Ref sig .tc := ⟨.hbm, 51, rfl⟩
abbrev main_c_10 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v27 : Ref sig .tc := ⟨.hbm, 58, rfl⟩
abbrev main_v28 : Ref sig .tc := ⟨.hbm, 59, rfl⟩
abbrev main_c_11 : Ref sig .tc := ⟨.hbm, 60, rfl⟩
abbrev main_v29 : Ref sig .tc := ⟨.hbm, 61, rfl⟩
abbrev main_v30 : Ref sig .tc := ⟨.hbm, 62, rfl⟩
abbrev main_c_12 : Ref sig .tc := ⟨.hbm, 63, rfl⟩
abbrev main_v31 : Ref sig .tc := ⟨.hbm, 64, rfl⟩
abbrev main_v32 : Ref sig .tc := ⟨.hbm, 65, rfl⟩
abbrev main_c_13 : Ref sig .tc := ⟨.hbm, 66, rfl⟩
abbrev main_v33 : Ref sig .tc := ⟨.hbm, 67, rfl⟩
abbrev main_v34 : Ref sig .tc := ⟨.hbm, 68, rfl⟩
abbrev main_c_14 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_c_15 : Ref sig .tc := ⟨.hbm, 78, rfl⟩
abbrev main_v43 : Ref sig .tc := ⟨.hbm, 79, rfl⟩
abbrev main_v44 : Ref sig .tc := ⟨.hbm, 80, rfl⟩
abbrev main_c_16 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_c_17 : Ref sig .tc := ⟨.hbm, 85, rfl⟩
abbrev main_v48 : Ref sig .tc := ⟨.hbm, 86, rfl⟩
abbrev main_v49 : Ref sig .tc := ⟨.hbm, 87, rfl⟩
abbrev main_c_18 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_c_19 : Ref sig .tc := ⟨.hbm, 96, rfl⟩
abbrev main_v57 : Ref sig .tc := ⟨.hbm, 97, rfl⟩
abbrev main_v58 : Ref sig .tc := ⟨.hbm, 98, rfl⟩
abbrev main_c_20 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_c_21 : Ref sig .tc := ⟨.hbm, 103, rfl⟩
abbrev main_v62 : Ref sig .tc := ⟨.hbm, 104, rfl⟩
abbrev main_v63 : Ref sig .tc := ⟨.hbm, 105, rfl⟩
abbrev main_c_22 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_c_23 : Ref sig .tc := ⟨.hbm, 114, rfl⟩
abbrev main_v71 : Ref sig .tc := ⟨.hbm, 115, rfl⟩
abbrev main_v72 : Ref sig .tc := ⟨.hbm, 116, rfl⟩
abbrev main_c_24 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_c_25 : Ref sig .tc := ⟨.hbm, 121, rfl⟩
abbrev main_v76 : Ref sig .tc := ⟨.hbm, 122, rfl⟩
abbrev main_v77 : Ref sig .tc := ⟨.hbm, 123, rfl⟩
abbrev main_c_26 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_c_27 : Ref sig .tc := ⟨.hbm, 132, rfl⟩
abbrev main_v85 : Ref sig .tc := ⟨.hbm, 133, rfl⟩
abbrev main_v86 : Ref sig .tc := ⟨.hbm, 134, rfl⟩
abbrev main_c_28 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_c_29 : Ref sig .tc := ⟨.hbm, 139, rfl⟩
abbrev main_v90 : Ref sig .tc := ⟨.hbm, 140, rfl⟩
abbrev main_v91 : Ref sig .tc := ⟨.hbm, 141, rfl⟩
abbrev main_c_30 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_cst_31 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_cst_32 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_33 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_34 : Ref sig .tc := ⟨.hbm, 176, rfl⟩
abbrev main_v122 : Ref sig .tc := ⟨.hbm, 177, rfl⟩
abbrev main_v123 : Ref sig .tc := ⟨.hbm, 178, rfl⟩
abbrev main_cst_35 : Ref sig .tc := ⟨.hbm, 179, rfl⟩
abbrev main_v124 : Ref sig .tc := ⟨.hbm, 180, rfl⟩
abbrev main_v125 : Ref sig .tc := ⟨.hbm, 181, rfl⟩
abbrev main_cst_36 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_c_37 : Ref sig .tc := ⟨.hbm, 186, rfl⟩
abbrev main_c_38 : Ref sig .tc := ⟨.hbm, 187, rfl⟩
abbrev main_call2_v0 : Ref sig .tc := ⟨.hbm, 188, rfl⟩
abbrev main_call2_v1 : Ref sig .tc := ⟨.hbm, 189, rfl⟩
abbrev main_call2_v2 : Ref sig .tc := ⟨.hbm, 190, rfl⟩
abbrev main_call2_v3 : Ref sig .tc := ⟨.hbm, 191, rfl⟩
abbrev main_call2_v4 : Ref sig .tc := ⟨.hbm, 192, rfl⟩
abbrev main_v129 : Ref sig .tc := ⟨.hbm, 193, rfl⟩
abbrev main_v130 : Ref sig .tc := ⟨.hbm, 194, rfl⟩
abbrev main_c_39 : Ref sig .tc := ⟨.hbm, 195, rfl⟩
abbrev main_v131 : Ref sig .tc := ⟨.hbm, 196, rfl⟩
abbrev main_v132 : Ref sig .tc := ⟨.hbm, 197, rfl⟩
abbrev main_c_40 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_c_41 : Ref sig .tc := ⟨.hbm, 204, rfl⟩
abbrev main_v138 : Ref sig .tc := ⟨.hbm, 205, rfl⟩
abbrev main_v139 : Ref sig .tc := ⟨.hbm, 206, rfl⟩
abbrev main_c_42 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_cst_43 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_c_44 : Ref sig .tc := ⟨.hbm, 218, rfl⟩
abbrev main_v149 : Ref sig .tc := ⟨.hbm, 219, rfl⟩
abbrev main_v150 : Ref sig .tc := ⟨.hbm, 220, rfl⟩
abbrev main_c_45 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_cst_46 : Ref sig .tc := ⟨.hbm, 235, rfl⟩
abbrev main_v164 : Ref sig .tc := ⟨.hbm, 236, rfl⟩
abbrev main_v165 : Ref sig .tc := ⟨.hbm, 237, rfl⟩
abbrev main_cst_47 : Ref sig .tc := ⟨.hbm, 238, rfl⟩
abbrev main_v166 : Ref sig .tc := ⟨.hbm, 239, rfl⟩
abbrev main_v167 : Ref sig .tc := ⟨.hbm, 240, rfl⟩
abbrev main_cst_48 : Ref sig .tc := ⟨.hbm, 241, rfl⟩
abbrev main_v168 : Ref sig .tc := ⟨.hbm, 242, rfl⟩
abbrev main_v169 : Ref sig .tc := ⟨.hbm, 243, rfl⟩
abbrev main_cst_49 : Ref sig .tc := ⟨.hbm, 244, rfl⟩
abbrev main_v170 : Ref sig .tc := ⟨.hbm, 245, rfl⟩
abbrev main_v171 : Ref sig .tc := ⟨.hbm, 246, rfl⟩
abbrev main_cst_50 : Ref sig .tc := ⟨.hbm, 247, rfl⟩
abbrev main_v172 : Ref sig .tc := ⟨.hbm, 248, rfl⟩
abbrev main_v173 : Ref sig .tc := ⟨.hbm, 249, rfl⟩
abbrev main_cst_51 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_c_52 : Ref sig .tc := ⟨.hbm, 254, rfl⟩
abbrev main_c_53 : Ref sig .tc := ⟨.hbm, 255, rfl⟩
abbrev main_call3_v0 : Ref sig .tc := ⟨.hbm, 256, rfl⟩
abbrev main_call3_v1 : Ref sig .tc := ⟨.hbm, 257, rfl⟩
abbrev main_call3_v2 : Ref sig .tc := ⟨.hbm, 258, rfl⟩
abbrev main_call3_v3 : Ref sig .tc := ⟨.hbm, 259, rfl⟩
abbrev main_call3_v4 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_c_54 : Ref sig .tc := ⟨.hbm, 264, rfl⟩
abbrev main_c_55 : Ref sig .tc := ⟨.hbm, 265, rfl⟩
abbrev main_call4_v0 : Ref sig .tc := ⟨.hbm, 266, rfl⟩
abbrev main_call4_v1 : Ref sig .tc := ⟨.hbm, 267, rfl⟩
abbrev main_call4_v2 : Ref sig .tc := ⟨.hbm, 268, rfl⟩
abbrev main_call4_v3 : Ref sig .tc := ⟨.hbm, 269, rfl⟩
abbrev main_call4_v4 : Ref sig .tc := ⟨.hbm, 270, rfl⟩
abbrev main_v180 : Ref sig .tc := ⟨.hbm, 271, rfl⟩
abbrev main_v181 : Ref sig .tc := ⟨.hbm, 272, rfl⟩
abbrev main_c_56 : Ref sig .tc := ⟨.hbm, 273, rfl⟩
abbrev main_v182 : Ref sig .tc := ⟨.hbm, 274, rfl⟩
abbrev main_v183 : Ref sig .tc := ⟨.hbm, 275, rfl⟩
abbrev main_c_57 : Ref sig .tc := ⟨.hbm, 276, rfl⟩
abbrev main_v184 : Ref sig .tc := ⟨.hbm, 277, rfl⟩
abbrev main_v185 : Ref sig .tc := ⟨.hbm, 278, rfl⟩
abbrev main_c_58 : Ref sig .tc := ⟨.hbm, 279, rfl⟩
abbrev main_v186 : Ref sig .tc := ⟨.hbm, 280, rfl⟩
abbrev main_v187 : Ref sig .tc := ⟨.hbm, 281, rfl⟩
abbrev main_c_59 : Ref sig .tc := ⟨.hbm, 282, rfl⟩
abbrev main_v188 : Ref sig .tc := ⟨.hbm, 283, rfl⟩
abbrev main_v189 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_c_60 : Ref sig .tc := ⟨.hbm, 291, rfl⟩
abbrev main_v196 : Ref sig .tc := ⟨.hbm, 292, rfl⟩
abbrev main_v197 : Ref sig .tc := ⟨.hbm, 293, rfl⟩
abbrev main_c_61 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩
abbrev main_c_62 : Ref sig .tc := ⟨.hbm, 298, rfl⟩
abbrev main_v201 : Ref sig .tc := ⟨.hbm, 299, rfl⟩
abbrev main_v202 : Ref sig .tc := ⟨.hbm, 300, rfl⟩
abbrev main_c_63 : Ref sig .tc := ⟨.hbm, 301, rfl⟩
abbrev main_v203 : Ref sig .tc := ⟨.hbm, 302, rfl⟩
abbrev main_v204 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_v209 : Ref sig .tc := ⟨.hbm, 308, rfl⟩
abbrev main_c_64 : Ref sig .tc := ⟨.hbm, 309, rfl⟩
abbrev main_v210 : Ref sig .tc := ⟨.hbm, 310, rfl⟩
abbrev main_v211 : Ref sig .tc := ⟨.hbm, 311, rfl⟩
abbrev main_c_65 : Ref sig .tc := ⟨.hbm, 312, rfl⟩
abbrev main_v212 : Ref sig .tc := ⟨.hbm, 313, rfl⟩
abbrev main_v213 : Ref sig .tc := ⟨.hbm, 314, rfl⟩
abbrev main_v214 : Ref sig .tc := ⟨.hbm, 315, rfl⟩
abbrev main_c_66 : Ref sig .tc := ⟨.hbm, 316, rfl⟩
abbrev main_v215 : Ref sig .tc := ⟨.hbm, 317, rfl⟩
abbrev main_v216 : Ref sig .tc := ⟨.hbm, 318, rfl⟩
abbrev main_c_67 : Ref sig .tc := ⟨.hbm, 319, rfl⟩
abbrev main_v217 : Ref sig .tc := ⟨.hbm, 320, rfl⟩
abbrev main_v218 : Ref sig .tc := ⟨.hbm, 321, rfl⟩
abbrev main_v219 : Ref sig .tc := ⟨.hbm, 322, rfl⟩
abbrev main_v220 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_c_68 : Ref sig .tc := ⟨.hbm, 327, rfl⟩
abbrev main_v224 : Ref sig .tc := ⟨.hbm, 328, rfl⟩
abbrev main_v225 : Ref sig .tc := ⟨.hbm, 329, rfl⟩
abbrev main_c_69 : Ref sig .tc := ⟨.hbm, 330, rfl⟩
abbrev main_v226 : Ref sig .tc := ⟨.hbm, 331, rfl⟩
abbrev main_v227 : Ref sig .tc := ⟨.hbm, 332, rfl⟩
abbrev main_v228 : Ref sig .tc := ⟨.hbm, 333, rfl⟩
abbrev main_c_70 : Ref sig .tc := ⟨.hbm, 334, rfl⟩
abbrev main_v229 : Ref sig .tc := ⟨.hbm, 335, rfl⟩
abbrev main_v230 : Ref sig .tc := ⟨.hbm, 336, rfl⟩
abbrev main_c_71 : Ref sig .tc := ⟨.hbm, 337, rfl⟩
abbrev main_v231 : Ref sig .tc := ⟨.hbm, 338, rfl⟩
abbrev main_v232 : Ref sig .tc := ⟨.hbm, 339, rfl⟩
abbrev main_v233 : Ref sig .tc := ⟨.hbm, 340, rfl⟩
abbrev main_v234 : Ref sig .tc := ⟨.hbm, 341, rfl⟩
abbrev main_v235 : Ref sig .tc := ⟨.hbm, 342, rfl⟩
abbrev main_v236 : Ref sig .tc := ⟨.hbm, 343, rfl⟩
abbrev main_v237 : Ref sig .tc := ⟨.hbm, 344, rfl⟩
abbrev main_c_72 : Ref sig .tc := ⟨.hbm, 345, rfl⟩
abbrev main_v238 : Ref sig .tc := ⟨.hbm, 346, rfl⟩
abbrev main_v239 : Ref sig .tc := ⟨.hbm, 347, rfl⟩
abbrev main_c_73 : Ref sig .tc := ⟨.hbm, 348, rfl⟩
abbrev main_v240 : Ref sig .tc := ⟨.hbm, 349, rfl⟩
abbrev main_v241 : Ref sig .tc := ⟨.hbm, 350, rfl⟩
abbrev main_v242 : Ref sig .tc := ⟨.hbm, 351, rfl⟩
abbrev main_c_74 : Ref sig .tc := ⟨.hbm, 352, rfl⟩
abbrev main_v243 : Ref sig .tc := ⟨.hbm, 353, rfl⟩
abbrev main_v244 : Ref sig .tc := ⟨.hbm, 354, rfl⟩
abbrev main_c_75 : Ref sig .tc := ⟨.hbm, 355, rfl⟩
abbrev main_v245 : Ref sig .tc := ⟨.hbm, 356, rfl⟩
abbrev main_v246 : Ref sig .tc := ⟨.hbm, 357, rfl⟩
abbrev main_v247 : Ref sig .tc := ⟨.hbm, 358, rfl⟩
abbrev main_v248 : Ref sig .tc := ⟨.hbm, 359, rfl⟩
abbrev main_v249 : Ref sig .tc := ⟨.hbm, 360, rfl⟩
abbrev main_v250 : Ref sig .tc := ⟨.hbm, 361, rfl⟩
abbrev main_v251 : Ref sig .tc := ⟨.hbm, 362, rfl⟩
abbrev main_cst_76 : Ref sig .tc := ⟨.hbm, 363, rfl⟩
abbrev main_v252 : Ref sig .tc := ⟨.hbm, 364, rfl⟩
abbrev main_v253 : Ref sig .tc := ⟨.hbm, 365, rfl⟩
abbrev main_v254 : Ref sig .tc := ⟨.hbm, 366, rfl⟩
abbrev main_v255 : Ref sig .tc := ⟨.hbm, 367, rfl⟩
abbrev main_v256 : Ref sig .tc := ⟨.hbm, 368, rfl⟩
abbrev main_v257 : Ref sig .tc := ⟨.hbm, 369, rfl⟩
abbrev main_v258 : Ref sig .tc := ⟨.hbm, 370, rfl⟩
abbrev main_cst_77 : Ref sig .tc := ⟨.hbm, 371, rfl⟩
abbrev main_v259 : Ref sig .tc := ⟨.hbm, 372, rfl⟩
abbrev main_v260 : Ref sig .tc := ⟨.hbm, 373, rfl⟩
abbrev main_v261 : Ref sig .tc := ⟨.hbm, 374, rfl⟩
abbrev main_v262 : Ref sig .tc := ⟨.hbm, 375, rfl⟩
abbrev main_v263 : Ref sig .tc := ⟨.hbm, 376, rfl⟩
abbrev main_v264 : Ref sig .tc := ⟨.hbm, 377, rfl⟩
abbrev main_v265 : Ref sig .tc := ⟨.hbm, 378, rfl⟩
abbrev main_cst_78 : Ref sig .tc := ⟨.hbm, 379, rfl⟩
abbrev main_v266 : Ref sig .tc := ⟨.hbm, 380, rfl⟩
abbrev main_v267 : Ref sig .tc := ⟨.hbm, 381, rfl⟩
abbrev main_v268 : Ref sig .tc := ⟨.hbm, 382, rfl⟩
abbrev main_v269 : Ref sig .tc := ⟨.hbm, 383, rfl⟩
abbrev main_v270 : Ref sig .tc := ⟨.hbm, 384, rfl⟩
abbrev main_v271 : Ref sig .tc := ⟨.hbm, 385, rfl⟩
abbrev main_v272 : Ref sig .tc := ⟨.hbm, 386, rfl⟩
abbrev main_v273 : Ref sig .tc := ⟨.hbm, 387, rfl⟩
abbrev main_v274 : Ref sig .tc := ⟨.hbm, 388, rfl⟩
abbrev main_cst_79 : Ref sig .tc := ⟨.hbm, 389, rfl⟩
abbrev main_v275 : Ref sig .tc := ⟨.hbm, 390, rfl⟩
abbrev main_v276 : Ref sig .tc := ⟨.hbm, 391, rfl⟩
abbrev main_cst_80 : Ref sig .tc := ⟨.hbm, 392, rfl⟩
abbrev main_v277 : Ref sig .tc := ⟨.hbm, 393, rfl⟩
abbrev main_v278 : Ref sig .tc := ⟨.hbm, 394, rfl⟩
abbrev main_cst_81 : Ref sig .tc := ⟨.hbm, 395, rfl⟩
abbrev main_v279 : Ref sig .tc := ⟨.hbm, 396, rfl⟩
abbrev main_v280 : Ref sig .tc := ⟨.hbm, 397, rfl⟩
abbrev main_v281 : Ref sig .tc := ⟨.hbm, 398, rfl⟩
abbrev main_c_82 : Ref sig .tc := ⟨.hbm, 399, rfl⟩
abbrev main_c_83 : Ref sig .tc := ⟨.hbm, 400, rfl⟩
abbrev main_call5_v0 : Ref sig .tc := ⟨.hbm, 401, rfl⟩
abbrev main_call5_v1 : Ref sig .tc := ⟨.hbm, 402, rfl⟩
abbrev main_call5_v2 : Ref sig .tc := ⟨.hbm, 403, rfl⟩
abbrev main_call5_v3 : Ref sig .tc := ⟨.hbm, 404, rfl⟩
abbrev main_call5_v4 : Ref sig .tc := ⟨.hbm, 405, rfl⟩
abbrev main_v282 : Ref sig .tc := ⟨.hbm, 406, rfl⟩
abbrev main_v283 : Ref sig .tc := ⟨.hbm, 407, rfl⟩
abbrev main_c_84 : Ref sig .tc := ⟨.hbm, 408, rfl⟩
abbrev main_v284 : Ref sig .tc := ⟨.hbm, 409, rfl⟩
abbrev main_v285 : Ref sig .tc := ⟨.hbm, 410, rfl⟩
abbrev main_c_85 : Ref sig .tc := ⟨.hbm, 411, rfl⟩
abbrev main_v286 : Ref sig .tc := ⟨.hbm, 412, rfl⟩
abbrev main_v287 : Ref sig .tc := ⟨.hbm, 413, rfl⟩
abbrev main_v288 : Ref sig .tc := ⟨.hbm, 414, rfl⟩
abbrev main_v289 : Ref sig .tc := ⟨.hbm, 415, rfl⟩
abbrev main_v290 : Ref sig .tc := ⟨.hbm, 416, rfl⟩
abbrev main_c_86 : Ref sig .tc := ⟨.hbm, 417, rfl⟩
abbrev main_v291 : Ref sig .tc := ⟨.hbm, 418, rfl⟩
abbrev main_v292 : Ref sig .tc := ⟨.hbm, 419, rfl⟩
abbrev main_c_87 : Ref sig .tc := ⟨.hbm, 420, rfl⟩
abbrev main_v293 : Ref sig .tc := ⟨.hbm, 421, rfl⟩
abbrev main_v294 : Ref sig .tc := ⟨.hbm, 422, rfl⟩
abbrev main_v295 : Ref sig .tc := ⟨.hbm, 423, rfl⟩
abbrev main_v296 : Ref sig .tc := ⟨.hbm, 424, rfl⟩
abbrev main_v297 : Ref sig .tc := ⟨.hbm, 425, rfl⟩
abbrev main_cst_88 : Ref sig .tc := ⟨.hbm, 426, rfl⟩
abbrev main_v298 : Ref sig .tc := ⟨.hbm, 427, rfl⟩
abbrev main_v299 : Ref sig .tc := ⟨.hbm, 428, rfl⟩
abbrev main_v300 : Ref sig .tc := ⟨.hbm, 429, rfl⟩
abbrev main_v301 : Ref sig .tc := ⟨.hbm, 430, rfl⟩
abbrev main_c_89 : Ref sig .tc := ⟨.hbm, 431, rfl⟩
abbrev main_v302 : Ref sig .tc := ⟨.hbm, 432, rfl⟩
abbrev main_v303 : Ref sig .tc := ⟨.hbm, 433, rfl⟩
abbrev main_c_90 : Ref sig .tc := ⟨.hbm, 434, rfl⟩
abbrev main_v304 : Ref sig .tc := ⟨.hbm, 435, rfl⟩
abbrev main_v305 : Ref sig .tc := ⟨.hbm, 436, rfl⟩
abbrev main_v306 : Ref sig .tc := ⟨.hbm, 437, rfl⟩
abbrev main_v307 : Ref sig .tc := ⟨.hbm, 438, rfl⟩
abbrev main_v308 : Ref sig .tc := ⟨.hbm, 439, rfl⟩
abbrev main_v309 : Ref sig .tc := ⟨.hbm, 440, rfl⟩
abbrev main_v310 : Ref sig .tc := ⟨.hbm, 441, rfl⟩
abbrev main_v311 : Ref sig .tc := ⟨.hbm, 442, rfl⟩
abbrev main_v312 : Ref sig .tc := ⟨.hbm, 443, rfl⟩
abbrev main_v313 : Ref sig .tc := ⟨.hbm, 444, rfl⟩
abbrev main_v314 : Ref sig .tc := ⟨.hbm, 445, rfl⟩
abbrev main_v315 : Ref sig .tc := ⟨.hbm, 446, rfl⟩
abbrev main_v316 : Ref sig .tc := ⟨.hbm, 447, rfl⟩
abbrev main_cst_91 : Ref sig .tc := ⟨.hbm, 448, rfl⟩
abbrev main_v317 : Ref sig .tc := ⟨.hbm, 449, rfl⟩
abbrev main_v318 : Ref sig .tc := ⟨.hbm, 450, rfl⟩
abbrev main_cst_92 : Ref sig .tc := ⟨.hbm, 451, rfl⟩
abbrev main_v319 : Ref sig .tc := ⟨.hbm, 452, rfl⟩
abbrev main_v320 : Ref sig .tc := ⟨.hbm, 453, rfl⟩
abbrev main_cst_93 : Ref sig .tc := ⟨.hbm, 454, rfl⟩
abbrev main_v321 : Ref sig .tc := ⟨.hbm, 455, rfl⟩
abbrev main_v322 : Ref sig .tc := ⟨.hbm, 456, rfl⟩
abbrev main_cst_94 : Ref sig .tc := ⟨.hbm, 457, rfl⟩
abbrev main_v323 : Ref sig .tc := ⟨.hbm, 458, rfl⟩
abbrev main_v324 : Ref sig .tc := ⟨.hbm, 459, rfl⟩
abbrev main_cst_95 : Ref sig .tc := ⟨.hbm, 460, rfl⟩
abbrev main_v325 : Ref sig .tc := ⟨.hbm, 461, rfl⟩
abbrev main_v326 : Ref sig .tc := ⟨.hbm, 462, rfl⟩
abbrev main_cst_96 : Ref sig .tc := ⟨.hbm, 463, rfl⟩
abbrev main_v327 : Ref sig .tc := ⟨.hbm, 464, rfl⟩
abbrev main_v328 : Ref sig .tc := ⟨.hbm, 465, rfl⟩
abbrev main_v329 : Ref sig .tc := ⟨.hbm, 466, rfl⟩
abbrev main_c_97 : Ref sig .tc := ⟨.hbm, 467, rfl⟩
abbrev main_c_98 : Ref sig .tc := ⟨.hbm, 468, rfl⟩
abbrev main_call6_v0 : Ref sig .tc := ⟨.hbm, 469, rfl⟩
abbrev main_call6_v1 : Ref sig .tc := ⟨.hbm, 470, rfl⟩
abbrev main_call6_v2 : Ref sig .tc := ⟨.hbm, 471, rfl⟩
abbrev main_call6_v3 : Ref sig .tc := ⟨.hbm, 472, rfl⟩
abbrev main_call6_v4 : Ref sig .tc := ⟨.hbm, 473, rfl⟩
abbrev main_v330 : Ref sig .tc := ⟨.hbm, 474, rfl⟩
abbrev main_v331 : Ref sig .tc := ⟨.hbm, 475, rfl⟩
abbrev main_v332 : Ref sig .tc := ⟨.hbm, 476, rfl⟩
abbrev main_c_99 : Ref sig .tc := ⟨.hbm, 477, rfl⟩
abbrev main_c_100 : Ref sig .tc := ⟨.hbm, 478, rfl⟩
abbrev main_call7_v0 : Ref sig .tc := ⟨.hbm, 479, rfl⟩
abbrev main_call7_v1 : Ref sig .tc := ⟨.hbm, 480, rfl⟩
abbrev main_call7_v2 : Ref sig .tc := ⟨.hbm, 481, rfl⟩
abbrev main_call7_v3 : Ref sig .tc := ⟨.hbm, 482, rfl⟩
abbrev main_call7_v4 : Ref sig .tc := ⟨.hbm, 483, rfl⟩
abbrev main_v333 : Ref sig .tc := ⟨.hbm, 484, rfl⟩
abbrev main_v334 : Ref sig .tc := ⟨.hbm, 485, rfl⟩
abbrev main_c_101 : Ref sig .tc := ⟨.hbm, 486, rfl⟩
abbrev main_v335 : Ref sig .tc := ⟨.hbm, 487, rfl⟩
abbrev main_v336 : Ref sig .tc := ⟨.hbm, 488, rfl⟩
abbrev main_c_102 : Ref sig .tc := ⟨.hbm, 489, rfl⟩
abbrev main_v337 : Ref sig .tc := ⟨.hbm, 490, rfl⟩
abbrev main_v338 : Ref sig .tc := ⟨.hbm, 491, rfl⟩
abbrev main_c_103 : Ref sig .tc := ⟨.hbm, 492, rfl⟩
abbrev main_v339 : Ref sig .tc := ⟨.hbm, 493, rfl⟩
abbrev main_v340 : Ref sig .tc := ⟨.hbm, 494, rfl⟩
abbrev main_c_104 : Ref sig .tc := ⟨.hbm, 495, rfl⟩
abbrev main_v341 : Ref sig .tc := ⟨.hbm, 496, rfl⟩
abbrev main_v342 : Ref sig .tc := ⟨.hbm, 497, rfl⟩
abbrev main_v343 : Ref sig .tc := ⟨.hbm, 498, rfl⟩
abbrev main_v344 : Ref sig .tc := ⟨.hbm, 499, rfl⟩
abbrev main_v345 : Ref sig .tc := ⟨.hbm, 500, rfl⟩
abbrev main_v346 : Ref sig .tc := ⟨.hbm, 501, rfl⟩
abbrev main_v347 : Ref sig .tc := ⟨.hbm, 502, rfl⟩
abbrev main_v348 : Ref sig .tc := ⟨.hbm, 503, rfl⟩
abbrev main_c_105 : Ref sig .tc := ⟨.hbm, 504, rfl⟩
abbrev main_v349 : Ref sig .tc := ⟨.hbm, 505, rfl⟩
abbrev main_v350 : Ref sig .tc := ⟨.hbm, 506, rfl⟩
abbrev main_c_106 : Ref sig .tc := ⟨.hbm, 507, rfl⟩
abbrev main_v351 : Ref sig .tc := ⟨.hbm, 508, rfl⟩
abbrev main_v352 : Ref sig .tc := ⟨.hbm, 509, rfl⟩
abbrev main_v353 : Ref sig .tc := ⟨.hbm, 510, rfl⟩
abbrev main_c_107 : Ref sig .tc := ⟨.hbm, 511, rfl⟩
abbrev main_v354 : Ref sig .tc := ⟨.hbm, 512, rfl⟩
abbrev main_v355 : Ref sig .tc := ⟨.hbm, 513, rfl⟩
abbrev main_c_108 : Ref sig .tc := ⟨.hbm, 514, rfl⟩
abbrev main_v356 : Ref sig .tc := ⟨.hbm, 515, rfl⟩
abbrev main_v357 : Ref sig .tc := ⟨.hbm, 516, rfl⟩
abbrev main_v358 : Ref sig .tc := ⟨.hbm, 517, rfl⟩
abbrev main_v359 : Ref sig .tc := ⟨.hbm, 518, rfl⟩
abbrev main_v360 : Ref sig .tc := ⟨.hbm, 519, rfl⟩
abbrev main_v361 : Ref sig .tc := ⟨.hbm, 520, rfl⟩
abbrev main_v362 : Ref sig .tc := ⟨.hbm, 521, rfl⟩
abbrev main_c_109 : Ref sig .tc := ⟨.hbm, 522, rfl⟩
abbrev main_v363 : Ref sig .tc := ⟨.hbm, 523, rfl⟩
abbrev main_v364 : Ref sig .tc := ⟨.hbm, 524, rfl⟩
abbrev main_c_110 : Ref sig .tc := ⟨.hbm, 525, rfl⟩
abbrev main_v365 : Ref sig .tc := ⟨.hbm, 526, rfl⟩
abbrev main_v366 : Ref sig .tc := ⟨.hbm, 527, rfl⟩
abbrev main_v367 : Ref sig .tc := ⟨.hbm, 528, rfl⟩
abbrev main_c_111 : Ref sig .tc := ⟨.hbm, 529, rfl⟩
abbrev main_v368 : Ref sig .tc := ⟨.hbm, 530, rfl⟩
abbrev main_v369 : Ref sig .tc := ⟨.hbm, 531, rfl⟩
abbrev main_c_112 : Ref sig .tc := ⟨.hbm, 532, rfl⟩
abbrev main_v370 : Ref sig .tc := ⟨.hbm, 533, rfl⟩
abbrev main_v371 : Ref sig .tc := ⟨.hbm, 534, rfl⟩
abbrev main_v372 : Ref sig .tc := ⟨.hbm, 535, rfl⟩
abbrev main_v373 : Ref sig .tc := ⟨.hbm, 536, rfl⟩
abbrev main_v374 : Ref sig .tc := ⟨.hbm, 537, rfl⟩
abbrev main_v375 : Ref sig .tc := ⟨.hbm, 538, rfl⟩
abbrev main_v376 : Ref sig .tc := ⟨.hbm, 539, rfl⟩
abbrev main_c_113 : Ref sig .tc := ⟨.hbm, 540, rfl⟩
abbrev main_v377 : Ref sig .tc := ⟨.hbm, 541, rfl⟩
abbrev main_v378 : Ref sig .tc := ⟨.hbm, 542, rfl⟩
abbrev main_c_114 : Ref sig .tc := ⟨.hbm, 543, rfl⟩
abbrev main_v379 : Ref sig .tc := ⟨.hbm, 544, rfl⟩
abbrev main_v380 : Ref sig .tc := ⟨.hbm, 545, rfl⟩
abbrev main_v381 : Ref sig .tc := ⟨.hbm, 546, rfl⟩
abbrev main_c_115 : Ref sig .tc := ⟨.hbm, 547, rfl⟩
abbrev main_v382 : Ref sig .tc := ⟨.hbm, 548, rfl⟩
abbrev main_v383 : Ref sig .tc := ⟨.hbm, 549, rfl⟩
abbrev main_c_116 : Ref sig .tc := ⟨.hbm, 550, rfl⟩
abbrev main_v384 : Ref sig .tc := ⟨.hbm, 551, rfl⟩
abbrev main_v385 : Ref sig .tc := ⟨.hbm, 552, rfl⟩
abbrev main_v386 : Ref sig .tc := ⟨.hbm, 553, rfl⟩
abbrev main_v387 : Ref sig .tc := ⟨.hbm, 554, rfl⟩
abbrev main_v388 : Ref sig .tc := ⟨.hbm, 555, rfl⟩
abbrev main_v389 : Ref sig .tc := ⟨.hbm, 556, rfl⟩
abbrev main_v390 : Ref sig .tc := ⟨.hbm, 557, rfl⟩
abbrev main_c_117 : Ref sig .tc := ⟨.hbm, 558, rfl⟩
abbrev main_v391 : Ref sig .tc := ⟨.hbm, 559, rfl⟩
abbrev main_v392 : Ref sig .tc := ⟨.hbm, 560, rfl⟩
abbrev main_c_118 : Ref sig .tc := ⟨.hbm, 561, rfl⟩
abbrev main_v393 : Ref sig .tc := ⟨.hbm, 562, rfl⟩
abbrev main_v394 : Ref sig .tc := ⟨.hbm, 563, rfl⟩
abbrev main_v395 : Ref sig .tc := ⟨.hbm, 564, rfl⟩
abbrev main_c_119 : Ref sig .tc := ⟨.hbm, 565, rfl⟩
abbrev main_v396 : Ref sig .tc := ⟨.hbm, 566, rfl⟩
abbrev main_v397 : Ref sig .tc := ⟨.hbm, 567, rfl⟩
abbrev main_c_120 : Ref sig .tc := ⟨.hbm, 568, rfl⟩
abbrev main_v398 : Ref sig .tc := ⟨.hbm, 569, rfl⟩
abbrev main_v399 : Ref sig .tc := ⟨.hbm, 570, rfl⟩
abbrev main_v400 : Ref sig .tc := ⟨.hbm, 571, rfl⟩
abbrev main_v401 : Ref sig .tc := ⟨.hbm, 572, rfl⟩
abbrev main_v402 : Ref sig .tc := ⟨.hbm, 573, rfl⟩
abbrev main_v403 : Ref sig .tc := ⟨.hbm, 574, rfl⟩
abbrev main_v404 : Ref sig .tc := ⟨.hbm, 575, rfl⟩
abbrev main_cst_121 : Ref sig .tc := ⟨.hbm, 576, rfl⟩
abbrev main_v405 : Ref sig .tc := ⟨.hbm, 577, rfl⟩
abbrev main_v406 : Ref sig .tc := ⟨.hbm, 578, rfl⟩
abbrev main_v407 : Ref sig .tc := ⟨.hbm, 579, rfl⟩
abbrev main_v408 : Ref sig .tc := ⟨.hbm, 580, rfl⟩
abbrev main_v409 : Ref sig .tc := ⟨.hbm, 581, rfl⟩
abbrev main_v410 : Ref sig .tc := ⟨.hbm, 582, rfl⟩
abbrev main_v411 : Ref sig .tc := ⟨.hbm, 583, rfl⟩
abbrev main_cst_122 : Ref sig .tc := ⟨.hbm, 584, rfl⟩
abbrev main_v412 : Ref sig .tc := ⟨.hbm, 585, rfl⟩
abbrev main_v413 : Ref sig .tc := ⟨.hbm, 586, rfl⟩
abbrev main_v414 : Ref sig .tc := ⟨.hbm, 587, rfl⟩
abbrev main_v415 : Ref sig .tc := ⟨.hbm, 588, rfl⟩
abbrev main_v416 : Ref sig .tc := ⟨.hbm, 589, rfl⟩
abbrev main_v417 : Ref sig .tc := ⟨.hbm, 590, rfl⟩
abbrev main_v418 : Ref sig .tc := ⟨.hbm, 591, rfl⟩
abbrev main_cst_123 : Ref sig .tc := ⟨.hbm, 592, rfl⟩
abbrev main_v419 : Ref sig .tc := ⟨.hbm, 593, rfl⟩
abbrev main_v420 : Ref sig .tc := ⟨.hbm, 594, rfl⟩
abbrev main_v421 : Ref sig .tc := ⟨.hbm, 595, rfl⟩
abbrev main_v422 : Ref sig .tc := ⟨.hbm, 596, rfl⟩
abbrev main_v423 : Ref sig .tc := ⟨.hbm, 597, rfl⟩
abbrev main_v424 : Ref sig .tc := ⟨.hbm, 598, rfl⟩
abbrev main_v425 : Ref sig .tc := ⟨.hbm, 599, rfl⟩
abbrev main_v426 : Ref sig .tc := ⟨.hbm, 600, rfl⟩
abbrev main_v427 : Ref sig .tc := ⟨.hbm, 601, rfl⟩
abbrev main_cst_124 : Ref sig .tc := ⟨.hbm, 602, rfl⟩
abbrev main_v428 : Ref sig .tc := ⟨.hbm, 603, rfl⟩
abbrev main_v429 : Ref sig .tc := ⟨.hbm, 604, rfl⟩
abbrev main_cst_125 : Ref sig .tc := ⟨.hbm, 605, rfl⟩
abbrev main_v430 : Ref sig .tc := ⟨.hbm, 606, rfl⟩
abbrev main_v431 : Ref sig .tc := ⟨.hbm, 607, rfl⟩
abbrev main_cst_126 : Ref sig .tc := ⟨.hbm, 608, rfl⟩
abbrev main_v432 : Ref sig .tc := ⟨.hbm, 609, rfl⟩
abbrev main_v433 : Ref sig .tc := ⟨.hbm, 610, rfl⟩
abbrev main_v434 : Ref sig .tc := ⟨.hbm, 611, rfl⟩
abbrev main_c_127 : Ref sig .tc := ⟨.hbm, 612, rfl⟩
abbrev main_c_128 : Ref sig .tc := ⟨.hbm, 613, rfl⟩
abbrev main_call8_v0 : Ref sig .tc := ⟨.hbm, 614, rfl⟩
abbrev main_call8_v1 : Ref sig .tc := ⟨.hbm, 615, rfl⟩
abbrev main_call8_v2 : Ref sig .tc := ⟨.hbm, 616, rfl⟩
abbrev main_call8_v3 : Ref sig .tc := ⟨.hbm, 617, rfl⟩
abbrev main_call8_v4 : Ref sig .tc := ⟨.hbm, 618, rfl⟩
abbrev main_v435 : Ref sig .tc := ⟨.hbm, 619, rfl⟩
abbrev main_v436 : Ref sig .tc := ⟨.hbm, 620, rfl⟩
abbrev main_c_129 : Ref sig .tc := ⟨.hbm, 621, rfl⟩
abbrev main_v437 : Ref sig .tc := ⟨.hbm, 622, rfl⟩
abbrev main_v438 : Ref sig .tc := ⟨.hbm, 623, rfl⟩
abbrev main_c_130 : Ref sig .tc := ⟨.hbm, 624, rfl⟩
abbrev main_v439 : Ref sig .tc := ⟨.hbm, 625, rfl⟩
abbrev main_v440 : Ref sig .tc := ⟨.hbm, 626, rfl⟩
abbrev main_v441 : Ref sig .tc := ⟨.hbm, 627, rfl⟩
abbrev main_v442 : Ref sig .tc := ⟨.hbm, 628, rfl⟩
abbrev main_v443 : Ref sig .tc := ⟨.hbm, 629, rfl⟩
abbrev main_c_131 : Ref sig .tc := ⟨.hbm, 630, rfl⟩
abbrev main_v444 : Ref sig .tc := ⟨.hbm, 631, rfl⟩
abbrev main_v445 : Ref sig .tc := ⟨.hbm, 632, rfl⟩
abbrev main_c_132 : Ref sig .tc := ⟨.hbm, 633, rfl⟩
abbrev main_v446 : Ref sig .tc := ⟨.hbm, 634, rfl⟩
abbrev main_v447 : Ref sig .tc := ⟨.hbm, 635, rfl⟩
abbrev main_v448 : Ref sig .tc := ⟨.hbm, 636, rfl⟩
abbrev main_v449 : Ref sig .tc := ⟨.hbm, 637, rfl⟩
abbrev main_v450 : Ref sig .tc := ⟨.hbm, 638, rfl⟩
abbrev main_cst_133 : Ref sig .tc := ⟨.hbm, 639, rfl⟩
abbrev main_v451 : Ref sig .tc := ⟨.hbm, 640, rfl⟩
abbrev main_v452 : Ref sig .tc := ⟨.hbm, 641, rfl⟩
abbrev main_v453 : Ref sig .tc := ⟨.hbm, 642, rfl⟩
abbrev main_v454 : Ref sig .tc := ⟨.hbm, 643, rfl⟩
abbrev main_c_134 : Ref sig .tc := ⟨.hbm, 644, rfl⟩
abbrev main_v455 : Ref sig .tc := ⟨.hbm, 645, rfl⟩
abbrev main_v456 : Ref sig .tc := ⟨.hbm, 646, rfl⟩
abbrev main_c_135 : Ref sig .tc := ⟨.hbm, 647, rfl⟩
abbrev main_v457 : Ref sig .tc := ⟨.hbm, 648, rfl⟩
abbrev main_v458 : Ref sig .tc := ⟨.hbm, 649, rfl⟩
abbrev main_v459 : Ref sig .tc := ⟨.hbm, 650, rfl⟩
abbrev main_v460 : Ref sig .tc := ⟨.hbm, 651, rfl⟩
abbrev main_v461 : Ref sig .tc := ⟨.hbm, 652, rfl⟩
abbrev main_v462 : Ref sig .tc := ⟨.hbm, 653, rfl⟩
abbrev main_v463 : Ref sig .tc := ⟨.hbm, 654, rfl⟩
abbrev main_v464 : Ref sig .tc := ⟨.hbm, 655, rfl⟩
abbrev main_v465 : Ref sig .tc := ⟨.hbm, 656, rfl⟩
abbrev main_v466 : Ref sig .tc := ⟨.hbm, 657, rfl⟩
abbrev main_v467 : Ref sig .tc := ⟨.hbm, 658, rfl⟩
abbrev main_v468 : Ref sig .tc := ⟨.hbm, 659, rfl⟩
abbrev main_v469 : Ref sig .tc := ⟨.hbm, 660, rfl⟩

abbrev nD : Nat := 1
abbrev τ : Topo := Topo.v7x

variable {F : FTy → Type} [FloatOps F]

class Facts₀ : Prop where
  shapeCasts_S4096x128x3_S524288x3 : S4096x128x3.ShapeCasts S524288x3
  bcast_S_S524288x3 : S_.BroadcastsInDim S524288x3 (![] : Fin 0 → Fin S524288x3.rank)
  slices_S524288x3_S524288x1_0_0 : S524288x3.Slices ![0, 0] S524288x1
  shapeCasts_S524288x1_S524288 : S524288x1.ShapeCasts S524288
  slices_S524288x3_S524288x1_0_1 : S524288x3.Slices ![0, 1] S524288x1
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  bcast_S_S524288x1 : S_.BroadcastsInDim S524288x1 (![] : Fin 0 → Fin S524288x1.rank)
  bcast_S524288x1_S524288x64_0_1 : S524288x1.BroadcastsInDim S524288x64 (![0, 1] : Fin 2 → Fin S524288x64.rank)
  slices_S524288x3_S524288x1_0_2 : S524288x3.Slices ![0, 2] S524288x1
  bcast_S524288x1_S524288x16_0_1 : S524288x1.BroadcastsInDim S524288x16 (![0, 1] : Fin 2 → Fin S524288x16.rank)
  concatenates_S524288x64_S524288x16_S524288x16_S524288x96_d1 : Shape.Concatenates [S524288x64, S524288x16, S524288x16] S524288x96 1
  transposes_S32x96_S96x32_1_0 : S32x96.Transposes [1, 0] S96x32
  shapeCasts_S524288x32_S4096x128x32 : S524288x32.ShapeCasts S4096x128x32
  gather_S512x512x64_S524288x2_S524288x64_1_01_n_n_01_1_1164_wf : GatherDims.WF S512x512x64 S524288x2 S524288x64 [1] [0, 1] [] [0, 1] [] 1 ![1, 1, 64]
  gather_S512x64_S524288x1_S524288x64_1_0_n_n_0_1_164_wf : GatherDims.WF S512x64 S524288x1 S524288x64 [1] [0] [] [0] [] 1 ![1, 64]
  gather_S512x512x16_S524288x2_S524288x16_1_01_n_n_01_1_1116_wf : GatherDims.WF S512x512x16 S524288x2 S524288x16 [1] [0, 1] [] [0, 1] [] 1 ![1, 1, 16]
  gather_S512x16_S524288x1_S524288x16_1_0_n_n_0_1_116_wf : GatherDims.WF S512x16 S524288x1 S524288x16 [1] [0] [] [0] [] 1 ![1, 16]
  dot_S524288x96_S96x32_S524288x32_1_0_0_1_n_n_wf : DotDims.WF S524288x96 S96x32 S524288x32 [1] [0] [0] [1] [] []

variable [Facts₀]

def gather_S512x512x64_S524288x2_S524288x64_1_01_n_n_01_1_1164 : GatherDims S512x512x64 S524288x2 S524288x64 where
  offsetDims := [1]
  collapsedSliceDims := [0, 1]
  operandBatchingDims := []
  startIndicesBatchingDims := []
  startIndexMap := [0, 1]
  indexVectorDim := 1
  sliceSizes := ![1, 1, 64]
  wf := gather_S512x512x64_S524288x2_S524288x64_1_01_n_n_01_1_1164_wf
def gather_S512x64_S524288x1_S524288x64_1_0_n_n_0_1_164 : GatherDims S512x64 S524288x1 S524288x64 where
  offsetDims := [1]
  collapsedSliceDims := [0]
  operandBatchingDims := []
  startIndicesBatchingDims := []
  startIndexMap := [0]
  indexVectorDim := 1
  sliceSizes := ![1, 64]
  wf := gather_S512x64_S524288x1_S524288x64_1_0_n_n_0_1_164_wf
def gather_S512x512x16_S524288x2_S524288x16_1_01_n_n_01_1_1116 : GatherDims S512x512x16 S524288x2 S524288x16 where
  offsetDims := [1]
  collapsedSliceDims := [0, 1]
  operandBatchingDims := []
  startIndicesBatchingDims := []
  startIndexMap := [0, 1]
  indexVectorDim := 1
  sliceSizes := ![1, 1, 16]
  wf := gather_S512x512x16_S524288x2_S524288x16_1_01_n_n_01_1_1116_wf
def gather_S512x16_S524288x1_S524288x16_1_0_n_n_0_1_116 : GatherDims S512x16 S524288x1 S524288x16 where
  offsetDims := [1]
  collapsedSliceDims := [0]
  operandBatchingDims := []
  startIndicesBatchingDims := []
  startIndexMap := [0]
  indexVectorDim := 1
  sliceSizes := ![1, 16]
  wf := gather_S512x16_S524288x1_S524288x16_1_0_n_n_0_1_116_wf
def dot_S524288x96_S96x32_S524288x32_1_0_0_1_n_n : DotDims S524288x96 S96x32 S524288x32 where
  lhsContracting := [1]
  rhsContracting := [0]
  lhsNonContracting := [0]
  rhsNonContracting := [1]
  lhsBatch := []
  rhsBatch := []
  wf := dot_S524288x96_S96x32_S524288x32_1_0_0_1_n_n_wf

class Facts : Prop extends Facts₀ where

variable [Facts]
-- ==== Proof.BitsAround.lean ====
/-
  The host lines around the kernel's one region, read at any float instance.

  Before the region, @main computes on the host: the sample coordinates of every point, the four corner gathers of each of
  the three planes and the two neighbour gathers of each of the three lines, their bilinear and linear interpolations, the
  product of each plane sample with its line sample, the three products joined along the channel axis into one
  [524288, 96] array, that array rounded to bf16, and the weight matrix transposed to [96, 32]. After the region one line
  reshapes the region's [524288, 32] result to [4096, 128, 32].

  None of these lines allocates a buffer and none writes an argument array; the line after the region writes only its own
  result and touches, besides it, only the region's output array. So the region finds every argument array as launched
  (`found_main_argK`), and every argument array ends as launched (`kept_main_argK`).
-/
import proofs.«103901_j80736795230827_2_alg».proof.Proof.Gen.Kernel.Launch
import Idealize.ShloMosaic.Lib.Pipeline.FrameBody
import Idealize.ShloMosaic.Lib.Pipeline.FrameSuffix

set_option maxRecDepth 16384

noncomputable section

namespace Cert.Kernel.Around

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window cellOf)

variable {F : FTy → Type} [FloatOps F]

variable (m : (ℓ : Loc nD τ sig) → Buf (Elt F) ℓ) (ρ : Dev nD → PrngReg)

/-! ## The lines before the region, and what the region finds -/

/-- The host lines before the region, stretch by stretch: @main's own lines, and between them the lines of each call of
    the clamp `clip(x, 0, 511)`, written out where it is called. -/
abbrev before : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- Core `c`'s buffer contents when the region is entered: the launch contents after the lines before the region. -/
abbrev V0 (c : Dev nD) : Valuation τ sig (Elt F) := StableHlo.after (List.flatten (before (F := F))) (fun b => m (c, b))
/-- The same, read at a TensorCore reference. -/
abbrev V (c : Dev nD) (b : Ref sig .tc) : Buf (Elt F) ((c : Thread nD τ).loc b) := V0 m c (Proc.devRef .tc b)

/-! Each line computes into a buffer that already exists: none allocates. -/

set_option maxHeartbeats 4000000 in
theorem hostOps0_fresh : (hostOps0 : List (HloOp τ sig (Elt F))).Forall fun op => op.fresh = ∅ := by
  simp only [List.Forall]; repeat' constructor
set_option maxHeartbeats 4000000 in
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
set_option maxHeartbeats 4000000 in
theorem hostOps0_3_fresh : (hostOps0_3 : List (HloOp τ sig (Elt F))).Forall fun op => op.fresh = ∅ := by
  simp only [List.Forall]; repeat' constructor
set_option maxHeartbeats 4000000 in
theorem hostOps0_4_fresh : (hostOps0_4 : List (HloOp τ sig (Elt F))).Forall fun op => op.fresh = ∅ := by
  simp only [List.Forall]; repeat' constructor
set_option maxHeartbeats 4000000 in
theorem hostOps0_5_fresh : (hostOps0_5 : List (HloOp τ sig (Elt F))).Forall fun op => op.fresh = ∅ := by
  simp only [List.Forall]; repeat' constructor
set_option maxHeartbeats 4000000 in
theorem hostOps0_6_fresh : (hostOps0_6 : List (HloOp τ sig (Elt F))).Forall fun op => op.fresh = ∅ := by
  simp only [List.Forall]; repeat' constructor
set_option maxHeartbeats 4000000 in
theorem hostOps0_7_fresh : (hostOps0_7 : List (HloOp τ sig (Elt F))).Forall fun op => op.fresh = ∅ := by
  simp only [List.Forall]; repeat' constructor
set_option maxHeartbeats 4000000 in
theorem hostOps0_8_fresh : (hostOps0_8 : List (HloOp τ sig (Elt F))).Forall fun op => op.fresh = ∅ := by
  simp only [List.Forall]; repeat' constructor
set_option maxHeartbeats 4000000 in
theorem hostOps0_9_fresh : (hostOps0_9 : List (HloOp τ sig (Elt F))).Forall fun op => op.fresh = ∅ := by
  simp only [List.Forall]; repeat' constructor
set_option maxHeartbeats 4000000 in
theorem hostOps0_10_fresh : (hostOps0_10 : List (HloOp τ sig (Elt F))).Forall fun op => op.fresh = ∅ := by
  simp only [List.Forall]; repeat' constructor
set_option maxHeartbeats 4000000 in
theorem hostOps0_11_fresh : (hostOps0_11 : List (HloOp τ sig (Elt F))).Forall fun op => op.fresh = ∅ := by
  simp only [List.Forall]; repeat' constructor
set_option maxHeartbeats 4000000 in
theorem hostOps0_12_fresh : (hostOps0_12 : List (HloOp τ sig (Elt F))).Forall fun op => op.fresh = ∅ := by
  simp only [List.Forall]; repeat' constructor
set_option maxHeartbeats 4000000 in
theorem hostOps0_13_fresh : (hostOps0_13 : List (HloOp τ sig (Elt F))).Forall fun op => op.fresh = ∅ := by
  simp only [List.Forall]; repeat' constructor
set_option maxHeartbeats 4000000 in
theorem hostOps0_14_fresh : (hostOps0_14 : List (HloOp τ sig (Elt F))).Forall fun op => op.fresh = ∅ := by
  simp only [List.Forall]; repeat' constructor
set_option maxHeartbeats 4000000 in
theorem hostOps0_15_fresh : (hostOps0_15 : List (HloOp τ sig (Elt F))).Forall fun op => op.fresh = ∅ := by
  simp only [List.Forall]; repeat' constructor
set_option maxHeartbeats 4000000 in
theorem hostOps0_16_fresh : (hostOps0_16 : List (HloOp τ sig (Elt F))).Forall fun op => op.fresh = ∅ := by
  simp only [List.Forall]; repeat' constructor
set_option maxHeartbeats 4000000 in
theorem hostOps0_17_fresh : (hostOps0_17 : List (HloOp τ sig (Elt F))).Forall fun op => op.fresh = ∅ := by
  simp only [List.Forall]; repeat' constructor
set_option maxHeartbeats 4000000 in
theorem hostOps0_18_fresh : (hostOps0_18 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem before_sub : (before (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩
theorem before_fresh : (before (F := F)).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩

/-- @main is: the lines before the region, the region, the line after it. So it reduces to the region run from the
    contents `V`, continued by the line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main before [hostOps1] before_sub before_fresh main_chain

/-! ## The line after the region -/

/-- It touches the region's arrays and the buffers that bypass the region only. -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem after_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes its own result, which is none of the region's three arrays. -/
theorem after_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The argument arrays: found as launched, and left as launched -/

/-- A buffer none of the lines before the region writes is found as launched. -/
theorem found_of_not_written (c : Dev nD) (r : Ref sig .tc)
    (h : (before (F := F)).Forall fun ops => ops.Forall fun op => Proc.devRef (τ := τ) .tc r ∉ op.writes) :
    V m c r = m ((c : Thread nD τ).loc r) :=
  StableHlo.after_of_forall_not_mem (b := Proc.devRef .tc r) _ _ fun op hop => by
    obtain ⟨ops, hops, hmem⟩ := List.mem_flatten.mp hop
    exact (List.forall_iff_forall_mem.mp ((List.forall_iff_forall_mem.mp h) ops hops)) op hmem

set_option maxHeartbeats 4000000 in
theorem hostOps0_keeps_arg0 : (hostOps0 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_1_keeps_arg0 : (hostOps0_1 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_2_keeps_arg0 : (hostOps0_2 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_3_keeps_arg0 : (hostOps0_3 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_4_keeps_arg0 : (hostOps0_4 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_5_keeps_arg0 : (hostOps0_5 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_6_keeps_arg0 : (hostOps0_6 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_7_keeps_arg0 : (hostOps0_7 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_8_keeps_arg0 : (hostOps0_8 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_9_keeps_arg0 : (hostOps0_9 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_10_keeps_arg0 : (hostOps0_10 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_11_keeps_arg0 : (hostOps0_11 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_12_keeps_arg0 : (hostOps0_12 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_13_keeps_arg0 : (hostOps0_13 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_14_keeps_arg0 : (hostOps0_14 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_15_keeps_arg0 : (hostOps0_15 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_16_keeps_arg0 : (hostOps0_16 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_17_keeps_arg0 : (hostOps0_17 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_18_keeps_arg0 : (hostOps0_18 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- No line before the region writes `main_arg0`: the region finds it as launched. -/
theorem found_main_arg0 (c : Dev nD) : V m c main_arg0 = m ((c : Thread nD τ).loc main_arg0) :=
  found_of_not_written m c main_arg0 ⟨hostOps0_keeps_arg0, hostOps0_1_keeps_arg0, hostOps0_2_keeps_arg0, hostOps0_3_keeps_arg0, hostOps0_4_keeps_arg0, hostOps0_5_keeps_arg0, hostOps0_6_keeps_arg0, hostOps0_7_keeps_arg0, hostOps0_8_keeps_arg0, hostOps0_9_keeps_arg0, hostOps0_10_keeps_arg0, hostOps0_11_keeps_arg0, hostOps0_12_keeps_arg0, hostOps0_13_keeps_arg0, hostOps0_14_keeps_arg0, hostOps0_15_keeps_arg0, hostOps0_16_keeps_arg0, hostOps0_17_keeps_arg0, hostOps0_18_keeps_arg0⟩
/-- Nor does the line after it, and `main_arg0` is none of the region's arrays: it ends as launched. -/
theorem kept_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact found_main_arg0 m c

set_option maxHeartbeats 4000000 in
theorem hostOps0_keeps_arg1 : (hostOps0 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_1_keeps_arg1 : (hostOps0_1 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_2_keeps_arg1 : (hostOps0_2 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_3_keeps_arg1 : (hostOps0_3 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_4_keeps_arg1 : (hostOps0_4 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_5_keeps_arg1 : (hostOps0_5 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_6_keeps_arg1 : (hostOps0_6 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_7_keeps_arg1 : (hostOps0_7 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_8_keeps_arg1 : (hostOps0_8 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_9_keeps_arg1 : (hostOps0_9 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_10_keeps_arg1 : (hostOps0_10 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_11_keeps_arg1 : (hostOps0_11 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_12_keeps_arg1 : (hostOps0_12 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_13_keeps_arg1 : (hostOps0_13 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_14_keeps_arg1 : (hostOps0_14 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_15_keeps_arg1 : (hostOps0_15 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_16_keeps_arg1 : (hostOps0_16 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_17_keeps_arg1 : (hostOps0_17 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_18_keeps_arg1 : (hostOps0_18 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- No line before the region writes `main_arg1`: the region finds it as launched. -/
theorem found_main_arg1 (c : Dev nD) : V m c main_arg1 = m ((c : Thread nD τ).loc main_arg1) :=
  found_of_not_written m c main_arg1 ⟨hostOps0_keeps_arg1, hostOps0_1_keeps_arg1, hostOps0_2_keeps_arg1, hostOps0_3_keeps_arg1, hostOps0_4_keeps_arg1, hostOps0_5_keeps_arg1, hostOps0_6_keeps_arg1, hostOps0_7_keeps_arg1, hostOps0_8_keeps_arg1, hostOps0_9_keeps_arg1, hostOps0_10_keeps_arg1, hostOps0_11_keeps_arg1, hostOps0_12_keeps_arg1, hostOps0_13_keeps_arg1, hostOps0_14_keeps_arg1, hostOps0_15_keeps_arg1, hostOps0_16_keeps_arg1, hostOps0_17_keeps_arg1, hostOps0_18_keeps_arg1⟩
/-- Nor does the line after it, and `main_arg1` is none of the region's arrays: it ends as launched. -/
theorem kept_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact found_main_arg1 m c

set_option maxHeartbeats 4000000 in
theorem hostOps0_keeps_arg2 : (hostOps0 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_1_keeps_arg2 : (hostOps0_1 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_2_keeps_arg2 : (hostOps0_2 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_3_keeps_arg2 : (hostOps0_3 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_4_keeps_arg2 : (hostOps0_4 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_5_keeps_arg2 : (hostOps0_5 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_6_keeps_arg2 : (hostOps0_6 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_7_keeps_arg2 : (hostOps0_7 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_8_keeps_arg2 : (hostOps0_8 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_9_keeps_arg2 : (hostOps0_9 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_10_keeps_arg2 : (hostOps0_10 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_11_keeps_arg2 : (hostOps0_11 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_12_keeps_arg2 : (hostOps0_12 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_13_keeps_arg2 : (hostOps0_13 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_14_keeps_arg2 : (hostOps0_14 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_15_keeps_arg2 : (hostOps0_15 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_16_keeps_arg2 : (hostOps0_16 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_17_keeps_arg2 : (hostOps0_17 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_18_keeps_arg2 : (hostOps0_18 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- No line before the region writes `main_arg2`: the region finds it as launched. -/
theorem found_main_arg2 (c : Dev nD) : V m c main_arg2 = m ((c : Thread nD τ).loc main_arg2) :=
  found_of_not_written m c main_arg2 ⟨hostOps0_keeps_arg2, hostOps0_1_keeps_arg2, hostOps0_2_keeps_arg2, hostOps0_3_keeps_arg2, hostOps0_4_keeps_arg2, hostOps0_5_keeps_arg2, hostOps0_6_keeps_arg2, hostOps0_7_keeps_arg2, hostOps0_8_keeps_arg2, hostOps0_9_keeps_arg2, hostOps0_10_keeps_arg2, hostOps0_11_keeps_arg2, hostOps0_12_keeps_arg2, hostOps0_13_keeps_arg2, hostOps0_14_keeps_arg2, hostOps0_15_keeps_arg2, hostOps0_16_keeps_arg2, hostOps0_17_keeps_arg2, hostOps0_18_keeps_arg2⟩
/-- Nor does the line after it, and `main_arg2` is none of the region's arrays: it ends as launched. -/
theorem kept_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact found_main_arg2 m c

set_option maxHeartbeats 4000000 in
theorem hostOps0_keeps_arg3 : (hostOps0 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_1_keeps_arg3 : (hostOps0_1 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_2_keeps_arg3 : (hostOps0_2 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_3_keeps_arg3 : (hostOps0_3 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_4_keeps_arg3 : (hostOps0_4 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_5_keeps_arg3 : (hostOps0_5 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_6_keeps_arg3 : (hostOps0_6 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_7_keeps_arg3 : (hostOps0_7 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_8_keeps_arg3 : (hostOps0_8 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_9_keeps_arg3 : (hostOps0_9 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_10_keeps_arg3 : (hostOps0_10 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_11_keeps_arg3 : (hostOps0_11 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_12_keeps_arg3 : (hostOps0_12 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_13_keeps_arg3 : (hostOps0_13 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_14_keeps_arg3 : (hostOps0_14 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_15_keeps_arg3 : (hostOps0_15 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_16_keeps_arg3 : (hostOps0_16 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_17_keeps_arg3 : (hostOps0_17 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_18_keeps_arg3 : (hostOps0_18 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- No line before the region writes `main_arg3`: the region finds it as launched. -/
theorem found_main_arg3 (c : Dev nD) : V m c main_arg3 = m ((c : Thread nD τ).loc main_arg3) :=
  found_of_not_written m c main_arg3 ⟨hostOps0_keeps_arg3, hostOps0_1_keeps_arg3, hostOps0_2_keeps_arg3, hostOps0_3_keeps_arg3, hostOps0_4_keeps_arg3, hostOps0_5_keeps_arg3, hostOps0_6_keeps_arg3, hostOps0_7_keeps_arg3, hostOps0_8_keeps_arg3, hostOps0_9_keeps_arg3, hostOps0_10_keeps_arg3, hostOps0_11_keeps_arg3, hostOps0_12_keeps_arg3, hostOps0_13_keeps_arg3, hostOps0_14_keeps_arg3, hostOps0_15_keeps_arg3, hostOps0_16_keeps_arg3, hostOps0_17_keeps_arg3, hostOps0_18_keeps_arg3⟩
/-- Nor does the line after it, and `main_arg3` is none of the region's arrays: it ends as launched. -/
theorem kept_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact found_main_arg3 m c

set_option maxHeartbeats 4000000 in
theorem hostOps0_keeps_arg4 : (hostOps0 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_1_keeps_arg4 : (hostOps0_1 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_2_keeps_arg4 : (hostOps0_2 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_3_keeps_arg4 : (hostOps0_3 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_4_keeps_arg4 : (hostOps0_4 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_5_keeps_arg4 : (hostOps0_5 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_6_keeps_arg4 : (hostOps0_6 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_7_keeps_arg4 : (hostOps0_7 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_8_keeps_arg4 : (hostOps0_8 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_9_keeps_arg4 : (hostOps0_9 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_10_keeps_arg4 : (hostOps0_10 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_11_keeps_arg4 : (hostOps0_11 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_12_keeps_arg4 : (hostOps0_12 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_13_keeps_arg4 : (hostOps0_13 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_14_keeps_arg4 : (hostOps0_14 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_15_keeps_arg4 : (hostOps0_15 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_16_keeps_arg4 : (hostOps0_16 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_17_keeps_arg4 : (hostOps0_17 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_18_keeps_arg4 : (hostOps0_18 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- No line before the region writes `main_arg4`: the region finds it as launched. -/
theorem found_main_arg4 (c : Dev nD) : V m c main_arg4 = m ((c : Thread nD τ).loc main_arg4) :=
  found_of_not_written m c main_arg4 ⟨hostOps0_keeps_arg4, hostOps0_1_keeps_arg4, hostOps0_2_keeps_arg4, hostOps0_3_keeps_arg4, hostOps0_4_keeps_arg4, hostOps0_5_keeps_arg4, hostOps0_6_keeps_arg4, hostOps0_7_keeps_arg4, hostOps0_8_keeps_arg4, hostOps0_9_keeps_arg4, hostOps0_10_keeps_arg4, hostOps0_11_keeps_arg4, hostOps0_12_keeps_arg4, hostOps0_13_keeps_arg4, hostOps0_14_keeps_arg4, hostOps0_15_keeps_arg4, hostOps0_16_keeps_arg4, hostOps0_17_keeps_arg4, hostOps0_18_keeps_arg4⟩
/-- Nor does the line after it, and `main_arg4` is none of the region's arrays: it ends as launched. -/
theorem kept_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact found_main_arg4 m c

set_option maxHeartbeats 4000000 in
theorem hostOps0_keeps_arg5 : (hostOps0 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_1_keeps_arg5 : (hostOps0_1 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_2_keeps_arg5 : (hostOps0_2 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_3_keeps_arg5 : (hostOps0_3 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_4_keeps_arg5 : (hostOps0_4 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_5_keeps_arg5 : (hostOps0_5 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_6_keeps_arg5 : (hostOps0_6 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_7_keeps_arg5 : (hostOps0_7 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_8_keeps_arg5 : (hostOps0_8 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_9_keeps_arg5 : (hostOps0_9 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_10_keeps_arg5 : (hostOps0_10 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_11_keeps_arg5 : (hostOps0_11 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_12_keeps_arg5 : (hostOps0_12 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_13_keeps_arg5 : (hostOps0_13 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_14_keeps_arg5 : (hostOps0_14 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_15_keeps_arg5 : (hostOps0_15 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_16_keeps_arg5 : (hostOps0_16 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_17_keeps_arg5 : (hostOps0_17 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_18_keeps_arg5 : (hostOps0_18 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- No line before the region writes `main_arg5`: the region finds it as launched. -/
theorem found_main_arg5 (c : Dev nD) : V m c main_arg5 = m ((c : Thread nD τ).loc main_arg5) :=
  found_of_not_written m c main_arg5 ⟨hostOps0_keeps_arg5, hostOps0_1_keeps_arg5, hostOps0_2_keeps_arg5, hostOps0_3_keeps_arg5, hostOps0_4_keeps_arg5, hostOps0_5_keeps_arg5, hostOps0_6_keeps_arg5, hostOps0_7_keeps_arg5, hostOps0_8_keeps_arg5, hostOps0_9_keeps_arg5, hostOps0_10_keeps_arg5, hostOps0_11_keeps_arg5, hostOps0_12_keeps_arg5, hostOps0_13_keeps_arg5, hostOps0_14_keeps_arg5, hostOps0_15_keeps_arg5, hostOps0_16_keeps_arg5, hostOps0_17_keeps_arg5, hostOps0_18_keeps_arg5⟩
/-- Nor does the line after it, and `main_arg5` is none of the region's arrays: it ends as launched. -/
theorem kept_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg5 (by exact (by decide : ∀ w, Pipeline.arrRef spec0 w ≠ main_arg5))]
  exact found_main_arg5 m c

set_option maxHeartbeats 4000000 in
theorem hostOps0_keeps_arg6 : (hostOps0 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_1_keeps_arg6 : (hostOps0_1 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_2_keeps_arg6 : (hostOps0_2 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_3_keeps_arg6 : (hostOps0_3 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_4_keeps_arg6 : (hostOps0_4 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_5_keeps_arg6 : (hostOps0_5 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_6_keeps_arg6 : (hostOps0_6 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_7_keeps_arg6 : (hostOps0_7 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_8_keeps_arg6 : (hostOps0_8 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_9_keeps_arg6 : (hostOps0_9 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_10_keeps_arg6 : (hostOps0_10 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_11_keeps_arg6 : (hostOps0_11 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_12_keeps_arg6 : (hostOps0_12 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_13_keeps_arg6 : (hostOps0_13 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_14_keeps_arg6 : (hostOps0_14 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_15_keeps_arg6 : (hostOps0_15 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_16_keeps_arg6 : (hostOps0_16 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_17_keeps_arg6 : (hostOps0_17 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_18_keeps_arg6 : (hostOps0_18 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- No line before the region writes `main_arg6`: the region finds it as launched. -/
theorem found_main_arg6 (c : Dev nD) : V m c main_arg6 = m ((c : Thread nD τ).loc main_arg6) :=
  found_of_not_written m c main_arg6 ⟨hostOps0_keeps_arg6, hostOps0_1_keeps_arg6, hostOps0_2_keeps_arg6, hostOps0_3_keeps_arg6, hostOps0_4_keeps_arg6, hostOps0_5_keeps_arg6, hostOps0_6_keeps_arg6, hostOps0_7_keeps_arg6, hostOps0_8_keeps_arg6, hostOps0_9_keeps_arg6, hostOps0_10_keeps_arg6, hostOps0_11_keeps_arg6, hostOps0_12_keeps_arg6, hostOps0_13_keeps_arg6, hostOps0_14_keeps_arg6, hostOps0_15_keeps_arg6, hostOps0_16_keeps_arg6, hostOps0_17_keeps_arg6, hostOps0_18_keeps_arg6⟩
/-- Nor does the line after it, and `main_arg6` is none of the region's arrays: it ends as launched. -/
theorem kept_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg6 (by exact (by decide : ∀ w, Pipeline.arrRef spec0 w ≠ main_arg6))]
  exact found_main_arg6 m c

set_option maxHeartbeats 4000000 in
theorem hostOps0_keeps_arg7 : (hostOps0 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_1_keeps_arg7 : (hostOps0_1 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_2_keeps_arg7 : (hostOps0_2 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_3_keeps_arg7 : (hostOps0_3 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_4_keeps_arg7 : (hostOps0_4 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_5_keeps_arg7 : (hostOps0_5 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_6_keeps_arg7 : (hostOps0_6 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_7_keeps_arg7 : (hostOps0_7 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_8_keeps_arg7 : (hostOps0_8 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_9_keeps_arg7 : (hostOps0_9 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_10_keeps_arg7 : (hostOps0_10 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_11_keeps_arg7 : (hostOps0_11 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_12_keeps_arg7 : (hostOps0_12 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_13_keeps_arg7 : (hostOps0_13 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_14_keeps_arg7 : (hostOps0_14 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_15_keeps_arg7 : (hostOps0_15 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_16_keeps_arg7 : (hostOps0_16 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_17_keeps_arg7 : (hostOps0_17 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_18_keeps_arg7 : (hostOps0_18 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- No line before the region writes `main_arg7`: the region finds it as launched. -/
theorem found_main_arg7 (c : Dev nD) : V m c main_arg7 = m ((c : Thread nD τ).loc main_arg7) :=
  found_of_not_written m c main_arg7 ⟨hostOps0_keeps_arg7, hostOps0_1_keeps_arg7, hostOps0_2_keeps_arg7, hostOps0_3_keeps_arg7, hostOps0_4_keeps_arg7, hostOps0_5_keeps_arg7, hostOps0_6_keeps_arg7, hostOps0_7_keeps_arg7, hostOps0_8_keeps_arg7, hostOps0_9_keeps_arg7, hostOps0_10_keeps_arg7, hostOps0_11_keeps_arg7, hostOps0_12_keeps_arg7, hostOps0_13_keeps_arg7, hostOps0_14_keeps_arg7, hostOps0_15_keeps_arg7, hostOps0_16_keeps_arg7, hostOps0_17_keeps_arg7, hostOps0_18_keeps_arg7⟩
/-- Nor does the line after it, and `main_arg7` is none of the region's arrays: it ends as launched. -/
theorem kept_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg7 (by exact (by decide : ∀ w, Pipeline.arrRef spec0 w ≠ main_arg7))]
  exact found_main_arg7 m c

end Cert.Kernel.Around

end
-- ==== Proof.BitsRegion.lean ====
/-
  The kernel's one region, read at any float instance.

  The grid has 32 points. At point `t` the body is handed rows 16384·t … 16384·t + 16383 of the fused features (a
  [16384, 96] block, bf16) and the whole transposed weight matrix ([96, 32]; its block index never moves, so it is fetched
  at the first point only and found in place afterwards), and it stores ONE value over the whole [16384, 32] block of rows
  16384·t … of the result: the feature block times the weights rounded to bf16, accumulated from zero in f32. The body
  also loads the output block before storing; the store covers the block, so what it loaded is not used.

  The blocks of the result at distinct points are disjoint and the body keeps nothing between points, so the proof data
  is: each input buffer holds its block, the output buffer holds the product of the two input blocks. From it the
  library's frame run gives the run of @main, and the argument arrays end as launched because no host line and no
  window writes them.
-/
import proofs.«103901_j80736795230827_2_alg».proof.Proof.BitsAround
import proofs.«103901_j80736795230827_2_alg».proof.Proof.Gen.Kernel.Skeleton
import proofs.«103901_j80736795230827_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 65536

noncomputable section

namespace Cert.Kernel.Region

open Cert.Kernel Cert.Kernel.Gen Cert.Kernel.Around
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's buffer holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's buffer holds its block at every point: fetched at the first, and where it is not fetched its
    block index has not moved and the body left the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a frame run -/

/-- From a run to the library's frame post — the region's arrays at what the proof data computes, every other buffer as
    the line after the region leaves it — the arguments end as launched: none is one of the region's arrays, and the
    line after the region writes none (`kept_main_argK`). -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (kept_main_arg0 m dats c),
    ((h c).2 main_arg1 (Pipeline.mem_restRefs_of main_arg1 (by decide) (by decide))).trans (kept_main_arg1 m dats c),
    ((h c).2 main_arg2 (Pipeline.mem_restRefs_of main_arg2 (by decide) (by decide))).trans (kept_main_arg2 m dats c),
    ((h c).2 main_arg3 (Pipeline.mem_restRefs_of main_arg3 (by decide) (by decide))).trans (kept_main_arg3 m dats c),
    ((h c).2 main_arg4 (Pipeline.mem_restRefs_of main_arg4 (by decide) (by decide))).trans (kept_main_arg4 m dats c),
    ((h c).2 main_arg5 (Pipeline.mem_restRefs_of main_arg5 (by decide) (by decide))).trans (kept_main_arg5 m dats c),
    ((h c).2 main_arg6 (Pipeline.mem_restRefs_of main_arg6 (by decide) (by decide))).trans (kept_main_arg6 m dats c),
    ((h c).2 main_arg7 (Pipeline.mem_restRefs_of main_arg7 (by decide) (by decide))).trans (kept_main_arg7 m dats c)⟩) h

/-! ## What the body leaves in the output block -/

/-- The whole feature block, the whole weight block, the whole output block, as rectangles. -/
abbrev wholeF : Rect S16384x96 := Rect.unit (s := S16384x96) ![0, 0] S16384x96.size inb_S16384x96_S16384x96_0_0
abbrev wholeW : Rect S96x32 := Rect.unit (s := S96x32) ![0, 0] S96x32.size inb_S96x32_S96x32_0_0
abbrev wholeO : Rect S16384x32 := Rect.unit (s := S16384x32) ![0, 0] S16384x32.size inb_S16384x32_S16384x32_0_0

/-- The output buffer after the body, from the two input blocks: its one store, over the whole block, of the product. -/
def out0_2 (x0 : Vec F S16384x96 .bf16) (x1 : Vec F S96x32 .f32) : Vec F S16384x32 .f32 :=
  View.canon [⟨wholeO, k0_pay1 (View.ld x0 wholeF) (View.ld x1 wholeW)⟩]

/-- The one store covers the block. -/
theorem cover0_2 (p0 : Vec F S16384x32 .f32) (y : S16384x32.Idx) :
    ∃ pc ∈ ([⟨wholeO, p0⟩] : List (View.Piece (Elt F) S16384x32 .f32)), y ∈ pc.1.set :=
  View.cover_of_tiled [⟨wholeO, p0⟩] S16384x32.size (by rfl) y

/-! ## The body's triple -/

set_option maxHeartbeats 1000000 in
/-- The body on whole buffers, the inputs' at contents `x0`, `x1` and the output's at anything, runs to the end holding
    the inputs' as they were and the output's at `out0_2 x0 x1`. -/
theorem sound_kernel (c : Dev nD) (E : Set ℕ) (i : grid0.Coords)
    (arg1 : Memref sig .tc .vmem S16384x96 .bf16) (harg1 : arg1.IsWhole)
    (arg2 : Memref sig .tc .vmem S96x32 .f32) (harg2 : arg2.IsWhole)
    (arg3 : Memref sig .tc .vmem S16384x32 .f32) (harg3 : arg3.IsWhole)
    (x0 : Vec F S16384x96 .bf16) (x1 : Vec F S96x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__fuse_mlp_kernel i arg1 harg1 arg2 harg2 arg3 harg3) K := by
  simp only [cc0__fuse_mlp_kernel_eq_skeleton]; unfold cc0__fuse_mlp_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- On core `c`: the arrays as the region finds them; after the body at point `t` each input buffer at its block and the
    output buffer at the product of the two input blocks; nothing of the kernel's own to keep; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has the region's three arrays at what the
    proof data computes and every other buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := after_sub) (hfresh := after_fresh) (hkeep := after_keeps)
    (hmain := hmain m Variants.none) (hA := A_eq m) (hΦ := fun _ _ => rfl)

/-- The frame: @main runs to the end without a fault and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.Kernel.Region

end
-- ==== Proof.IdealAround.lean ====
/-
  The host lines around the kernel's one region, read at any float instance.

  Before the region, @main computes on the host: the sample coordinates of every point, the four corner gathers of each of
  the three planes and the two neighbour gathers of each of the three lines, their bilinear and linear interpolations, the
  product of each plane sample with its line sample, the three products joined along the channel axis into one
  [524288, 96] array, that array rounded to bf16, and the weight matrix transposed to [96, 32]. After the region one line
  reshapes the region's [524288, 32] result to [4096, 128, 32].

  None of these lines allocates a buffer and none writes an argument array; the line after the region writes only its own
  result and touches, besides it, only the region's output array. So the region finds every argument array as launched
  (`found_main_argK`), and every argument array ends as launched (`kept_main_argK`).
-/
import proofs.«103901_j80736795230827_2_alg».proof.Proof.Gen.KernelIdeal.Launch
import Idealize.ShloMosaic.Lib.Pipeline.FrameBody
import Idealize.ShloMosaic.Lib.Pipeline.FrameSuffix

set_option maxRecDepth 16384

noncomputable section

namespace Cert.KernelIdeal.Around

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window cellOf)

variable {F : FTy → Type} [FloatOps F]

variable (m : (ℓ : Loc nD τ sig) → Buf (Elt F) ℓ) (ρ : Dev nD → PrngReg)

/-! ## The lines before the region, and what the region finds -/

/-- The host lines before the region, stretch by stretch: @main's own lines, and between them the lines of each call of
    the clamp `clip(x, 0, 511)`, written out where it is called. -/
abbrev before : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- Core `c`'s buffer contents when the region is entered: the launch contents after the lines before the region. -/
abbrev V0 (c : Dev nD) : Valuation τ sig (Elt F) := StableHlo.after (List.flatten (before (F := F))) (fun b => m (c, b))
/-- The same, read at a TensorCore reference. -/
abbrev V (c : Dev nD) (b : Ref sig .tc) : Buf (Elt F) ((c : Thread nD τ).loc b) := V0 m c (Proc.devRef .tc b)

/-! Each line computes into a buffer that already exists: none allocates. -/

set_option maxHeartbeats 4000000 in
theorem hostOps0_fresh : (hostOps0 : List (HloOp τ sig (Elt F))).Forall fun op => op.fresh = ∅ := by
  simp only [List.Forall]; repeat' constructor
set_option maxHeartbeats 4000000 in
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
set_option maxHeartbeats 4000000 in
theorem hostOps0_3_fresh : (hostOps0_3 : List (HloOp τ sig (Elt F))).Forall fun op => op.fresh = ∅ := by
  simp only [List.Forall]; repeat' constructor
set_option maxHeartbeats 4000000 in
theorem hostOps0_4_fresh : (hostOps0_4 : List (HloOp τ sig (Elt F))).Forall fun op => op.fresh = ∅ := by
  simp only [List.Forall]; repeat' constructor
set_option maxHeartbeats 4000000 in
theorem hostOps0_5_fresh : (hostOps0_5 : List (HloOp τ sig (Elt F))).Forall fun op => op.fresh = ∅ := by
  simp only [List.Forall]; repeat' constructor
set_option maxHeartbeats 4000000 in
theorem hostOps0_6_fresh : (hostOps0_6 : List (HloOp τ sig (Elt F))).Forall fun op => op.fresh = ∅ := by
  simp only [List.Forall]; repeat' constructor
set_option maxHeartbeats 4000000 in
theorem hostOps0_7_fresh : (hostOps0_7 : List (HloOp τ sig (Elt F))).Forall fun op => op.fresh = ∅ := by
  simp only [List.Forall]; repeat' constructor
set_option maxHeartbeats 4000000 in
theorem hostOps0_8_fresh : (hostOps0_8 : List (HloOp τ sig (Elt F))).Forall fun op => op.fresh = ∅ := by
  simp only [List.Forall]; repeat' constructor
set_option maxHeartbeats 4000000 in
theorem hostOps0_9_fresh : (hostOps0_9 : List (HloOp τ sig (Elt F))).Forall fun op => op.fresh = ∅ := by
  simp only [List.Forall]; repeat' constructor
set_option maxHeartbeats 4000000 in
theorem hostOps0_10_fresh : (hostOps0_10 : List (HloOp τ sig (Elt F))).Forall fun op => op.fresh = ∅ := by
  simp only [List.Forall]; repeat' constructor
set_option maxHeartbeats 4000000 in
theorem hostOps0_11_fresh : (hostOps0_11 : List (HloOp τ sig (Elt F))).Forall fun op => op.fresh = ∅ := by
  simp only [List.Forall]; repeat' constructor
set_option maxHeartbeats 4000000 in
theorem hostOps0_12_fresh : (hostOps0_12 : List (HloOp τ sig (Elt F))).Forall fun op => op.fresh = ∅ := by
  simp only [List.Forall]; repeat' constructor
set_option maxHeartbeats 4000000 in
theorem hostOps0_13_fresh : (hostOps0_13 : List (HloOp τ sig (Elt F))).Forall fun op => op.fresh = ∅ := by
  simp only [List.Forall]; repeat' constructor
set_option maxHeartbeats 4000000 in
theorem hostOps0_14_fresh : (hostOps0_14 : List (HloOp τ sig (Elt F))).Forall fun op => op.fresh = ∅ := by
  simp only [List.Forall]; repeat' constructor
set_option maxHeartbeats 4000000 in
theorem hostOps0_15_fresh : (hostOps0_15 : List (HloOp τ sig (Elt F))).Forall fun op => op.fresh = ∅ := by
  simp only [List.Forall]; repeat' constructor
set_option maxHeartbeats 4000000 in
theorem hostOps0_16_fresh : (hostOps0_16 : List (HloOp τ sig (Elt F))).Forall fun op => op.fresh = ∅ := by
  simp only [List.Forall]; repeat' constructor
set_option maxHeartbeats 4000000 in
theorem hostOps0_17_fresh : (hostOps0_17 : List (HloOp τ sig (Elt F))).Forall fun op => op.fresh = ∅ := by
  simp only [List.Forall]; repeat' constructor
set_option maxHeartbeats 4000000 in
theorem hostOps0_18_fresh : (hostOps0_18 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem before_sub : (before (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩
theorem before_fresh : (before (F := F)).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩

/-- @main is: the lines before the region, the region, the line after it. So it reduces to the region run from the
    contents `V`, continued by the line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main before [hostOps1] before_sub before_fresh main_chain

/-! ## The line after the region -/

/-- It touches the region's arrays and the buffers that bypass the region only. -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem after_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes its own result, which is none of the region's three arrays. -/
theorem after_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The argument arrays: found as launched, and left as launched -/

/-- A buffer none of the lines before the region writes is found as launched. -/
theorem found_of_not_written (c : Dev nD) (r : Ref sig .tc)
    (h : (before (F := F)).Forall fun ops => ops.Forall fun op => Proc.devRef (τ := τ) .tc r ∉ op.writes) :
    V m c r = m ((c : Thread nD τ).loc r) :=
  StableHlo.after_of_forall_not_mem (b := Proc.devRef .tc r) _ _ fun op hop => by
    obtain ⟨ops, hops, hmem⟩ := List.mem_flatten.mp hop
    exact (List.forall_iff_forall_mem.mp ((List.forall_iff_forall_mem.mp h) ops hops)) op hmem

set_option maxHeartbeats 4000000 in
theorem hostOps0_keeps_arg0 : (hostOps0 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_1_keeps_arg0 : (hostOps0_1 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_2_keeps_arg0 : (hostOps0_2 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_3_keeps_arg0 : (hostOps0_3 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_4_keeps_arg0 : (hostOps0_4 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_5_keeps_arg0 : (hostOps0_5 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_6_keeps_arg0 : (hostOps0_6 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_7_keeps_arg0 : (hostOps0_7 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_8_keeps_arg0 : (hostOps0_8 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_9_keeps_arg0 : (hostOps0_9 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_10_keeps_arg0 : (hostOps0_10 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_11_keeps_arg0 : (hostOps0_11 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_12_keeps_arg0 : (hostOps0_12 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_13_keeps_arg0 : (hostOps0_13 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_14_keeps_arg0 : (hostOps0_14 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_15_keeps_arg0 : (hostOps0_15 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_16_keeps_arg0 : (hostOps0_16 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_17_keeps_arg0 : (hostOps0_17 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_18_keeps_arg0 : (hostOps0_18 : List (HloOp τ sig (Elt F))).Forall fun op => Proc.devRef (τ := τ) .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- No line before the region writes `main_arg0`: the region finds it as launched. -/
theorem found_main_arg0 (c : Dev nD) : V m c main_arg0 = m ((c : Thread nD τ).loc main_arg0) :=
  found_of_not_written m c main_arg0 ⟨hostOps0_keeps_arg0, hostOps0_1_keeps_arg0, hostOps0_2_keeps_arg0, hostOps0_3_keeps_arg0, hostOps0_4_keeps_arg0, hostOps0_5_keeps_arg0, hostOps0_6_keeps_arg0, hostOps0_7_keeps_arg0, hostOps0_8_keeps_arg0, hostOps0_9_keeps_arg0, hostOps0_10_keeps_arg0, hostOps0_11_keeps_arg0, hostOps0_12_keeps_arg0, hostOps0_13_keeps_arg0, hostOps0_14_keeps_arg0, hostOps0_15_keeps_arg0, hostOps0_16_keeps_arg0, hostOps0_17_keeps_arg0, hostOps0_18_keeps_arg0⟩
/-- Nor does the line after it, and `main_arg0` is none of the region's arrays: it ends as launched. -/
theorem kept_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact found_main_arg0 m c

set_option maxHeartbeats 4000000 in
theorem hostOps0_keeps_arg1 : (hostOps0 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_1_keeps_arg1 : (hostOps0_1 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_2_keeps_arg1 : (hostOps0_2 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_3_keeps_arg1 : (hostOps0_3 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_4_keeps_arg1 : (hostOps0_4 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_5_keeps_arg1 : (hostOps0_5 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_6_keeps_arg1 : (hostOps0_6 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_7_keeps_arg1 : (hostOps0_7 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_8_keeps_arg1 : (hostOps0_8 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_9_keeps_arg1 : (hostOps0_9 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_10_keeps_arg1 : (hostOps0_10 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_11_keeps_arg1 : (hostOps0_11 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_12_keeps_arg1 : (hostOps0_12 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_13_keeps_arg1 : (hostOps0_13 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_14_keeps_arg1 : (hostOps0_14 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_15_keeps_arg1 : (hostOps0_15 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_16_keeps_arg1 : (hostOps0_16 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_17_keeps_arg1 : (hostOps0_17 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_18_keeps_arg1 : (hostOps0_18 : List (HloOp τ sig (Elt F))).Forall fun op => Proc.devRef (τ := τ) .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- No line before the region writes `main_arg1`: the region finds it as launched. -/
theorem found_main_arg1 (c : Dev nD) : V m c main_arg1 = m ((c : Thread nD τ).loc main_arg1) :=
  found_of_not_written m c main_arg1 ⟨hostOps0_keeps_arg1, hostOps0_1_keeps_arg1, hostOps0_2_keeps_arg1, hostOps0_3_keeps_arg1, hostOps0_4_keeps_arg1, hostOps0_5_keeps_arg1, hostOps0_6_keeps_arg1, hostOps0_7_keeps_arg1, hostOps0_8_keeps_arg1, hostOps0_9_keeps_arg1, hostOps0_10_keeps_arg1, hostOps0_11_keeps_arg1, hostOps0_12_keeps_arg1, hostOps0_13_keeps_arg1, hostOps0_14_keeps_arg1, hostOps0_15_keeps_arg1, hostOps0_16_keeps_arg1, hostOps0_17_keeps_arg1, hostOps0_18_keeps_arg1⟩
/-- Nor does the line after it, and `main_arg1` is none of the region's arrays: it ends as launched. -/
theorem kept_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact found_main_arg1 m c

set_option maxHeartbeats 4000000 in
theorem hostOps0_keeps_arg2 : (hostOps0 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_1_keeps_arg2 : (hostOps0_1 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_2_keeps_arg2 : (hostOps0_2 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_3_keeps_arg2 : (hostOps0_3 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_4_keeps_arg2 : (hostOps0_4 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_5_keeps_arg2 : (hostOps0_5 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_6_keeps_arg2 : (hostOps0_6 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_7_keeps_arg2 : (hostOps0_7 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_8_keeps_arg2 : (hostOps0_8 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_9_keeps_arg2 : (hostOps0_9 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_10_keeps_arg2 : (hostOps0_10 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_11_keeps_arg2 : (hostOps0_11 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_12_keeps_arg2 : (hostOps0_12 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_13_keeps_arg2 : (hostOps0_13 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_14_keeps_arg2 : (hostOps0_14 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_15_keeps_arg2 : (hostOps0_15 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_16_keeps_arg2 : (hostOps0_16 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_17_keeps_arg2 : (hostOps0_17 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_18_keeps_arg2 : (hostOps0_18 : List (HloOp τ sig (Elt F))).Forall fun op => Proc.devRef (τ := τ) .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- No line before the region writes `main_arg2`: the region finds it as launched. -/
theorem found_main_arg2 (c : Dev nD) : V m c main_arg2 = m ((c : Thread nD τ).loc main_arg2) :=
  found_of_not_written m c main_arg2 ⟨hostOps0_keeps_arg2, hostOps0_1_keeps_arg2, hostOps0_2_keeps_arg2, hostOps0_3_keeps_arg2, hostOps0_4_keeps_arg2, hostOps0_5_keeps_arg2, hostOps0_6_keeps_arg2, hostOps0_7_keeps_arg2, hostOps0_8_keeps_arg2, hostOps0_9_keeps_arg2, hostOps0_10_keeps_arg2, hostOps0_11_keeps_arg2, hostOps0_12_keeps_arg2, hostOps0_13_keeps_arg2, hostOps0_14_keeps_arg2, hostOps0_15_keeps_arg2, hostOps0_16_keeps_arg2, hostOps0_17_keeps_arg2, hostOps0_18_keeps_arg2⟩
/-- Nor does the line after it, and `main_arg2` is none of the region's arrays: it ends as launched. -/
theorem kept_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact found_main_arg2 m c

set_option maxHeartbeats 4000000 in
theorem hostOps0_keeps_arg3 : (hostOps0 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_1_keeps_arg3 : (hostOps0_1 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_2_keeps_arg3 : (hostOps0_2 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_3_keeps_arg3 : (hostOps0_3 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_4_keeps_arg3 : (hostOps0_4 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_5_keeps_arg3 : (hostOps0_5 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_6_keeps_arg3 : (hostOps0_6 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_7_keeps_arg3 : (hostOps0_7 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_8_keeps_arg3 : (hostOps0_8 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_9_keeps_arg3 : (hostOps0_9 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_10_keeps_arg3 : (hostOps0_10 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_11_keeps_arg3 : (hostOps0_11 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_12_keeps_arg3 : (hostOps0_12 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_13_keeps_arg3 : (hostOps0_13 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_14_keeps_arg3 : (hostOps0_14 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_15_keeps_arg3 : (hostOps0_15 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_16_keeps_arg3 : (hostOps0_16 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_17_keeps_arg3 : (hostOps0_17 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_18_keeps_arg3 : (hostOps0_18 : List (HloOp τ sig (Elt F))).Forall fun op => Proc.devRef (τ := τ) .tc main_arg3 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- No line before the region writes `main_arg3`: the region finds it as launched. -/
theorem found_main_arg3 (c : Dev nD) : V m c main_arg3 = m ((c : Thread nD τ).loc main_arg3) :=
  found_of_not_written m c main_arg3 ⟨hostOps0_keeps_arg3, hostOps0_1_keeps_arg3, hostOps0_2_keeps_arg3, hostOps0_3_keeps_arg3, hostOps0_4_keeps_arg3, hostOps0_5_keeps_arg3, hostOps0_6_keeps_arg3, hostOps0_7_keeps_arg3, hostOps0_8_keeps_arg3, hostOps0_9_keeps_arg3, hostOps0_10_keeps_arg3, hostOps0_11_keeps_arg3, hostOps0_12_keeps_arg3, hostOps0_13_keeps_arg3, hostOps0_14_keeps_arg3, hostOps0_15_keeps_arg3, hostOps0_16_keeps_arg3, hostOps0_17_keeps_arg3, hostOps0_18_keeps_arg3⟩
/-- Nor does the line after it, and `main_arg3` is none of the region's arrays: it ends as launched. -/
theorem kept_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact found_main_arg3 m c

set_option maxHeartbeats 4000000 in
theorem hostOps0_keeps_arg4 : (hostOps0 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_1_keeps_arg4 : (hostOps0_1 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_2_keeps_arg4 : (hostOps0_2 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_3_keeps_arg4 : (hostOps0_3 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_4_keeps_arg4 : (hostOps0_4 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_5_keeps_arg4 : (hostOps0_5 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_6_keeps_arg4 : (hostOps0_6 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_7_keeps_arg4 : (hostOps0_7 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_8_keeps_arg4 : (hostOps0_8 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_9_keeps_arg4 : (hostOps0_9 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_10_keeps_arg4 : (hostOps0_10 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_11_keeps_arg4 : (hostOps0_11 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_12_keeps_arg4 : (hostOps0_12 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_13_keeps_arg4 : (hostOps0_13 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_14_keeps_arg4 : (hostOps0_14 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_15_keeps_arg4 : (hostOps0_15 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_16_keeps_arg4 : (hostOps0_16 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_17_keeps_arg4 : (hostOps0_17 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_18_keeps_arg4 : (hostOps0_18 : List (HloOp τ sig (Elt F))).Forall fun op => Proc.devRef (τ := τ) .tc main_arg4 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- No line before the region writes `main_arg4`: the region finds it as launched. -/
theorem found_main_arg4 (c : Dev nD) : V m c main_arg4 = m ((c : Thread nD τ).loc main_arg4) :=
  found_of_not_written m c main_arg4 ⟨hostOps0_keeps_arg4, hostOps0_1_keeps_arg4, hostOps0_2_keeps_arg4, hostOps0_3_keeps_arg4, hostOps0_4_keeps_arg4, hostOps0_5_keeps_arg4, hostOps0_6_keeps_arg4, hostOps0_7_keeps_arg4, hostOps0_8_keeps_arg4, hostOps0_9_keeps_arg4, hostOps0_10_keeps_arg4, hostOps0_11_keeps_arg4, hostOps0_12_keeps_arg4, hostOps0_13_keeps_arg4, hostOps0_14_keeps_arg4, hostOps0_15_keeps_arg4, hostOps0_16_keeps_arg4, hostOps0_17_keeps_arg4, hostOps0_18_keeps_arg4⟩
/-- Nor does the line after it, and `main_arg4` is none of the region's arrays: it ends as launched. -/
theorem kept_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact found_main_arg4 m c

set_option maxHeartbeats 4000000 in
theorem hostOps0_keeps_arg5 : (hostOps0 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_1_keeps_arg5 : (hostOps0_1 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_2_keeps_arg5 : (hostOps0_2 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_3_keeps_arg5 : (hostOps0_3 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_4_keeps_arg5 : (hostOps0_4 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_5_keeps_arg5 : (hostOps0_5 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_6_keeps_arg5 : (hostOps0_6 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_7_keeps_arg5 : (hostOps0_7 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_8_keeps_arg5 : (hostOps0_8 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_9_keeps_arg5 : (hostOps0_9 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_10_keeps_arg5 : (hostOps0_10 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_11_keeps_arg5 : (hostOps0_11 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_12_keeps_arg5 : (hostOps0_12 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_13_keeps_arg5 : (hostOps0_13 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_14_keeps_arg5 : (hostOps0_14 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_15_keeps_arg5 : (hostOps0_15 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_16_keeps_arg5 : (hostOps0_16 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_17_keeps_arg5 : (hostOps0_17 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_18_keeps_arg5 : (hostOps0_18 : List (HloOp τ sig (Elt F))).Forall fun op => Proc.devRef (τ := τ) .tc main_arg5 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- No line before the region writes `main_arg5`: the region finds it as launched. -/
theorem found_main_arg5 (c : Dev nD) : V m c main_arg5 = m ((c : Thread nD τ).loc main_arg5) :=
  found_of_not_written m c main_arg5 ⟨hostOps0_keeps_arg5, hostOps0_1_keeps_arg5, hostOps0_2_keeps_arg5, hostOps0_3_keeps_arg5, hostOps0_4_keeps_arg5, hostOps0_5_keeps_arg5, hostOps0_6_keeps_arg5, hostOps0_7_keeps_arg5, hostOps0_8_keeps_arg5, hostOps0_9_keeps_arg5, hostOps0_10_keeps_arg5, hostOps0_11_keeps_arg5, hostOps0_12_keeps_arg5, hostOps0_13_keeps_arg5, hostOps0_14_keeps_arg5, hostOps0_15_keeps_arg5, hostOps0_16_keeps_arg5, hostOps0_17_keeps_arg5, hostOps0_18_keeps_arg5⟩
/-- Nor does the line after it, and `main_arg5` is none of the region's arrays: it ends as launched. -/
theorem kept_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg5 (by exact (by decide : ∀ w, Pipeline.arrRef spec0 w ≠ main_arg5))]
  exact found_main_arg5 m c

set_option maxHeartbeats 4000000 in
theorem hostOps0_keeps_arg6 : (hostOps0 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_1_keeps_arg6 : (hostOps0_1 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_2_keeps_arg6 : (hostOps0_2 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_3_keeps_arg6 : (hostOps0_3 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_4_keeps_arg6 : (hostOps0_4 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_5_keeps_arg6 : (hostOps0_5 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_6_keeps_arg6 : (hostOps0_6 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_7_keeps_arg6 : (hostOps0_7 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_8_keeps_arg6 : (hostOps0_8 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_9_keeps_arg6 : (hostOps0_9 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_10_keeps_arg6 : (hostOps0_10 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_11_keeps_arg6 : (hostOps0_11 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_12_keeps_arg6 : (hostOps0_12 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_13_keeps_arg6 : (hostOps0_13 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_14_keeps_arg6 : (hostOps0_14 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_15_keeps_arg6 : (hostOps0_15 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_16_keeps_arg6 : (hostOps0_16 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_17_keeps_arg6 : (hostOps0_17 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_18_keeps_arg6 : (hostOps0_18 : List (HloOp τ sig (Elt F))).Forall fun op => Proc.devRef (τ := τ) .tc main_arg6 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- No line before the region writes `main_arg6`: the region finds it as launched. -/
theorem found_main_arg6 (c : Dev nD) : V m c main_arg6 = m ((c : Thread nD τ).loc main_arg6) :=
  found_of_not_written m c main_arg6 ⟨hostOps0_keeps_arg6, hostOps0_1_keeps_arg6, hostOps0_2_keeps_arg6, hostOps0_3_keeps_arg6, hostOps0_4_keeps_arg6, hostOps0_5_keeps_arg6, hostOps0_6_keeps_arg6, hostOps0_7_keeps_arg6, hostOps0_8_keeps_arg6, hostOps0_9_keeps_arg6, hostOps0_10_keeps_arg6, hostOps0_11_keeps_arg6, hostOps0_12_keeps_arg6, hostOps0_13_keeps_arg6, hostOps0_14_keeps_arg6, hostOps0_15_keeps_arg6, hostOps0_16_keeps_arg6, hostOps0_17_keeps_arg6, hostOps0_18_keeps_arg6⟩
/-- Nor does the line after it, and `main_arg6` is none of the region's arrays: it ends as launched. -/
theorem kept_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg6 (by exact (by decide : ∀ w, Pipeline.arrRef spec0 w ≠ main_arg6))]
  exact found_main_arg6 m c

set_option maxHeartbeats 4000000 in
theorem hostOps0_keeps_arg7 : (hostOps0 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_1_keeps_arg7 : (hostOps0_1 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_2_keeps_arg7 : (hostOps0_2 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_3_keeps_arg7 : (hostOps0_3 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_4_keeps_arg7 : (hostOps0_4 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_5_keeps_arg7 : (hostOps0_5 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_6_keeps_arg7 : (hostOps0_6 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_7_keeps_arg7 : (hostOps0_7 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_8_keeps_arg7 : (hostOps0_8 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_9_keeps_arg7 : (hostOps0_9 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_10_keeps_arg7 : (hostOps0_10 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_11_keeps_arg7 : (hostOps0_11 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_12_keeps_arg7 : (hostOps0_12 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_13_keeps_arg7 : (hostOps0_13 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_14_keeps_arg7 : (hostOps0_14 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_15_keeps_arg7 : (hostOps0_15 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_16_keeps_arg7 : (hostOps0_16 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_17_keeps_arg7 : (hostOps0_17 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 4000000 in
theorem hostOps0_18_keeps_arg7 : (hostOps0_18 : List (HloOp τ sig (Elt F))).Forall fun op => Proc.devRef (τ := τ) .tc main_arg7 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- No line before the region writes `main_arg7`: the region finds it as launched. -/
theorem found_main_arg7 (c : Dev nD) : V m c main_arg7 = m ((c : Thread nD τ).loc main_arg7) :=
  found_of_not_written m c main_arg7 ⟨hostOps0_keeps_arg7, hostOps0_1_keeps_arg7, hostOps0_2_keeps_arg7, hostOps0_3_keeps_arg7, hostOps0_4_keeps_arg7, hostOps0_5_keeps_arg7, hostOps0_6_keeps_arg7, hostOps0_7_keeps_arg7, hostOps0_8_keeps_arg7, hostOps0_9_keeps_arg7, hostOps0_10_keeps_arg7, hostOps0_11_keeps_arg7, hostOps0_12_keeps_arg7, hostOps0_13_keeps_arg7, hostOps0_14_keeps_arg7, hostOps0_15_keeps_arg7, hostOps0_16_keeps_arg7, hostOps0_17_keeps_arg7, hostOps0_18_keeps_arg7⟩
/-- Nor does the line after it, and `main_arg7` is none of the region's arrays: it ends as launched. -/
theorem kept_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg7 (by exact (by decide : ∀ w, Pipeline.arrRef spec0 w ≠ main_arg7))]
  exact found_main_arg7 m c

end Cert.KernelIdeal.Around

end
-- ==== Proof.IdealRegion.lean ====
/-
  The kernel's one region, read at any float instance.

  The grid has 32 points. At point `t` the body is handed rows 16384·t … 16384·t + 16383 of the fused features (a
  [16384, 96] block, bf16) and the whole transposed weight matrix ([96, 32]; its block index never moves, so it is fetched
  at the first point only and found in place afterwards), and it stores ONE value over the whole [16384, 32] block of rows
  16384·t … of the result: the feature block times the weights rounded to bf16, accumulated from zero in f32. The body
  also loads the output block before storing; the store covers the block, so what it loaded is not used.

  The blocks of the result at distinct points are disjoint and the body keeps nothing between points, so the proof data
  is: each input buffer holds its block, the output buffer holds the product of the two input blocks. From it the
  library's frame run gives the run of @main, and the argument arrays end as launched because no host line and no
  window writes them.
-/
import proofs.«103901_j80736795230827_2_alg».proof.Proof.IdealAround
import proofs.«103901_j80736795230827_2_alg».proof.Proof.Gen.KernelIdeal.Skeleton
import proofs.«103901_j80736795230827_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 65536

noncomputable section

namespace Cert.KernelIdeal.Region

open Cert.KernelIdeal Cert.KernelIdeal.Gen Cert.KernelIdeal.Around
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's buffer holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's buffer holds its block at every point: fetched at the first, and where it is not fetched its
    block index has not moved and the body left the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a frame run -/

/-- From a run to the library's frame post — the region's arrays at what the proof data computes, every other buffer as
    the line after the region leaves it — the arguments end as launched: none is one of the region's arrays, and the
    line after the region writes none (`kept_main_argK`). -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (kept_main_arg0 m dats c),
    ((h c).2 main_arg1 (Pipeline.mem_restRefs_of main_arg1 (by decide) (by decide))).trans (kept_main_arg1 m dats c),
    ((h c).2 main_arg2 (Pipeline.mem_restRefs_of main_arg2 (by decide) (by decide))).trans (kept_main_arg2 m dats c),
    ((h c).2 main_arg3 (Pipeline.mem_restRefs_of main_arg3 (by decide) (by decide))).trans (kept_main_arg3 m dats c),
    ((h c).2 main_arg4 (Pipeline.mem_restRefs_of main_arg4 (by decide) (by decide))).trans (kept_main_arg4 m dats c),
    ((h c).2 main_arg5 (Pipeline.mem_restRefs_of main_arg5 (by decide) (by decide))).trans (kept_main_arg5 m dats c),
    ((h c).2 main_arg6 (Pipeline.mem_restRefs_of main_arg6 (by decide) (by decide))).trans (kept_main_arg6 m dats c),
    ((h c).2 main_arg7 (Pipeline.mem_restRefs_of main_arg7 (by decide) (by decide))).trans (kept_main_arg7 m dats c)⟩) h

/-! ## What the body leaves in the output block -/

/-- The whole feature block, the whole weight block, the whole output block, as rectangles. -/
abbrev wholeF : Rect S16384x96 := Rect.unit (s := S16384x96) ![0, 0] S16384x96.size inb_S16384x96_S16384x96_0_0
abbrev wholeW : Rect S96x32 := Rect.unit (s := S96x32) ![0, 0] S96x32.size inb_S96x32_S96x32_0_0
abbrev wholeO : Rect S16384x32 := Rect.unit (s := S16384x32) ![0, 0] S16384x32.size inb_S16384x32_S16384x32_0_0

/-- The output buffer after the body, from the two input blocks: its one store, over the whole block, of the product. -/
def out0_2 (x0 : Vec F S16384x96 .bf16) (x1 : Vec F S96x32 .f32) : Vec F S16384x32 .f32 :=
  View.canon [⟨wholeO, k0_pay1 (View.ld x0 wholeF) (View.ld x1 wholeW)⟩]

/-- The one store covers the block. -/
theorem cover0_2 (p0 : Vec F S16384x32 .f32) (y : S16384x32.Idx) :
    ∃ pc ∈ ([⟨wholeO, p0⟩] : List (View.Piece (Elt F) S16384x32 .f32)), y ∈ pc.1.set :=
  View.cover_of_tiled [⟨wholeO, p0⟩] S16384x32.size (by rfl) y

/-! ## The body's triple -/

set_option maxHeartbeats 1000000 in
/-- The body on whole buffers, the inputs' at contents `x0`, `x1` and the output's at anything, runs to the end holding
    the inputs' as they were and the output's at `out0_2 x0 x1`. -/
theorem sound_kernel (c : Dev nD) (E : Set ℕ) (i : grid0.Coords)
    (arg1 : Memref sig .tc .vmem S16384x96 .bf16) (harg1 : arg1.IsWhole)
    (arg2 : Memref sig .tc .vmem S96x32 .f32) (harg2 : arg2.IsWhole)
    (arg3 : Memref sig .tc .vmem S16384x32 .f32) (harg3 : arg3.IsWhole)
    (x0 : Vec F S16384x96 .bf16) (x1 : Vec F S96x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__fuse_mlp_kernel i arg1 harg1 arg2 harg2 arg3 harg3) K := by
  simp only [cc0__fuse_mlp_kernel_eq_skeleton]; unfold cc0__fuse_mlp_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- On core `c`: the arrays as the region finds them; after the body at point `t` each input buffer at its block and the
    output buffer at the product of the two input blocks; nothing of the kernel's own to keep; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has the region's three arrays at what the
    proof data computes and every other buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := after_sub) (hfresh := after_fresh) (hkeep := after_keeps)
    (hmain := hmain m Variants.none) (hA := A_eq m) (hΦ := fun _ _ => rfl)

/-- The frame: @main runs to the end without a fault and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.KernelIdeal.Region

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.BlockProduct.lean ====
/-
  One block of the result, entry by entry, over the extended reals.

  The value the body stores over its output block is the matrix product of the [16384, 96] feature block with the
  [96, 32] weight block, accumulated from zero. Over the extended reals the weights' rounding to bf16 is the identity, the
  two shape casts are casts of a shape to itself, and a product accumulated from zero is the plain sum over the
  contracted axis. So entry (p, q) of the block is Σ k, x (p, k) · w (k, q).
-/
import proofs.«103901_j80736795230827_2_alg».proof.Proof.Gen.KernelIdeal.Skeleton
import proofs.«103901_j80736795230827_2_alg».proof.Proof.LibDenseBlock
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen
open Idealize.ShloMosaic Idealize.ShloMosaic.ValueIdx Idealize.ShloMosaic.DenseBlock

/-- The body's product contracts the features' channel axis with the weights' first axis: the dimension numbers of
    [16384, 96] · [96, 32] → [16384, 32]. -/
theorem dims_eq : dot_S16384x96_S96x32_S16384x32_1_0_0_1_n_n
    = mmDims 16384 96 32 dot_S16384x96_S96x32_S16384x32_1_0_0_1_n_n_wf := rfl

/-- Entry (p, q) of the stored block is the sum over the 96 channels of feature (p, k) times weight (k, q). -/
theorem entry (x : Vec Ideal S16384x96 .bf16) (w : Vec Ideal S96x32 .f32) (p : Fin 16384) (q : Fin 32) :
    k0_pay1 (F := Ideal) x w (ix2 p q) = ∑ k : Fin 96, x (ix2 p k) * w (ix2 k q) := by
  unfold k0_pay1
  rw [shapeCast_self, shapeCast_self, dims_eq]
  exact matmul_zero_apply dot_S16384x96_S96x32_S16384x32_1_0_0_1_n_n_wf x (truncf .bf16 w bitsLt_bf16_f32) p q

/-! ## The product of a whole feature array with the weights, and its blocks of rows -/

/-- Entry (n, q) of features · weights: the sum over the 96 channels. -/
def productAt (A : (⟨2, ![524288, 96]⟩ : Shape).Idx → EReal) (B : (⟨2, ![96, 32]⟩ : Shape).Idx → EReal)
    (n : Fin 524288) (q : Fin 32) : EReal :=
  ∑ k : Fin 96, A (ix2 n k) * B (ix2 k q)

/-- The [524288, 32] product, index by index. -/
def product (A : (⟨2, ![524288, 96]⟩ : Shape).Idx → EReal) (B : (⟨2, ![96, 32]⟩ : Shape).Idx → EReal) :
    (⟨2, ![524288, 32]⟩ : Shape).Idx → EReal :=
  fun i => productAt A B (i 0) (i 1)

/-- A block of rows of the product is the product of the block of rows: if the feature block `x` holds rows `n p` of the
    array `A` and the weight block is the whole of `B`, entry (p, q) of what the body stores is entry (n p, q) of A · B. -/
theorem rows_entry (A : (⟨2, ![524288, 96]⟩ : Shape).Idx → EReal) (B : (⟨2, ![96, 32]⟩ : Shape).Idx → EReal)
    (x : Vec Ideal S16384x96 .bf16) (w : Vec Ideal S96x32 .f32) (n : Fin 16384 → Fin 524288)
    (hx : ∀ (p : Fin 16384) (k : Fin 96), x (ix2 p k) = A (ix2 (n p) k))
    (hw : ∀ (k : Fin 96) (q : Fin 32), w (ix2 k q) = B (ix2 k q)) (p : Fin 16384) (q : Fin 32) :
    k0_pay1 (F := Ideal) x w (ix2 p q) = productAt A B (n p) q := by
  rw [entry]
  exact Finset.sum_congr rfl fun k _ => by rw [hx, hw]

end Cert.KernelIdeal.BlockProduct

end
-- ==== Proof.WholeResult.lean ====
/-
  The kernel's result array, whole, over the extended reals.

  Point `t` of the grid writes back rows 16384·t … 16384·t + 16383 of the [524288, 32] result: the product of rows
  16384·t … of the fused features with the whole weight matrix. Entry (p, q) of that block is Σ k, features (16384·t + p, k)
  · weights (k, q): the block of the product of the WHOLE feature array with the weights. The 32 blocks tile the 524288
  rows, so the array ends at that product, and the line after the region reshapes it to [4096, 128, 32].
-/
import proofs.«103901_j80736795230827_2_alg».proof.Proof.IdealRegion
import proofs.«103901_j80736795230827_2_alg».proof.Proof.BlockProduct
import Idealize.ShloMosaic.Lib.Pipeline.Value
import Idealize.ShloMosaic.Lib.ValueIdx

set_option maxRecDepth 65536

noncomputable section

namespace Cert.KernelIdeal.Whole

open Cert.KernelIdeal Cert.KernelIdeal.Gen Cert.KernelIdeal.Around Cert.KernelIdeal.Region
open Idealize.ShloMosaic Idealize.ShloMosaic.TcCoe Idealize.ShloMosaic.ValueIdx
open Idealize.SL.Sem
open Idealize.ShloMosaic.Pipeline (Dat)
open Cert.KernelIdeal.BlockProduct (product productAt)

variable (m : (ℓ : Loc nD τ sig) → Buf (Elt Ideal) ℓ) (ρ : Dev nD → PrngReg)

/-! ## The two arrays the region finds -/

/-- The fused features (in bf16: the same extended reals) and the transposed weights, as the region finds them. -/
abbrev feats (c : Dev nD) : (⟨2, ![524288, 96]⟩ : Shape).Idx → EReal := V m c main_v467
abbrev weights (c : Dev nD) : (⟨2, ![96, 32]⟩ : Shape).Idx → EReal := V m c main_v468

/-! ## What a point writes back -/

theorem origin : (![0, 0] : Fin 2 → Nat) = fun _ => 0 := funext fun a => by fin_cases a <;> rfl

/-- The block indices over the grid: the feature and result blocks move down the rows with the point, the weight block
    stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- For ANY two arrays: the value the body stores at point `t`, computed from the two blocks the windows cut out of the
    arrays there, is block `t` of the arrays' product. The feature block is rows 16384·t … of the features, the weight
    block the whole weight array, the result block rows 16384·t … of the result. -/
theorem block_eq (A : (⟨2, ![524288, 96]⟩ : Shape).Idx → EReal) (B : (⟨2, ![96, 32]⟩ : Shape).Idx → EReal) (t : Fin cfg0.N) :
    (cfg0.win 2).cut (grid0.coords t)
        (k0_pay1 (F := Ideal) (((cfg0.win 0).blk t).view.read (Elt Ideal) A) (((cfg0.win 1).blk t).view.read (Elt Ideal) B))
      = ((cfg0.win 2).blk t).view.read (Elt Ideal) (product A B) := by
  obtain ⟨e0, e1, e2, e3, e4, e5⟩ := idx_facts t
  have hN : grid0.N = 32 := N_0
  have ht : t.val < grid0.N := t.isLt
  funext j
  obtain ⟨p, q, rfl⟩ : ∃ (p : Fin 16384) (q : Fin 32), j = ix2 p q := ⟨j 0, j 1, eq_ix2 j⟩
  refine (BlockProduct.rows_entry A B _ _ (fun p => ⟨t.val * 16384 + p.val, by have := p.isLt; omega⟩) ?_ ?_ p q).trans ?_
  · intro p k
    refine congrArg A (funext fun a => Fin.ext ?_)
    match a with
    | ⟨0, _⟩ => show win0_0.index t (0 : Fin 2) * 16384 + 1 * p.val = t.val * 16384 + p.val; omega
    | ⟨1, _⟩ => show win0_0.index t (1 : Fin 2) * 96 + 1 * k.val = k.val; omega
  · intro k q
    refine congrArg B (funext fun a => Fin.ext ?_)
    match a with
    | ⟨0, _⟩ => show win0_1.index t (0 : Fin 2) * 96 + 1 * k.val = k.val; omega
    | ⟨1, _⟩ => show win0_1.index t (1 : Fin 2) * 32 + 1 * q.val = q.val; omega
  · refine (congrArg₂ (productAt A B) (Fin.ext ?_) (Fin.ext ?_) :
      productAt A B (⟨t.val * 16384 + p.val, by have := p.isLt; omega⟩ : Fin 524288) q
        = productAt A B ((((cfg0.win 2).blk t).view.emb (ix2 p q)) 0) ((((cfg0.win 2).blk t).view.emb (ix2 p q)) 1))
    · show t.val * 16384 + p.val = win0_2.index t (0 : Fin 2) * 16384 + 1 * p.val; omega
    · show q.val = win0_2.index t (1 : Fin 2) * 32 + 1 * q.val; omega

/-- What point `t` writes back is block `t` of the product of the two arrays the region finds. -/
theorem flushed_eq (c : Dev nD) (t : Fin cfg0.N) :
    (dats m 0 c).flushed 2 t = ((cfg0.win 2).blk t).view.read (Elt Ideal) (product (feats m c) (weights m c)) := by
  show (cfg0.win 2).cut (grid0.coords t) ((dats m 0 c).after 2 t) = _
  rw [after0_2]
  unfold out0_2
  rw [View.canon_unit_zero origin]
  simp only [View.ld_unit_zero (S := S16384x96) origin, View.ld_unit_zero (S := S96x32) origin]
  unfold iblk
  rw [show V m c (Pipeline.arrRef spec0 0) = feats m c from rfl, show V m c (Pipeline.arrRef spec0 1) = weights m c from rfl]
  generalize feats m c = A
  generalize weights m c = B
  exact block_eq A B t

/-! ## The blocks tile the rows -/

/-- An index of the result is in point `t`'s block iff each coordinate is in the block's range on its axis. -/
theorem mem_blk (t : Fin cfg0.N) (i : S524288x32.Idx) :
    i ∈ ((cfg0.win 2).blk t).view.set ↔ ∀ a : Fin 2, win0_2.index t a * S16384x32.size a ≤ (i a).val ∧ (i a).val < win0_2.index t a * S16384x32.size a + S16384x32.size a := by
  show i ∈ ((View.whole main_v469).slice (win0_2.rect t)).set ↔ _
  rw [View.set_slice_whole, Rect.mem_set_unit]
  exact Iff.rfl

/-- Row `r` is in the block of point `r / 16384`. -/
theorem cover (i : S524288x32.Idx) : ∃ t : Fin cfg0.N, (cfg0.win 2).flush t = true ∧ i ∈ ((cfg0.win 2).blk t).view.set := by
  have hi0 : (i 0).val < 524288 := (i 0).isLt
  have hi1 : (i 1).val < 32 := (i 1).isLt
  have hN : grid0.N = 32 := N_0
  let t : Fin cfg0.N := ⟨(i 0).val / 16384, by show _ < grid0.N; omega⟩
  have ht : t.val = (i 0).val / 16384 := rfl
  obtain ⟨-, -, -, -, e4, e5⟩ := idx_facts t
  refine ⟨t, flush0_2 t, ?_⟩
  rw [mem_blk]
  intro a
  match a with
  | ⟨0, _⟩ => show win0_2.index t (0 : Fin 2) * 16384 ≤ (i 0).val ∧ (i 0).val < win0_2.index t (0 : Fin 2) * 16384 + 16384; omega
  | ⟨1, _⟩ => show win0_2.index t (1 : Fin 2) * 32 ≤ (i 1).val ∧ (i 1).val < win0_2.index t (1 : Fin 2) * 32 + 32; omega

/-- The result array after the region: the product of the whole feature array with the weights. -/
theorem final (c : Dev nD) : (dats m 0 c).arrAt 2 cfg0.N = product (feats m c) (weights m c) :=
  (dats m 0 c).arrAt_eq_of_cover 2 (product (feats m c) (weights m c)) (fun t _ => flushed_eq m c t) cover

/-! ## The run, with the result named -/

/-- The line after the region reshapes that array. -/
theorem result_eq (c : Dev nD) :
    Pipeline.afterTail₀ cfgs (dats m) 0 (V0 m) [hostOps1] c main_v470
      = shapeCast S4096x128x32 (product (feats m c) (weights m c)) shapeCasts_S524288x32_S4096x128x32 := by
  unfold Pipeline.afterTail₀
  show StableHlo.after hostOps1 _ (Proc.devRef .tc main_v470) = _
  after_results
  exact congrArg (fun z => shapeCast S4096x128x32 z shapeCasts_S524288x32_S4096x128x32)
    ((Pipeline.withArrays_arr spec0 launch0.win.arr_inj c _ _ 2).trans (final m c))

/-- Every weakly fair execution of @main terminates with the result at the reshaped product and the arguments as
    launched. -/
theorem run : θ_run defs (onTc (τ := τ) (main (F := Ideal))) ⟨m, fun _ => 0, ρ⟩ (fun r => ∀ c : Dev nD,
      r.2.mem ((c.tc : Thread nD τ).loc main_v470) = shapeCast S4096x128x32 (product (feats m c) (weights m c)) shapeCasts_S524288x32_S4096x128x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v470 (Pipeline.mem_restRefs_of main_v470 (by decide) (by decide))).trans (result_eq m c),
    ((h c).2 main_arg0 (Pipeline.mem_restRefs_of main_arg0 (by decide) (by decide))).trans (kept_main_arg0 m (dats m) c),
    ((h c).2 main_arg1 (Pipeline.mem_restRefs_of main_arg1 (by decide) (by decide))).trans (kept_main_arg1 m (dats m) c),
    ((h c).2 main_arg2 (Pipeline.mem_restRefs_of main_arg2 (by decide) (by decide))).trans (kept_main_arg2 m (dats m) c),
    ((h c).2 main_arg3 (Pipeline.mem_restRefs_of main_arg3 (by decide) (by decide))).trans (kept_main_arg3 m (dats m) c),
    ((h c).2 main_arg4 (Pipeline.mem_restRefs_of main_arg4 (by decide) (by decide))).trans (kept_main_arg4 m (dats m) c),
    ((h c).2 main_arg5 (Pipeline.mem_restRefs_of main_arg5 (by decide) (by decide))).trans (kept_main_arg5 m (dats m) c),
    ((h c).2 main_arg6 (Pipeline.mem_restRefs_of main_arg6 (by decide) (by decide))).trans (kept_main_arg6 m (dats m) c),
    ((h c).2 main_arg7 (Pipeline.mem_restRefs_of main_arg7 (by decide) (by decide))).trans (kept_main_arg7 m (dats m) c)⟩)
    (run_main m ρ)

end Cert.KernelIdeal.Whole

end
-- ==== Proof.LibHostEval.lean ====
/-
  Reading a buffer after a line of host operations, when the line joins two or three arrays.

  A host line that takes a family of operands (a `concatenate`) is printed `nary ![a, b] …` or `nary ![a, b, c] …`. What
  its result buffer holds afterwards is its function of the operands' contents, operand `k` read at the reference
  `![a, b, c] k`: a lookup in a literal vector, not yet a literal reference, so a pass that computes a buffer's contents
  operation by operation has nothing to say about what the EARLIER lines left there and stops. Computing the lookup
  (`![a, b, c] 1` is `b`, by definition) gives the literal reference back. The joined pieces themselves sit in a list of
  (shape, array) pairs whose shapes also type the join's side condition, where a rewriting pass does not descend; written
  as a plain function of its pieces (`join2`, `join3`: the same array, by definition) the join lets the pass through.
  `host_line_results` alternates the lookups and the pass until the contents are a term over the launch contents of the
  arguments.
-/
import Idealize.ShloMosaic.Lib.StableHlo.Run

noncomputable section

namespace Idealize.ShloMosaic.StableHlo

/-! A literal vector of two or three entries, read at a literal position: the entry there, by definition. -/

theorem vec2_at0 {α : Type _} (a b : α) : (![a, b] : Fin 2 → α) 0 = a := rfl
theorem vec2_at1 {α : Type _} (a b : α) : (![a, b] : Fin 2 → α) 1 = b := rfl
theorem vec3_at0 {α : Type _} (a b c : α) : (![a, b, c] : Fin 3 → α) 0 = a := rfl
theorem vec3_at1 {α : Type _} (a b c : α) : (![a, b, c] : Fin 3 → α) 1 = b := rfl
theorem vec3_at2 {α : Type _} (a b c : α) : (![a, b, c] : Fin 3 → α) 2 = c := rfl

/-! Two or three arrays joined along an axis, as a function of the pieces. -/

/-- Two arrays joined along axis `a`. -/
def join2 {α : Type _} (t : Shape) (a : Fin t.rank) (s0 s1 : Shape) (h : Shape.Concatenates [s0, s1] t a)
    (x0 : s0.Idx → α) (x1 : s1.Idx → α) : t.Idx → α :=
  concatenate t a [⟨s0, x0⟩, ⟨s1, x1⟩] h

/-- Three arrays joined along axis `a`. -/
def join3 {α : Type _} (t : Shape) (a : Fin t.rank) (s0 s1 s2 : Shape) (h : Shape.Concatenates [s0, s1, s2] t a)
    (x0 : s0.Idx → α) (x1 : s1.Idx → α) (x2 : s2.Idx → α) : t.Idx → α :=
  concatenate t a [⟨s0, x0⟩, ⟨s1, x1⟩, ⟨s2, x2⟩] h

theorem join2_fold {α : Type _} (t : Shape) (a : Fin t.rank) (s0 s1 : Shape) (h : Shape.Concatenates [s0, s1] t a)
    (x0 : s0.Idx → α) (x1 : s1.Idx → α) : concatenate t a [⟨s0, x0⟩, ⟨s1, x1⟩] h = join2 t a s0 s1 h x0 x1 := rfl

theorem join3_fold {α : Type _} (t : Shape) (a : Fin t.rank) (s0 s1 s2 : Shape) (h : Shape.Concatenates [s0, s1, s2] t a)
    (x0 : s0.Idx → α) (x1 : s1.Idx → α) (x2 : s2.Idx → α) :
    concatenate t a [⟨s0, x0⟩, ⟨s1, x1⟩, ⟨s2, x2⟩] h = join3 t a s0 s1 s2 h x0 x1 x2 := rfl

/-- One pass: each operation's result at its own buffer is its function of its operands' contents, and at any other
    buffer what was there (the two references told apart by `decide`); a join of two or three pieces is written as the
    function of its pieces. -/
macro "host_line_pass" : tactic =>
  `(tactic| (simp (disch := decide) only [after_cons, after_nil,
      nullary_result', unary_result', binary_result', ternary_result', quaternary_result', reshape_result',
      nary_result', unaryIndexed_result', binaryIndexed_result',
      nullary_result_ne', unary_result_ne', binary_result_ne', ternary_result_ne', quaternary_result_ne', reshape_result_ne',
      nary_result_ne', unaryIndexed_result_ne', binaryIndexed_result_ne', join2_fold, join3_fold]))

/-- The contents of one buffer after a literal line of operations: the pass, then, as long as a family's operand is
    still read through a literal vector, that lookup computed and the pass again. -/
macro "host_line_results" : tactic =>
  `(tactic| (host_line_pass
             repeat (dsimp only [vec2_at0, vec2_at1, vec3_at0, vec3_at1, vec3_at2]; host_line_pass)))

end Idealize.ShloMosaic.StableHlo

end
-- ==== Proof.LibHostCast.lean ====
/-
  A value stored through a typed buffer reference and read back.

  A host operation's builder transports a value at the operation's stated type to the buffer's own type, and an
  operand's contents back; the two types are equal, so reading back what was stored gives the value.
-/
import Idealize.ShloMosaic.Lib.StableHlo

noncomputable section

namespace Idealize.ShloMosaic.HostCast

open Idealize.ShloMosaic Idealize.ShloMosaic.StableHlo

/-- Stored, then read back: the value. -/
theorem ofBuf_toBuf {sg : RefSig} {Val : EltTy → Type} {T : BufTy} (x : TRef sg T) (v : T.Contents Val) :
    x.ofBuf (x.toBuf v) = v := by
  obtain ⟨r, h, _, _⟩ := x
  subst h
  rfl

end Idealize.ShloMosaic.HostCast

end
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«103901_j80736795230827_2_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.SameProduct.lean ====
/-
  The reference computes the same product of the same two arrays.

  The reference's host program runs, line for line, the lines the kernel's @main runs before its region — the sample
  coordinates, the gathers, the interpolations, the products of plane and line samples, their concatenation — and then
  multiplies the concatenated [524288, 96] features by the transposed weights in one `dot_general` and reshapes. The kernel
  rounds the concatenated features to bf16 before its region; over the extended reals that rounding is the identity. So,
  from memories that agree on the arguments, the reference's two operands ARE the two arrays the kernel's region finds,
  and its result is the reshaped product `Whole.product` of them: a `dot_general` contracting the channel axis is, entry by
  entry, the plain sum over the 96 channels — the same sum the kernel accumulates block of rows by block of rows.
-/
import proofs.«103901_j80736795230827_2_alg».proof.Proof.WholeResult
import proofs.«103901_j80736795230827_2_alg».proof.Proof.RefRun
import proofs.«103901_j80736795230827_2_alg».proof.Proof.LibDenseHost
import proofs.«103901_j80736795230827_2_alg».proof.Proof.LibHostCast
import proofs.«103901_j80736795230827_2_alg».proof.Proof.LibHostEval

set_option maxRecDepth 65536

noncomputable section

namespace Cert.SameProduct

open Idealize.ShloMosaic Idealize.ShloMosaic.TcCoe Idealize.ShloMosaic.ValueIdx Idealize.ShloMosaic.DenseBlock
open Idealize.SL.Sem Idealize.ShloMosaic.StableHlo
open Cert.KernelIdeal.BlockProduct (product productAt)
open Cert.KernelIdeal.Whole (feats weights)

/-! ## The host's product, entry by entry -/

/-- The reference's `dot_general` contracts the features' channel axis with the weights' first axis. -/
theorem dims_eq : Cert.ReferenceIdeal.dot_S524288x96_S96x32_S524288x32_1_0_0_1_n_n
    = mmDims 524288 96 32 Cert.ReferenceIdeal.Gen.dot_S524288x96_S96x32_S524288x32_1_0_0_1_n_n_wf := rfl

/-- The host's product of a [524288, 96] array with a [96, 32] array is `product`: each entry the sum over the channels. -/
theorem host_product (A : (⟨2, ![524288, 96]⟩ : Shape).Idx → EReal) (B : (⟨2, ![96, 32]⟩ : Shape).Idx → EReal) :
    (Host.dotGeneral (F := Ideal) (φ₁ := .f32) (φ₂ := .f32) Cert.ReferenceIdeal.dot_S524288x96_S96x32_S524288x32_1_0_0_1_n_n none A B
      : (⟨2, ![524288, 32]⟩ : Shape).Idx → EReal) = product A B := by
  funext i
  obtain ⟨n, q, rfl⟩ : ∃ (n : Fin 524288) (q : Fin 32), i = ix2 n q := ⟨i 0, i 1, eq_ix2 i⟩
  rw [dims_eq]
  exact dotGeneral_apply_ix2 Cert.ReferenceIdeal.Gen.dot_S524288x96_S96x32_S524288x32_1_0_0_1_n_n_wf .single A B n q

/-! ## The reference's operands are the arrays the kernel's region finds -/

section
open Cert.KernelIdeal Cert.KernelIdeal.Gen Cert.KernelIdeal.Around

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

set_option maxHeartbeats 1000000000 in
/-- From memories agreeing on the eight arguments, the reference's result is the reshaped host product of the kernel's
    two entry arrays: both programs run the same lines on the same arguments up to the concatenation, and the rounding to
    bf16 that follows in the kernel is the identity on extended reals. -/
theorem reference_operands (c : Dev Cert.ReferenceIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.ValueP.res_main_v469 m' c
      = shapeCast Cert.ReferenceIdeal.S4096x128x32 (Host.dotGeneral (F := Ideal) (φ₁ := .f32) (φ₂ := .f32) Cert.ReferenceIdeal.dot_S524288x96_S96x32_S524288x32_1_0_0_1_n_n none
          (feats m c) (weights m c)) Cert.ReferenceIdeal.Gen.shapeCasts_S524288x32_S4096x128x32 := by
  unfold Cert.ReferenceIdeal.ValueP.res_main_v469
  rw [h0, h1, h2, h3, h4, h5, h6, h7]
  dsimp only [feats, weights, V, V0]
  simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  host_line_results
  all_goals try simp only [HostCast.ofBuf_toBuf]
  all_goals rfl

/-- So the reference's result is the reshaped product of those two arrays — what the kernel's run leaves in its result. -/
theorem reference_result (c : Dev Cert.ReferenceIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.ValueP.res_main_v469 m' c
      = shapeCast Cert.KernelIdeal.S4096x128x32 (product (feats m c) (weights m c)) Cert.KernelIdeal.Gen.shapeCasts_S524288x32_S4096x128x32 := by
  rw [reference_operands m m' c h0 h1 h2 h3 h4 h5 h6 h7, host_product]

end

end Cert.SameProduct

end
-- ==== Proof.lean ====
/-
  The embedding lookup with its basis projection: kernel against reference.

  Both programs compute, on the host and line for line alike, the fused features of 524288 sample points: each point's
  three coordinates are normalised, each of three feature planes is sampled bilinearly (four corner gathers) and each of
  three feature lines linearly (two gathers), every plane sample is multiplied by its line sample, and the three products
  are joined into 96 channels. The reference then multiplies the [524288, 96] features by the transposed [32, 96] basis
  matrix in one host product. The kernel rounds the features to bf16 and computes the same product in a region of 32 grid
  points, 16384 rows at a time, the weights rounded to bf16 inside the body and the sums accumulated from zero in f32.

  Over the extended reals a change of float format is the identity and a product accumulated from zero is the plain sum
  over the 96 channels, so each entry of either result is Σ k, features (n, k) · basis (q, k), of the same features and the
  same basis: the two results are equal entry by entry (`algebraic`). No law of the extended reals beyond the definition
  of the two products is used, so the finiteness of the inputs is never opened.

  The frames: no host line of either program allocates or writes an argument array, the kernel's body touches only its
  three staging buffers, and its output blocks are disjoint; so every execution runs to the end without a fault and the
  arguments end as launched, at the word level and over the extended reals alike (`Cert.Kernel.Region.frame`,
  `Cert.KernelIdeal.Region.frame`; the reference's from its run). The ideal pass rewrote nothing, so `preserves` is `True`.
-/
import proofs.«103901_j80736795230827_2_alg».proof.Defs
import proofs.«103901_j80736795230827_2_alg».proof.Proof.Gen.Kernel
import proofs.«103901_j80736795230827_2_alg».proof.Proof.Gen.KernelIdeal
import proofs.«103901_j80736795230827_2_alg».proof.Proof.Gen.ReferenceIdeal
import proofs.«103901_j80736795230827_2_alg».proof.Proof.Gen.Pre_finite_inputs
import proofs.«103901_j80736795230827_2_alg».proof.Proof.BitsRegion
import proofs.«103901_j80736795230827_2_alg».proof.Proof.SameProduct
import Idealize.ShloMosaic.Adequacy
import Idealize.ShloMosaic.Init

noncomputable section

namespace Cert.Proof

open Idealize.ShloMosaic Idealize.ShloMosaic.TcCoe Idealize.SL.Sem
open Cert.KernelIdeal.BlockProduct (product)
open Cert.KernelIdeal.Whole (feats weights)

/-- The word-level kernel runs to the end and leaves its arguments as launched. -/
theorem frame_kernel : Cert.frame_Kernel := fun m ρ _ => Cert.Kernel.Region.frame m ρ

/-- So does the kernel read over the extended reals. -/
theorem frame_kernelIdeal : Cert.frame_KernelIdeal := fun m ρ _ => Cert.KernelIdeal.Region.frame m ρ

/-- The reference is host lines only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the reshaped product of the fused features with the
    transposed basis matrix: the kernel block of rows by block of rows, the reference in one host product. -/
theorem algebraic : Cert.algebraic_KernelIdeal_ReferenceIdeal := by
  intro m ρ m' ρ' _ hagree
  refine ⟨fun c => shapeCast Cert.KernelIdeal.S4096x128x32 (product (feats m c) (weights m c))
      Cert.KernelIdeal.Gen.shapeCasts_S524288x32_S4096x128x32, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  exact Cert.SameProduct.reference_result m m' c a0 a1 a2 a3 a4 a5 a6 a7

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
